-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x11008 : Shape := ⟨2, ![4096, 11008]⟩
abbrev S4096 : Shape := ⟨1, ![4096]⟩
abbrev S11008x4096 : Shape := ⟨2, ![11008, 4096]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S4096 : S_.BroadcastsInDim S4096 (![] : Fin 0 → Fin S4096.rank)
  reducesTo_S4096_S_d0 : S4096.ReducesTo [0] S_
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg4 : FVec F S4096 .f32) (main_arg5 : FVec F S11008x4096 .f32) (main_arg6 : FVec F S11008 .f32) (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S11008x4096 .f32 := Host.absf main_arg5
  let main_cst_8 : FVec F S_ .f32 := constant S_ .f32 0x7F800000#32
  let main_v25 : FVec F S11008x4096 .f32 := broadcastInDim S11008x4096 ![] bcast_S_S11008x4096 main_cst_8
  let main_v26 : IVec S11008x4096 1 := cmpf .olt main_v24 main_v25
  let main_c_9 : IVec S_ 1 := constantI S_ 1 1#1
  let main_v27 : IVec S_ 1 := (fun x v => Host.reduce IntOp.andi x v reducesTo_S11008x4096_S_d0_1 h_S_) main_v26 main_c_9
  let main_v28 : IVec S_ 1 := andi main_v23 main_v27
  let main_v29 : FVec F S11008 .f32 := Host.absf main_arg6
  let main_cst_10 : FVec F S_ .f32 := constant S_ .f32 0x7F800000#32
  let main_v30 : FVec F S11008 .f32 := broadcastInDim S11008 ![] bcast_S_S11008 main_cst_10
  let main_v31 : IVec S11008 1 := cmpf .olt main_v29 main_v30
  let main_c_11 : IVec S_ 1 := constantI S_ 1 1#1
  let main_v32 : IVec S_ 1 := (fun x v => Host.reduce IntOp.andi x v reducesTo_S11008_S_d0 h_S_) main_v31 main_c_11
  let main_v33 : IVec S_ 1 := andi main_v28 main_v32
  main_v33

def fn {F : FTy → Type} [FloatOps F] (main_arg0 : FVec F S4096x4096 .f32) (main_arg1 : FVec F S4096x11008 .f32) (main_arg2 : FVec F S4096 .f32) (main_arg3 : FVec F S4096x11008 .f32) (main_arg4 : FVec F S4096 .f32) (main_arg5 : FVec F S11008x4096 .f32) (main_arg6 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x11008 .f32 := Host.absf main_arg1
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_arg4 main_arg5 main_arg6 main_v13 main_v16
-- ==== Kernel.lean ====
abbrev S4096x4096 : Shape := ⟨2, ![4096, 4096]⟩
abbrev S4096x11008 : Shape := ⟨2, ![4096, 11008]⟩
abbrev S4096 : Shape := ⟨1, ![4096]⟩
abbrev S11008x4096 : Shape := ⟨2, ![11008, 4096]⟩
abbrev S11008 : Shape := ⟨1, ![11008]⟩
abbrev S4096x1 : Shape := ⟨2, ![4096, 1]⟩
abbrev S11008x1 : Shape := ⟨2, ![11008, 1]⟩
abbrev S1024x1024 : Shape := ⟨2, ![1024, 1024]⟩
abbrev S1024x256 : Shape := ⟨2, ![1024, 256]⟩
abbrev S1024x1 : Shape := ⟨2, ![1024, 1]⟩
abbrev S256x1024 : Shape := ⟨2, ![256, 1024]⟩
abbrev S256x1 : Shape := ⟨2, ![256, 1]⟩

abbrev nBuf : Space → Nat
  | .hbm => 12
  | .vmem => 23
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096, .f32⟩
  | .hbm, ⟨3, _⟩ => ⟨S4096x11008, .f32⟩
  | .hbm, ⟨4, _⟩ => ⟨S4096, .f32⟩
  | .hbm, ⟨5, _⟩ => ⟨S11008x4096, .f32⟩
  | .hbm, ⟨6, _⟩ => ⟨S11008, .f32⟩
  | .hbm, ⟨7, _⟩ => ⟨S4096x1, .f32⟩
  | .hbm, ⟨8, _⟩ => ⟨S4096x1, .f32⟩
  | .hbm, ⟨9, _⟩ => ⟨S11008x1, .f32⟩
  | .hbm, ⟨10, _⟩ => ⟨S4096x11008, .bf16⟩
  | .hbm, ⟨11, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x1, .f32⟩
  | .local _ .vmem, ⟨5, _⟩ => ⟨S1024x1, .f32⟩
  | .local _ .vmem, ⟨6, _⟩ => ⟨S1024x256, .f32⟩
  | .local _ .vmem, ⟨7, _⟩ => ⟨S1024x256, .f32⟩
  | .local _ .vmem, ⟨8, _⟩ => ⟨S1024x1, .f32⟩
  | .local _ .vmem, ⟨9, _⟩ => ⟨S1024x1, .f32⟩
  | .local _ .vmem, ⟨10, _⟩ => ⟨S1024x256, .bf16⟩
  | .local _ .vmem, ⟨11, _⟩ => ⟨S1024x256, .bf16⟩
  | .local _ .vmem, ⟨12, _⟩ => ⟨S1024x256, .f32⟩
  | .local _ .vmem, ⟨13, _⟩ => ⟨S1024x256, .f32⟩
  | .local _ .vmem, ⟨14, _⟩ => ⟨S1024x256, .bf16⟩
  | .local _ .vmem, ⟨15, _⟩ => ⟨S1024x256, .bf16⟩
  | .local _ .vmem, ⟨16, _⟩ => ⟨S256x1024, .f32⟩
  | .local _ .vmem, ⟨17, _⟩ => ⟨S256x1024, .f32⟩
  | .local _ .vmem, ⟨18, _⟩ => ⟨S256x1, .f32⟩
  | .local _ .vmem, ⟨19, _⟩ => ⟨S256x1, .f32⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨3, ![4, 43, 4], ![false, false, false]⟩

def k0_cond2 (i : grid0.Coords) : BitVec 1 :=
  let arg2 : BitVec 32 := BitVec.ofNat 32 (i 2).val
  let c3_i32 : BitVec 32 := 3#32
  let v29 : BitVec 1 := Scalar.cmpi .eq arg2 c3_i32
  let v30 : BitVec 32 := Scalar.extui v29
  let c0_i32_19 : BitVec 32 := 0#32
  let v31 : BitVec 1 := Scalar.cmpi .ne v30 c0_i32_19
  v31

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev grid1 : Pipeline.Grid := ⟨3, ![4, 4, 43], ![false, false, false]⟩

def k1_cond2 (i : grid1.Coords) : BitVec 1 :=
  let arg2 : BitVec 32 := BitVec.ofNat 32 (i 2).val
  let c42_i32 : BitVec 32 := 42#32
  let v17 : BitVec 1 := Scalar.cmpi .eq arg2 c42_i32
  let v18 : BitVec 32 := Scalar.extui v17
  let c0_i32_10 : BitVec 32 := 0#32
  let v19 : BitVec 1 := Scalar.cmpi .ne v18 c0_i32_10
  v19

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  bcast_S4096_S4096x1_0 : S4096.BroadcastsInDim S4096x1 (![0] : Fin 1 → Fin S4096x1.rank)
  bcast_S11008_S11008x1_0 : S11008.BroadcastsInDim S11008x1 (![0] : Fin 1 → Fin S11008x1.rank)
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  packedbf16_S1024x256_S1024x256_0_0 : (Rect.unit (s := S1024x256) ![0, 0] S1024x256.size inb_S1024x256_S1024x256_0_0).PackedRows (EltTy.packing .bf16)
  shapeCasts_S1024x1024_S1024x1024 : S1024x1024.ShapeCasts S1024x1024
  inb_S256x1024_S256x1024_0_0 : ∀ a, (![0, 0] : Fin 2 → Nat) a + S256x1024.size a ≤ S256x1024.size a
  h_S256x1024 : 0 < S256x1024.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x1024 : S256x1.Broadcasts S256x1024
  dot_S1024x1024_S1024x256_S1024x256_1_0_0_1_n_n_wf : DotDims.WF S1024x1024 S1024x256 S1024x256 [1] [0] [0] [1] [] []
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x11008.size a
  hwx0_1 : ∀ i : grid0.Coords, EltTy.bits .f32 = 32 ∨ (Rect.block (s := S4096x11008) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S4096x11008.size a
  hwx0_3 : ∀ i : grid0.Coords, EltTy.bits .f32 = 32 ∨ (Rect.block (s := S4096x11008) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S4096x1.size a
  hwx0_4 : ∀ i : grid0.Coords, EltTy.bits .f32 = 32 ∨ (Rect.block (s := S4096x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S4096x11008.size a
  hwx0_5 : ∀ i : grid0.Coords, EltTy.bits .bf16 = 32 ∨ (Rect.block (s := S4096x11008) S1024x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x11008.size a
  hwx1_0 : ∀ i : grid1.Coords, EltTy.bits .bf16 = 32 ∨ (Rect.block (s := S4096x11008) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S11008x4096.size a
  hwx1_1 : ∀ i : grid1.Coords, EltTy.bits .f32 = 32 ∨ (Rect.block (s := S11008x4096) S256x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S11008x1.size a
  hwx1_2 : ∀ i : grid1.Coords, EltTy.bits .f32 = 32 ∨ (Rect.block (s := S11008x1) S256x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .f32 = 32 ∨ (Rect.block (s := S4096x4096) S1024x1024.size (cc1_transform_3 i) (hinb1_3 i)).WholeWords (EltTy.packing .f32)

variable [Facts₀]

def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v3) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x11008 : Shape := ⟨2, ![4096, 11008]⟩
abbrev S4096 : Shape := ⟨1, ![4096]⟩
abbrev S11008x4096 : Shape := ⟨2, ![11008, 4096]⟩
abbrev S11008 : Shape := ⟨1, ![11008]⟩
abbrev S4096x1 : Shape := ⟨2, ![4096, 1]⟩
abbrev S11008x1 : Shape := ⟨2, ![11008, 1]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x11008, .f32⟩
  | .hbm, ⟨2, _⟩ => ⟨S4096, .f32⟩
  | .hbm, ⟨3, _⟩ => ⟨S4096x11008, .f32⟩
  | .hbm, ⟨4, _⟩ => ⟨S4096, .f32⟩
  | .hbm, ⟨5, _⟩ => ⟨S11008x4096, .f32⟩
  | .hbm, ⟨6, _⟩ => ⟨S11008, .f32⟩
  | .hbm, ⟨7, _⟩ => ⟨S4096x1, .f32⟩
  | .hbm, ⟨8, _⟩ => ⟨S4096x11008, .f32⟩
  | .hbm, ⟨9, _⟩ => ⟨S4096x11008, .f32⟩
  | .hbm, ⟨10, _⟩ => ⟨S4096x1, .f32⟩
  | .hbm, ⟨11, _⟩ => ⟨S4096x11008, .f32⟩
  | .hbm, ⟨12, _⟩ => ⟨S4096x11008, .f32⟩
  | .hbm, ⟨13, _⟩ => ⟨S11008x1, .f32⟩
  | .hbm, ⟨14, _⟩ => ⟨S11008x4096, .f32⟩
  | .hbm, ⟨15, _⟩ => ⟨S11008x4096, .f32⟩
  | .hbm, ⟨16, _⟩ => ⟨S4096x11008, .f32⟩
  | .hbm, ⟨17, _⟩ => ⟨S4096x11008, .f32⟩
  | .hbm, ⟨18, _⟩ => ⟨S4096x11008, .f32⟩
  | .hbm, ⟨19, _⟩ => ⟨S4096x11008, .f32⟩
  | .hbm, ⟨20, _⟩ => ⟨S_, .f32⟩
  | .hbm, ⟨21, _⟩ => ⟨S4096x11008, .f32⟩
  | .hbm, ⟨22, _⟩ => ⟨S4096x11008, .f32⟩
  | .hbm, ⟨23, _⟩ => ⟨S_, .f32⟩
  | .hbm, ⟨24, _⟩ => ⟨S4096x11008, .f32⟩
  | .hbm, ⟨25, _⟩ => ⟨S4096x11008, .f32⟩
  | .hbm, ⟨26, _⟩ => ⟨S4096x11008, .f32⟩
  | .hbm, ⟨27, _⟩ => ⟨S4096x11008, .f32⟩
  | .hbm, ⟨28, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x11008_0_1 : S4096x1.BroadcastsInDim S4096x11008 (![0, 1] : Fin 2 → Fin S4096x11008.rank)
  bcast_S11008_S11008x1_0 : S11008.BroadcastsInDim S11008x1 (![0] : Fin 1 → Fin S11008x1.rank)
  bcast_S11008x1_S11008x4096_0_1 : S11008x1.BroadcastsInDim S11008x4096 (![0, 1] : Fin 2 → Fin S11008x4096.rank)
  bcast_S_S4096x11008 : S_.BroadcastsInDim S4096x11008 (![] : Fin 0 → Fin S4096x11008.rank)
  dot_S4096x4096_S4096x11008_S4096x11008_1_0_0_1_n_n_wf : DotDims.WF S4096x4096 S4096x11008 S4096x11008 [1] [0] [0] [1] [] []
  dot_S4096x11008_S11008x4096_S4096x4096_1_0_0_1_n_n_wf : DotDims.WF S4096x11008 S11008x4096 S4096x4096 [1] [0] [0] [1] [] []

variable [Facts₀]

def dot_S4096x4096_S4096x11008_S4096x11008_1_0_0_1_n_n : DotDims S4096x4096 S4096x11008 S4096x11008 where
  lhsContracting := [1]
  rhsContracting := [0]
  lhsNonContracting := [0]
  rhsNonContracting := [1]
  lhsBatch := []
  rhsBatch := []
  wf := dot_S4096x4096_S4096x11008_S4096x11008_1_0_0_1_n_n_wf
def dot_S4096x11008_S11008x4096_S4096x4096_1_0_0_1_n_n : DotDims S4096x11008 S11008x4096 S4096x4096 where
  lhsContracting := [1]
  rhsContracting := [0]
  lhsNonContracting := [0]
  rhsNonContracting := [1]
  lhsBatch := []
  rhsBatch := []
  wf := dot_S4096x11008_S11008x4096_S4096x4096_1_0_0_1_n_n_wf

class Facts : Prop extends Facts₀ where

variable [Facts]
-- ==== Proof.Kernel.Runs0.lean ====
/-
  The first kernel (gate and up projections, then the gated product) on one core: what all of its per-point runs share.

  The grid is 4 × 43 × 4 with the LAST axis the contraction: point t has contraction step k = t mod 4. The body branches
  twice on k: at k = 0 it clears the two accumulators; at k = 3 it reads them back and stores the gated product. So a
  point is in one of three cases: first (k = 0), middle (k = 1, 2), last (k = 3). The output window is touched only in the
  last case, and is written back exactly there.
-/
import proofs.«165453_j40484361732127_1_alg».proof.Proof.Gen.Kernel.Launch
import proofs.«165453_j40484361732127_1_alg».proof.Proof.Gen.Kernel.Skeleton
import proofs.«165453_j40484361732127_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, decided over the grid -/

/-- "This is the first contraction step": the body's first `scf.if`, as a function of the grid coordinates. -/
abbrev isFirst (i : grid0.Coords) : Prop :=
  (Scalar.cmpi .ne (Scalar.extui (Scalar.cmpi .eq (BitVec.ofNat 32 (i 2).val) 0#32)) 0#32) = 1#1
/-- It holds exactly at the points with t mod 4 = 0. -/
theorem isFirst_iff : ∀ t : Fin cfg0.N, isFirst (grid0.coords t) ↔ t.val % 4 = 0 :=
  (by decide +kernel : ∀ t : Fin grid0.N, isFirst (grid0.coords t) ↔ t.val % 4 = 0)

/-- "This is the last contraction step": the body's second `scf.if`. -/
abbrev isLast (i : grid0.Coords) : Prop := k0_cond2 i = 1#1
/-- It holds exactly at the points with t mod 4 = 3. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last contraction step the output window is idle and not written back. -/
theorem idle5 : ∀ t : Fin cfg0.N, ¬isLast (grid0.coords t) → cfg0.idle 5 (grid0.coords t) = true := by decide +kernel
theorem noFlush5 : ∀ t : Fin cfg0.N, ¬isLast (grid0.coords t) → (cfg0.win 5).flush t = false := by decide +kernel
/-- At the last contraction step it is live. -/
theorem live5 : ∀ t : Fin cfg0.N, isLast (grid0.coords t) → cfg0.idle 5 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x256 .bf16 := win0_5.stage (cfg0.slots t 5)
abbrev hs5 (t : Fin cfg0.N) : (ms5 t).IsWhole := hstage0_5 ((cfg0.slots t 5).cast nbuf0_5)
/-- The two accumulators: whole scoped buffers of the kernel's own (gate, then up). -/
abbrev accG : Memref sig .tc .vmem S1024x256 .f32 := Memref.whole cc0_scratch0
abbrev accU : Memref sig .tc .vmem S1024x256 .f32 := Memref.whole cc0_scratch1
/-- The views through which the accumulators' and the output buffer's contents are stated. -/
abbrev VG : View sig .tc .vmem S1024x256 .f32 := accG.view
abbrev VU : View sig .tc .vmem S1024x256 .f32 := accU.view
abbrev VO : View sig .tc .vmem S1024x256 .bf16 := (Memref.whole cc0_stg5_0 : Memref sig .tc .vmem S1024x256 .bf16).view

/-! ## The class invariant with the two accumulators split off -/

/-- Every scoped buffer of the core that is neither a staging buffer of this call nor one of its two accumulators, at some
    contents: carried through the call unopened. -/
abbrev others (c : Dev nD) : sProp 𝕄 :=
  Pipeline.scopedRestBut (Ix := Unit) (Name := ℕ) (U := UR sig nD τ) (Lvl := ℕ) (Val := Elt F) spec0 c [cc0_scratch0, cc0_scratch1]

theorem PhiA_eq (c : Dev nD) :
    (Pipeline.ΦA spec0 c : sProp 𝕄)
      = iprop(iprop(iprop((∃ d, owns (c : Thread nD τ) accG fullShare d) ∗ (∃ d, owns (c : Thread nD τ) accU fullShare d)) ∗ others c) ∗ (∃ r, prngReg c r)) := by
  unfold Pipeline.ΦA
  rw [Pipeline.scopedRest_split_of_list spec0 c [cc0_scratch0, cc0_scratch1] (by decide) (by decide)]
  simp only [accG, accU, owns_whole]; try rfl

end Cert.Kernel.R0

end
-- ==== Proof.Kernel.Run0First.lean ====
/-
  The first kernel's body at a point of the FIRST contraction step (k = 0), run symbolically on any whole staging memrefs:
  the five input buffers are read and left as found, the output buffer is not touched, and each accumulator is stored twice
  (cleared, then increased by this step's partial product): the pieces each accumulator ends with are what the run finds.
-/
import proofs.«165453_j40484361732127_1_alg».proof.Proof.Kernel.Runs0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point with k = 0. -/
noncomputable def runFirst (c : Dev nD) (i : grid0.Coords) (a3 : Memref sig .tc .vmem S1024x1024 .f32) (h3 : a3.IsWhole) (a4 : Memref sig .tc .vmem S1024x256 .f32) (h4 : a4.IsWhole) (a5 : Memref sig .tc .vmem S1024x1 .f32) (h5 : a5.IsWhole) (a6 : Memref sig .tc .vmem S1024x256 .f32) (h6 : a6.IsWhole) (a7 : Memref sig .tc .vmem S1024x1 .f32) (h7 : a7.IsWhole) (a8 : Memref sig .tc .vmem S1024x256 .bf16) (h8 : a8.IsWhole) (a9 : Memref sig .tc .vmem S1024x256 .f32) (h9 : a9.IsWhole) (a10 : Memref sig .tc .vmem S1024x256 .f32) (h10 : a10.IsWhole) (hf : isFirst i) (hl : ¬isLast i)
    (x0 : Vec F S1024x1024 .f32) (x1 : Vec F S1024x256 .f32) (x2 : Vec F S1024x1 .f32) (x3 : Vec F S1024x256 .f32) (x4 : Vec F S1024x1 .f32) :
    Σ' (LG : List (View.Piece (Elt F) S1024x256 .f32)), { LU : List (View.Piece (Elt F) S1024x256 .f32) //
      ∀ (xo : Vec F S1024x256 .bf16) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare xo ∗ (∃ d, owns (c : Thread nD τ) a9 fullShare d) ∗ (∃ d, owns (c : Thread nD τ) a10 fullShare d)
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare xo ∗ (∃ f, a9.view.loc (c : Thread nD τ) ↦[a9.view.set]{fullShare} a9.view.writes (Elt F) f LG) ∗ (∃ f, a10.view.loc (c : Thread nD τ) ↦[a10.view.set]{fullShare} a10.view.writes (Elt F) f LU)) -∗ K ⟨⟩))
          ⊢ wp frame (wpE (defs₀ (F := F)) Variants.none c none) E (cc0__swiglu_kernel i a3 h3 a4 h4 a5 h5 a6 h6 a7 h7 a8 h8 a9 h9 a10 h10) K } := by
  refine ⟨?_, ?_, fun xo E K => ?run⟩
  case run =>
    simp only [cc0__swiglu_kernel_eq_skeleton]; unfold cc0__swiglu_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dg, %fg, -, HG⟩, ⟨%du, %fu, -, HU⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [HG]; · iexists _; iexact HG
    iexists _; iexact HU

end Cert.Kernel.R0

end
-- ==== Proof.Kernel.Run0Mid.lean ====
/-
  The first kernel's body at a point of a MIDDLE contraction step (k = 1, 2): the accumulators are found at what the step
  before left (`sg`, `su`) and each is stored once, increased by this step's partial product; the output buffer is not
  touched.
-/
import proofs.«165453_j40484361732127_1_alg».proof.Proof.Kernel.Runs0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point with 0 < k < 3. -/
noncomputable def runMid (c : Dev nD) (i : grid0.Coords) (a3 : Memref sig .tc .vmem S1024x1024 .f32) (h3 : a3.IsWhole) (a4 : Memref sig .tc .vmem S1024x256 .f32) (h4 : a4.IsWhole) (a5 : Memref sig .tc .vmem S1024x1 .f32) (h5 : a5.IsWhole) (a6 : Memref sig .tc .vmem S1024x256 .f32) (h6 : a6.IsWhole) (a7 : Memref sig .tc .vmem S1024x1 .f32) (h7 : a7.IsWhole) (a8 : Memref sig .tc .vmem S1024x256 .bf16) (h8 : a8.IsWhole) (a9 : Memref sig .tc .vmem S1024x256 .f32) (h9 : a9.IsWhole) (a10 : Memref sig .tc .vmem S1024x256 .f32) (h10 : a10.IsWhole) (hf : ¬isFirst i) (hl : ¬isLast i)
    (x0 : Vec F S1024x1024 .f32) (x1 : Vec F S1024x256 .f32) (x2 : Vec F S1024x1 .f32) (x3 : Vec F S1024x256 .f32) (x4 : Vec F S1024x1 .f32) (sg su : Vec F S1024x256 .f32) :
    Σ' (LG : List (View.Piece (Elt F) S1024x256 .f32)), { LU : List (View.Piece (Elt F) S1024x256 .f32) //
      ∀ (xo : Vec F S1024x256 .bf16) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare xo ∗ owns (c : Thread nD τ) a9 fullShare sg ∗ owns (c : Thread nD τ) a10 fullShare su
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare xo ∗ (∃ f, a9.view.loc (c : Thread nD τ) ↦[a9.view.set]{fullShare} a9.view.writes (Elt F) f LG) ∗ (∃ f, a10.view.loc (c : Thread nD τ) ↦[a10.view.set]{fullShare} a10.view.writes (Elt F) f LU)) -∗ K ⟨⟩))
          ⊢ wp frame (wpE (defs₀ (F := F)) Variants.none c none) E (cc0__swiglu_kernel i a3 h3 a4 h4 a5 h5 a6 h6 a7 h7 a8 h8 a9 h9 a10 h10) K } := by
  refine ⟨?_, ?_, fun xo E K => ?run⟩
  case run =>
    simp only [cc0__swiglu_kernel_eq_skeleton]; unfold cc0__swiglu_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fg, %hfg, HG⟩, ⟨%fu, %hfu, HU⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    obtain rfl := h9.eq_unread hfg; obtain rfl := h10.eq_unread hfu
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [HG]; · iexists _; iexact HG
    iexists _; iexact HU

end Cert.Kernel.R0

end
-- ==== Proof.Kernel.Run0Last.lean ====
/-
  The first kernel's body at a point of the LAST contraction step (k = 3): the accumulators are found at what the step
  before left, each is stored once, and the output buffer, found at anything, is stored whole with the gated product of
  the two finished accumulators.
-/
import proofs.«165453_j40484361732127_1_alg».proof.Proof.Kernel.Runs0

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point with k = 3. -/
noncomputable def runLast (c : Dev nD) (i : grid0.Coords) (a3 : Memref sig .tc .vmem S1024x1024 .f32) (h3 : a3.IsWhole) (a4 : Memref sig .tc .vmem S1024x256 .f32) (h4 : a4.IsWhole) (a5 : Memref sig .tc .vmem S1024x1 .f32) (h5 : a5.IsWhole) (a6 : Memref sig .tc .vmem S1024x256 .f32) (h6 : a6.IsWhole) (a7 : Memref sig .tc .vmem S1024x1 .f32) (h7 : a7.IsWhole) (a8 : Memref sig .tc .vmem S1024x256 .bf16) (h8 : a8.IsWhole) (a9 : Memref sig .tc .vmem S1024x256 .f32) (h9 : a9.IsWhole) (a10 : Memref sig .tc .vmem S1024x256 .f32) (h10 : a10.IsWhole) (hf : ¬isFirst i) (hl : isLast i)
    (x0 : Vec F S1024x1024 .f32) (x1 : Vec F S1024x256 .f32) (x2 : Vec F S1024x1 .f32) (x3 : Vec F S1024x256 .f32) (x4 : Vec F S1024x1 .f32) (sg su : Vec F S1024x256 .f32) :
    Σ' (LO : List (View.Piece (Elt F) S1024x256 .bf16)) (LG : List (View.Piece (Elt F) S1024x256 .f32)), { LU : List (View.Piece (Elt F) S1024x256 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ d, owns (c : Thread nD τ) a8 fullShare d) ∗ owns (c : Thread nD τ) a9 fullShare sg ∗ owns (c : Thread nD τ) a10 fullShare su
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ f, a8.view.loc (c : Thread nD τ) ↦[a8.view.set]{fullShare} a8.view.writes (Elt F) f LO) ∗ (∃ f, a9.view.loc (c : Thread nD τ) ↦[a9.view.set]{fullShare} a9.view.writes (Elt F) f LG) ∗ (∃ f, a10.view.loc (c : Thread nD τ) ↦[a10.view.set]{fullShare} a10.view.writes (Elt F) f LU)) -∗ K ⟨⟩))
          ⊢ wp frame (wpE (defs₀ (F := F)) Variants.none c none) E (cc0__swiglu_kernel i a3 h3 a4 h4 a5 h5 a6 h6 a7 h7 a8 h8 a9 h9 a10 h10) K } := by
  refine ⟨?_, ?_, ?_, fun E K => ?run⟩
  case run =>
    simp only [cc0__swiglu_kernel_eq_skeleton]; unfold cc0__swiglu_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fg, %hfg, HG⟩, ⟨%fu, %hfu, HU⟩, Hk⟩
    obtain rfl := h3.eq_unread hf0; obtain rfl := h4.eq_unread hf1; obtain rfl := h5.eq_unread hf2
    obtain rfl := h6.eq_unread hf3; obtain rfl := h7.eq_unread hf4
    obtain rfl := h9.eq_unread hfg; obtain rfl := h10.eq_unread hfu
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]; · iexists _; iexact H5
    isplitl [HG]; · iexists _; iexact HG
    iexists _; iexact HU

end Cert.Kernel.R0

end
-- ==== Proof.Kernel.Frame0.lean ====
/-
  The first kernel as one pipeline on one core: its proof data and its body obligation.

  After the body at point t (contraction step k = t mod 4) the two accumulators hold what the step's case leaves: at
  k = 0 the cleared accumulator plus the step's partial product, at k > 0 what the point before left plus the step's
  partial product. So what they hold is a recursion on the point (`outsAt`), and the region's invariant carries the two
  accumulators AT those contents from one point to the next (`PhiS`); every other scoped buffer rides along unopened.
  The output buffer is stored only at k = 3, where the pipeline writes it back; elsewhere it is idle.
-/
import proofs.«165453_j40484361732127_1_alg».proof.Proof.Kernel.Run0First
import proofs.«165453_j40484361732127_1_alg».proof.Proof.Kernel.Run0Mid
import proofs.«165453_j40484361732127_1_alg».proof.Proof.Kernel.Run0Last

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the unscoped buffers' contents when the call is entered, per core
variable (V : (c : Dev nD) → (b : Ref sig .tc) → Buf (Elt F) ((c : Thread nD τ).loc b))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- What the two accumulators and the output buffer hold after a point: (output, gate accumulator, up accumulator). -/
abbrev St (F : FTy → Type) [FloatOps F] : Type := Vec F S1024x256 .bf16 × Vec F S1024x256 .f32 × Vec F S1024x256 .f32

/-- The output buffer where the body does not store into it: a placeholder nothing consults (the window is idle and not
    written back there). -/
def idleOut : Vec F S1024x256 .bf16 := VO.read (Elt F) (VO.writes (Elt F) VO.junk [])

/-- The three runs at point `t`, on the memrefs the pipeline passes and the blocks the inputs hold. -/
abbrev rF (c : Dev nD) (t : Fin cfg0.N) (hf : isFirst (grid0.coords t)) (hl : ¬isLast (grid0.coords t)) :=
  runFirst (F := F) c (grid0.coords t) (ms0 t) (hs0 t) (ms1 t) (hs1 t) (ms2 t) (hs2 t) (ms3 t) (hs3 t) (ms4 t) (hs4 t) (ms5 t) (hs5 t) accG (Memref.isWhole_whole _) accU (Memref.isWhole_whole _) hf hl (iblk V c 0 t) (iblk V c 1 t) (iblk V c 2 t) (iblk V c 3 t) (iblk V c 4 t)
abbrev rM (c : Dev nD) (t : Fin cfg0.N) (hf : ¬isFirst (grid0.coords t)) (hl : ¬isLast (grid0.coords t)) (sg su : Vec F S1024x256 .f32) :=
  runMid (F := F) c (grid0.coords t) (ms0 t) (hs0 t) (ms1 t) (hs1 t) (ms2 t) (hs2 t) (ms3 t) (hs3 t) (ms4 t) (hs4 t) (ms5 t) (hs5 t) accG (Memref.isWhole_whole _) accU (Memref.isWhole_whole _) hf hl (iblk V c 0 t) (iblk V c 1 t) (iblk V c 2 t) (iblk V c 3 t) (iblk V c 4 t) sg su
abbrev rL (c : Dev nD) (t : Fin cfg0.N) (hf : ¬isFirst (grid0.coords t)) (hl : isLast (grid0.coords t)) (sg su : Vec F S1024x256 .f32) :=
  runLast (F := F) c (grid0.coords t) (ms0 t) (hs0 t) (ms1 t) (hs1 t) (ms2 t) (hs2 t) (ms3 t) (hs3 t) (ms4 t) (hs4 t) (ms5 t) (hs5 t) accG (Memref.isWhole_whole _) accU (Memref.isWhole_whole _) hf hl (iblk V c 0 t) (iblk V c 1 t) (iblk V c 2 t) (iblk V c 3 t) (iblk V c 4 t) sg su

/-- Each case's pieces cover the buffer they are stored into (every store is of the whole buffer). -/
theorem covG_F (c : Dev nD) (t : Fin cfg0.N) (hf) (hl) (y : S1024x256.Idx) : ∃ pc ∈ (rF V c t hf hl).1, y ∈ pc.1.set :=
  View.cover_of_tiledL (rF V c t hf hl).1 S1024x256.size (by sl_kernel_rfl) y
theorem covU_F (c : Dev nD) (t : Fin cfg0.N) (hf) (hl) (y : S1024x256.Idx) : ∃ pc ∈ (rF V c t hf hl).2.1, y ∈ pc.1.set :=
  View.cover_of_tiledL (rF V c t hf hl).2.1 S1024x256.size (by sl_kernel_rfl) y
theorem covG_M (c : Dev nD) (t : Fin cfg0.N) (hf) (hl) (sg su : Vec F S1024x256 .f32) (y : S1024x256.Idx) : ∃ pc ∈ (rM V c t hf hl sg su).1, y ∈ pc.1.set :=
  View.cover_of_tiledL (rM V c t hf hl sg su).1 S1024x256.size (by sl_kernel_rfl) y
theorem covU_M (c : Dev nD) (t : Fin cfg0.N) (hf) (hl) (sg su : Vec F S1024x256 .f32) (y : S1024x256.Idx) : ∃ pc ∈ (rM V c t hf hl sg su).2.1, y ∈ pc.1.set :=
  View.cover_of_tiledL (rM V c t hf hl sg su).2.1 S1024x256.size (by sl_kernel_rfl) y
theorem covO_L (c : Dev nD) (t : Fin cfg0.N) (hf) (hl) (sg su : Vec F S1024x256 .f32) (y : S1024x256.Idx) : ∃ pc ∈ (rL V c t hf hl sg su).1, y ∈ pc.1.set :=
  View.cover_of_tiledL (rL V c t hf hl sg su).1 S1024x256.size (by sl_kernel_rfl) y
theorem covG_L (c : Dev nD) (t : Fin cfg0.N) (hf) (hl) (sg su : Vec F S1024x256 .f32) (y : S1024x256.Idx) : ∃ pc ∈ (rL V c t hf hl sg su).2.1, y ∈ pc.1.set :=
  View.cover_of_tiledL (rL V c t hf hl sg su).2.1 S1024x256.size (by sl_kernel_rfl) y
theorem covU_L (c : Dev nD) (t : Fin cfg0.N) (hf) (hl) (sg su : Vec F S1024x256 .f32) (y : S1024x256.Idx) : ∃ pc ∈ (rL V c t hf hl sg su).2.2.1, y ∈ pc.1.set :=
  View.cover_of_tiledL (rL V c t hf hl sg su).2.2.1 S1024x256.size (by sl_kernel_rfl) y

/-- What a point of each case leaves: its pieces read back. -/
def stepFirst (c : Dev nD) (t : Fin cfg0.N) (hf : isFirst (grid0.coords t)) (hl : ¬isLast (grid0.coords t)) : St F :=
  (idleOut, VG.read (Elt F) (VG.writes (Elt F) VG.junk (rF V c t hf hl).1), VU.read (Elt F) (VU.writes (Elt F) VU.junk (rF V c t hf hl).2.1))
def stepMid (c : Dev nD) (t : Fin cfg0.N) (hf : ¬isFirst (grid0.coords t)) (hl : ¬isLast (grid0.coords t)) (sg su : Vec F S1024x256 .f32) : St F :=
  (idleOut, VG.read (Elt F) (VG.writes (Elt F) VG.junk (rM V c t hf hl sg su).1), VU.read (Elt F) (VU.writes (Elt F) VU.junk (rM V c t hf hl sg su).2.1))
def stepLast (c : Dev nD) (t : Fin cfg0.N) (hf : ¬isFirst (grid0.coords t)) (hl : isLast (grid0.coords t)) (sg su : Vec F S1024x256 .f32) : St F :=
  (VO.read (Elt F) (VO.writes (Elt F) VO.junk (rL V c t hf hl sg su).1), VG.read (Elt F) (VG.writes (Elt F) VG.junk (rL V c t hf hl sg su).2.1),
    VU.read (Elt F) (VU.writes (Elt F) VU.junk (rL V c t hf hl sg su).2.2.1))

/-! ## The accumulation, point by point -/

/-- What the output buffer and the two accumulators hold after the body at position `n`: the case k = n mod 4 selects,
    run on what position `n - 1` left in the accumulators. -/
def outsAt (c : Dev nD) : (n : ℕ) → n < cfg0.N → St F
  | 0, hn => stepFirst V c ⟨0, hn⟩ ((isFirst_iff ⟨0, hn⟩).mpr (Nat.zero_mod _))
      (fun h => (fun h => by (try dsimp only at h); omega) ((isLast_iff ⟨0, hn⟩).mp h))
  | n + 1, hn =>
    if h0 : (n + 1) % 4 = 0 then
      stepFirst V c ⟨n + 1, hn⟩ ((isFirst_iff ⟨n + 1, hn⟩).mpr h0)
        (fun h => (fun h => by (try dsimp only at h); omega) ((isLast_iff ⟨n + 1, hn⟩).mp h))
    else if h3 : (n + 1) % 4 = 3 then
      stepLast V c ⟨n + 1, hn⟩ (fun h => h0 ((isFirst_iff ⟨n + 1, hn⟩).mp h)) ((isLast_iff ⟨n + 1, hn⟩).mpr h3)
        (outsAt c n (Nat.lt_of_succ_lt hn)).2.1 (outsAt c n (Nat.lt_of_succ_lt hn)).2.2
    else
      stepMid V c ⟨n + 1, hn⟩ (fun h => h0 ((isFirst_iff ⟨n + 1, hn⟩).mp h)) (fun h => h3 ((isLast_iff ⟨n + 1, hn⟩).mp h))
        (outsAt c n (Nat.lt_of_succ_lt hn)).2.1 (outsAt c n (Nat.lt_of_succ_lt hn)).2.2

theorem outsAt_first (c : Dev nD) (t : Fin cfg0.N) (h0 : t.val % 4 = 0) :
    outsAt V c t.val t.isLt = stepFirst V c t ((isFirst_iff t).mpr h0) (fun h => by have := (isLast_iff t).mp h; omega) := by
  obtain ⟨n, hn⟩ := t
  cases n with
  | zero => exact rfl
  | succ n => exact (dif_pos h0).trans rfl

theorem outsAt_mid (c : Dev nD) (t : Fin cfg0.N) (h0 : ¬t.val % 4 = 0) (h3 : ¬t.val % 4 = 3) :
    outsAt V c t.val t.isLt = stepMid V c t (fun h => h0 ((isFirst_iff t).mp h)) (fun h => h3 ((isLast_iff t).mp h))
      (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h3).trans rfl)

theorem outsAt_last (c : Dev nD) (t : Fin cfg0.N) (h0 : ¬t.val % 4 = 0) (h3 : t.val % 4 = 3) :
    outsAt V c t.val t.isLt = stepLast V c t (fun h => h0 ((isFirst_iff t).mp h)) ((isLast_iff t).mpr h3)
      (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h3).trans rfl)

/-! ## The invariant: the accumulators at what the point before left -/

def PhiS (c : Dev nD) : (n : ℕ) → n ≤ cfg0.N → sProp 𝕄
  | 0, _ => Pipeline.ΦA spec0 c
  | n + 1, hn => iprop(iprop(iprop(owns (c : Thread nD τ) accG fullShare (outsAt V c n hn).2.1 ∗ owns (c : Thread nD τ) accU fullShare (outsAt V c n hn).2.2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) accG fullShare (outsAt V c n hn).2.1 ∗ owns (c : Thread nD τ) accU fullShare (outsAt V c n hn).2.2) ∗ others c) ∗ (∃ r, prngReg c r)) := rfl
theorem PhiS_pos (c : Dev nD) (n : ℕ) (h : n ≤ cfg0.N) (hz : n ≠ 0) :
    PhiS V c n h = iprop(iprop(iprop(owns (c : Thread nD τ) accG fullShare (outsAt V c (n - 1) (by omega)).2.1 ∗ owns (c : Thread nD τ) accU fullShare (outsAt V c (n - 1) (by omega)).2.2) ∗ others c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = (outsAt V c t.val t.isLt).1 := by dsimp only [dat0]
theorem before_0 (c : Dev nD) (t : Fin cfg0.N) (d) : (dat0 V c).before 0 t d = iblk V c 0 t :=
  before_0_of V (dat0 V c) (A_eq V c 0) (after_0 V c) t d
theorem before_1 (c : Dev nD) (t : Fin cfg0.N) (d) : (dat0 V c).before 1 t d = iblk V c 1 t :=
  before_1_of V (dat0 V c) (A_eq V c 1) (after_1 V c) t d
theorem before_2 (c : Dev nD) (t : Fin cfg0.N) (d) : (dat0 V c).before 2 t d = iblk V c 2 t :=
  before_2_of V (dat0 V c) (A_eq V c 2) (after_2 V c) t d
theorem before_3 (c : Dev nD) (t : Fin cfg0.N) (d) : (dat0 V c).before 3 t d = iblk V c 3 t :=
  before_3_of V (dat0 V c) (A_eq V c 3) (after_3 V c) t d
theorem before_4 (c : Dev nD) (t : Fin cfg0.N) (d) : (dat0 V c).before 4 t d = iblk V c 4 t :=
  before_4_of V (dat0 V c) (A_eq V c 4) (after_4 V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' buffers hold their blocks; the closed forms say which case the point is in; the
    invariant hands the run the accumulators at what the point before left (at anything at the very first point) and
    takes them back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).owesAt () t.succ = (dat0 V c).owesAt () t.castSucc from rfl]
  rw [show (dat0 V c).Φ t.succ = PhiS V c (t.val + 1) t.isLt from rfl, PhiS_succ]
  have hN : t.val < 688 := lt_of_lt_of_eq t.isLt (show cfg0.N = 688 from N_0)
  rw [show (dat0 V c).leavesExact 0 t = owns (c : Thread nD τ) (ms0 t) fullShare ((dat0 V c).after 0 t) from by
    unfold Dat.leavesExact; rw [live0 t], after_0]
  rw [show (dat0 V c).leavesExact 1 t = owns (c : Thread nD τ) (ms1 t) fullShare ((dat0 V c).after 1 t) from by
    unfold Dat.leavesExact; rw [live1 t], after_1]
  rw [show (dat0 V c).leavesExact 2 t = owns (c : Thread nD τ) (ms2 t) fullShare ((dat0 V c).after 2 t) from by
    unfold Dat.leavesExact; rw [live2 t], after_2]
  rw [show (dat0 V c).leavesExact 3 t = owns (c : Thread nD τ) (ms3 t) fullShare ((dat0 V c).after 3 t) from by
    unfold Dat.leavesExact; rw [live3 t], after_3]
  rw [show (dat0 V c).leavesExact 4 t = owns (c : Thread nD τ) (ms4 t) fullShare ((dat0 V c).after 4 t) from by
    unfold Dat.leavesExact; rw [live4 t], after_4]
  by_cases h0 : t.val % 4 = 0
  · have h3 : ¬t.val % 4 = 3 := by omega
    rw [Dat.leavesExact_idle (dat0 V c) 5 t (idle5 t (fun h => h3 ((isLast_iff t).mp h))) (noFlush5 t (fun h => h3 ((isLast_iff t).mp h)))]
    rw [outsAt_first V c t h0]
    unfold stepFirst; (try dsimp only)
    by_cases hz : t.val = 0
    · rw [PhiS_castSucc V c t, PhiS_zero V c _ _ hz, PhiA_eq]
      iintro ⟨⟨⟨⟨HG, HU⟩, Hoth⟩, Hg⟩, Ho, ⟨%d0, H0⟩, ⟨%d1, H1⟩, ⟨%d2, H2⟩, ⟨%d3, H3⟩, ⟨%d4, H4⟩, ⟨%d5, H5⟩⟩
      iapply ((rF V c t ((isFirst_iff t).mpr h0) (fun h => by have := (isLast_iff t).mp h; omega)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HG]; · iexact HG
      isplitl [HU]; · iexact HU
      iintro ⟨H0, H1, H2, H3, H4, H5, ⟨%eg, HG⟩, ⟨%eu, HU⟩⟩
      isplitl [HG HU Hoth Hg]
      · isplitl [HG HU Hoth]
        · isplitl [HG HU]
          · isplitl [HG]
            · unfold owns; iexists _; isplitr
              swap; · iexact HG
              ipureintro; exact View.read_writes_of_cover _ _ _ _ _ (covG_F V c t _ _)
            · unfold owns; iexists _; isplitr
              swap; · iexact HU
              ipureintro; exact View.read_writes_of_cover _ _ _ _ _ (covU_F V c t _ _)
          · iexact Hoth
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨⟨HG, HU⟩, Hoth⟩, Hg⟩, Ho, ⟨%d0, H0⟩, ⟨%d1, H1⟩, ⟨%d2, H2⟩, ⟨%d3, H3⟩, ⟨%d4, H4⟩, ⟨%d5, H5⟩⟩
      iapply ((rF V c t ((isFirst_iff t).mpr h0) (fun h => by have := (isLast_iff t).mp h; omega)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HG]; · iexists _; iexact HG
      isplitl [HU]; · iexists _; iexact HU
      iintro ⟨H0, H1, H2, H3, H4, H5, ⟨%eg, HG⟩, ⟨%eu, HU⟩⟩
      isplitl [HG HU Hoth Hg]
      · isplitl [HG HU Hoth]
        · isplitl [HG HU]
          · isplitl [HG]
            · unfold owns; iexists _; isplitr
              swap; · iexact HG
              ipureintro; exact View.read_writes_of_cover _ _ _ _ _ (covG_F V c t _ _)
            · unfold owns; iexists _; isplitr
              swap; · iexact HU
              ipureintro; exact View.read_writes_of_cover _ _ _ _ _ (covU_F V c t _ _)
          · iexact Hoth
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h3 : t.val % 4 = 3
    · rw [show (dat0 V c).leavesExact 5 t = owns (c : Thread nD τ) (ms5 t) fullShare ((dat0 V c).after 5 t) from by
        unfold Dat.leavesExact; rw [live5 t ((isLast_iff t).mpr h3)], after_5]
      rw [outsAt_last V c t h0 h3]
      unfold stepLast; (try dsimp only)
      rw [PhiS_castSucc V c t, PhiS_pos V c _ _ hz]
      iintro ⟨⟨⟨⟨HG, HU⟩, Hoth⟩, Hg⟩, Ho, ⟨%d0, H0⟩, ⟨%d1, H1⟩, ⟨%d2, H2⟩, ⟨%d3, H3⟩, ⟨%d4, H4⟩, ⟨%d5, H5⟩⟩
      iapply ((rL V c t (fun h => h0 ((isFirst_iff t).mp h)) ((isLast_iff t).mpr h3) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HG]; · iexact HG
      isplitl [HU]; · iexact HU
      iintro ⟨H0, H1, H2, H3, H4, ⟨%eo, H5⟩, ⟨%eg, HG⟩, ⟨%eu, HU⟩⟩
      isplitl [HG HU Hoth Hg]
      · isplitl [HG HU Hoth]
        · isplitl [HG HU]
          · isplitl [HG]
            · unfold owns; iexists _; isplitr
              swap; · iexact HG
              ipureintro; exact View.read_writes_of_cover _ _ _ _ _ (covG_L V c t _ _ _ _)
            · unfold owns; iexists _; isplitr
              swap; · iexact HU
              ipureintro; exact View.read_writes_of_cover _ _ _ _ _ (covU_L V c t _ _ _ _)
          · iexact Hoth
        · iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (covO_L V c t _ _ _ _)
    · rw [Dat.leavesExact_idle (dat0 V c) 5 t (idle5 t (fun h => h3 ((isLast_iff t).mp h))) (noFlush5 t (fun h => h3 ((isLast_iff t).mp h)))]
      rw [outsAt_mid V c t h0 h3]
      unfold stepMid; (try dsimp only)
      rw [PhiS_castSucc V c t, PhiS_pos V c _ _ hz]
      iintro ⟨⟨⟨⟨HG, HU⟩, Hoth⟩, Hg⟩, Ho, ⟨%d0, H0⟩, ⟨%d1, H1⟩, ⟨%d2, H2⟩, ⟨%d3, H3⟩, ⟨%d4, H4⟩, ⟨%d5, H5⟩⟩
      iapply ((rM V c t (fun h => h0 ((isFirst_iff t).mp h)) (fun h => h3 ((isLast_iff t).mp h)) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HG]; · iexact HG
      isplitl [HU]; · iexact HU
      iintro ⟨H0, H1, H2, H3, H4, H5, ⟨%eg, HG⟩, ⟨%eu, HU⟩⟩
      isplitl [HG HU Hoth Hg]
      · isplitl [HG HU Hoth]
        · isplitl [HG HU]
          · isplitl [HG]
            · unfold owns; iexists _; isplitr
              swap; · iexact HG
              ipureintro; exact View.read_writes_of_cover _ _ _ _ _ (covG_M V c t _ _ _ _)
            · unfold owns; iexists _; isplitr
              swap; · iexact HU
              ipureintro; exact View.read_writes_of_cover _ _ _ _ _ (covU_M V c t _ _ _ _)
          · iexact Hoth
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat0 (F := F) V c) (defs₀ (F := F)) Variants.none () Set.univ := fun t => by
  rw [bigSep_W0, bigSep_W0]
  exact sound_body V c t

/-! ## The invariant's two ends -/

/-- What the call is entered with is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's back: the accumulators' named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_eq]
  iintro ⟨⟨⟨HG, HU⟩, Hoth⟩, Hg⟩
  isplitl [HG HU Hoth]
  · isplitl [HG HU]
    · isplitl [HG]
      · iexists _; iexact HG
      · iexists _; iexact HU
    · iexact Hoth
  · iexact Hg

/-- The same after the last point. -/
theorem hout (c : Dev nD) : (dat0 V c).Φ (Fin.last cfg0.N) ⊢ Pipeline.ΦA spec0 c :=
  Phi_out V c _ (by rw [Fin.val_last]; have : cfg0.N = 688 := N_0; omega)

end Cert.Kernel.R0

end
-- ==== Proof.Kernel.Runs1.lean ====
/-
  The second kernel (down projection) on one core: what all of its per-point runs share.

  The grid is 4 × 4 × 43 with the LAST axis the contraction: point t has contraction step k = t mod 43. At k = 0 the body
  clears its accumulator; at every step it adds the step's partial product; at k = 42 it copies the accumulator into the
  output buffer. Three cases again: first (k = 0), middle (0 < k < 42), last (k = 42); the output window is touched, and
  written back, only in the last.
-/
import proofs.«165453_j40484361732127_1_alg».proof.Proof.Gen.Kernel.Launch
import proofs.«165453_j40484361732127_1_alg».proof.Proof.Gen.Kernel.Skeleton
import proofs.«165453_j40484361732127_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, decided over the grid -/

abbrev isFirst (i : grid1.Coords) : Prop :=
  (Scalar.cmpi .ne (Scalar.extui (Scalar.cmpi .eq (BitVec.ofNat 32 (i 2).val) 0#32)) 0#32) = 1#1
theorem isFirst_iff : ∀ t : Fin cfg1.N, isFirst (grid1.coords t) ↔ t.val % 43 = 0 :=
  (by decide +kernel : ∀ t : Fin grid1.N, isFirst (grid1.coords t) ↔ t.val % 43 = 0)

abbrev isLast (i : grid1.Coords) : Prop := k1_cond2 i = 1#1
theorem isLast_iff : ∀ t : Fin cfg1.N, isLast (grid1.coords t) ↔ t.val % 43 = 42 :=
  (by decide +kernel : ∀ t : Fin grid1.N, isLast (grid1.coords t) ↔ t.val % 43 = 42)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem idle3 : ∀ t : Fin cfg1.N, ¬isLast (grid1.coords t) → cfg1.idle 3 (grid1.coords t) = true := by decide +kernel
theorem noFlush3 : ∀ t : Fin cfg1.N, ¬isLast (grid1.coords t) → (cfg1.win 3).flush t = false := by decide +kernel
theorem live3 : ∀ t : Fin cfg1.N, isLast (grid1.coords t) → cfg1.idle 3 (grid1.coords t) = false := by decide +kernel

/-! ## The memrefs the body is called with -/

abbrev ms0 (t : Fin cfg1.N) : Memref sig .tc .vmem S1024x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S256x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1024 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev acc : Memref sig .tc .vmem S1024x1024 .f32 := Memref.whole cc1_scratch0
abbrev VA : View sig .tc .vmem S1024x1024 .f32 := acc.view
abbrev VO : View sig .tc .vmem S1024x1024 .f32 := (Memref.whole cc1_stg3_0 : Memref sig .tc .vmem S1024x1024 .f32).view

/-! ## The class invariant with the accumulator split off -/

abbrev others (c : Dev nD) : sProp 𝕄 :=
  Pipeline.scopedRestBut (Ix := Unit) (Name := ℕ) (U := UR sig nD τ) (Lvl := ℕ) (Val := Elt F) spec1 c [cc1_scratch0]

theorem PhiA_eq (c : Dev nD) :
    (Pipeline.ΦA spec1 c : sProp 𝕄)
      = iprop(iprop((∃ d, owns (c : Thread nD τ) acc fullShare d) ∗ others c) ∗ (∃ r, prngReg c r)) := by
  unfold Pipeline.ΦA
  rw [Pipeline.scopedRest_split_of_list spec1 c [cc1_scratch0] (by decide) (by decide)]
  simp only [acc, owns_whole]; try rfl

end Cert.Kernel.R1

end
-- ==== Proof.Kernel.Run1First.lean ====
/-
  The second kernel's body at a point of the FIRST contraction step (k = 0), on any whole staging memrefs: the three input
  buffers are read and left as found, the output buffer is not touched, the accumulator is stored twice (cleared, then
  increased by this step's partial product).
-/
import proofs.«165453_j40484361732127_1_alg».proof.Proof.Kernel.Runs1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point with k = 0. -/
noncomputable def runFirst (c : Dev nD) (i : grid1.Coords) (a3 : Memref sig .tc .vmem S1024x256 .bf16) (h3 : a3.IsWhole) (a4 : Memref sig .tc .vmem S256x1024 .f32) (h4 : a4.IsWhole) (a5 : Memref sig .tc .vmem S256x1 .f32) (h5 : a5.IsWhole) (a6 : Memref sig .tc .vmem S1024x1024 .f32) (h6 : a6.IsWhole) (a7 : Memref sig .tc .vmem S1024x1024 .f32) (h7 : a7.IsWhole) (hf : isFirst i) (hl : ¬isLast i)
    (x0 : Vec F S1024x256 .bf16) (x1 : Vec F S256x1024 .f32) (x2 : Vec F S256x1 .f32) :
    { LA : List (View.Piece (Elt F) S1024x1024 .f32) //
      ∀ (xo : Vec F S1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ (∃ d, owns (c : Thread nD τ) a7 fullShare d)
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f LA)) -∗ K ⟨⟩))
          ⊢ wp frame (wpE (defs₀ (F := F)) Variants.none c none) E (cc1__down_kernel i a3 h3 a4 h4 a5 h5 a6 h6 a7 h7) K } := by
  refine ⟨?_, fun xo E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%da, %fa, -, HA⟩, Hk⟩
    obtain rfl := h3.eq_unread hf0; obtain rfl := h4.eq_unread hf1; obtain rfl := h5.eq_unread hf2; obtain rfl := h6.eq_unread hf3
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.Kernel.R1

end
-- ==== Proof.Kernel.Run1Mid.lean ====
/-
  The second kernel's body at a point of a MIDDLE contraction step (0 < k < 42): the accumulator is found at what the step
  before left (`sa`) and stored once, increased by this step's partial product; the output buffer is not touched.
-/
import proofs.«165453_j40484361732127_1_alg».proof.Proof.Kernel.Runs1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point with 0 < k < 42. -/
noncomputable def runMid (c : Dev nD) (i : grid1.Coords) (a3 : Memref sig .tc .vmem S1024x256 .bf16) (h3 : a3.IsWhole) (a4 : Memref sig .tc .vmem S256x1024 .f32) (h4 : a4.IsWhole) (a5 : Memref sig .tc .vmem S256x1 .f32) (h5 : a5.IsWhole) (a6 : Memref sig .tc .vmem S1024x1024 .f32) (h6 : a6.IsWhole) (a7 : Memref sig .tc .vmem S1024x1024 .f32) (h7 : a7.IsWhole) (hf : ¬isFirst i) (hl : ¬isLast i)
    (x0 : Vec F S1024x256 .bf16) (x1 : Vec F S256x1024 .f32) (x2 : Vec F S256x1 .f32) (sa : Vec F S1024x1024 .f32) :
    { LA : List (View.Piece (Elt F) S1024x1024 .f32) //
      ∀ (xo : Vec F S1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare sa
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f LA)) -∗ K ⟨⟩))
          ⊢ wp frame (wpE (defs₀ (F := F)) Variants.none c none) E (cc1__down_kernel i a3 h3 a4 h4 a5 h5 a6 h6 a7 h7) K } := by
  refine ⟨?_, fun xo E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := h3.eq_unread hf0; obtain rfl := h4.eq_unread hf1; obtain rfl := h5.eq_unread hf2; obtain rfl := h6.eq_unread hf3
    obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.Kernel.R1

end
-- ==== Proof.Kernel.Run1Last.lean ====
/-
  The second kernel's body at a point of the LAST contraction step (k = 42): the accumulator is found at what the step
  before left, stored once, and then copied whole into the output buffer, which is found at anything.
-/
import proofs.«165453_j40484361732127_1_alg».proof.Proof.Kernel.Runs1

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a point with k = 42. -/
noncomputable def runLast (c : Dev nD) (i : grid1.Coords) (a3 : Memref sig .tc .vmem S1024x256 .bf16) (h3 : a3.IsWhole) (a4 : Memref sig .tc .vmem S256x1024 .f32) (h4 : a4.IsWhole) (a5 : Memref sig .tc .vmem S256x1 .f32) (h5 : a5.IsWhole) (a6 : Memref sig .tc .vmem S1024x1024 .f32) (h6 : a6.IsWhole) (a7 : Memref sig .tc .vmem S1024x1024 .f32) (h7 : a7.IsWhole) (hf : ¬isFirst i) (hl : isLast i)
    (x0 : Vec F S1024x256 .bf16) (x1 : Vec F S256x1024 .f32) (x2 : Vec F S256x1 .f32) (sa : Vec F S1024x1024 .f32) :
    Σ' (LO : List (View.Piece (Elt F) S1024x1024 .f32)), { LA : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d) ∗ owns (c : Thread nD τ) a7 fullShare sa
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f LO) ∗ (∃ f, a7.view.loc (c : Thread nD τ) ↦[a7.view.set]{fullShare} a7.view.writes (Elt F) f LA)) -∗ K ⟨⟩))
          ⊢ wp frame (wpE (defs₀ (F := F)) Variants.none c none) E (cc1__down_kernel i a3 h3 a4 h4 a5 h5 a6 h6 a7 h7) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := h3.eq_unread hf0; obtain rfl := h4.eq_unread hf1; obtain rfl := h5.eq_unread hf2
    obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HA

end Cert.Kernel.R1

end
-- ==== Proof.Kernel.Frame1.lean ====
/-
  The second kernel as one pipeline on one core: its proof data and its body obligation.

  After the body at point t (contraction step k = t mod 43) the accumulator holds, at k = 0, the cleared accumulator plus
  the step's partial product, and at k > 0 what the point before left plus the step's partial product: a recursion on the
  point (`outsAt`), which the region's invariant carries from one point to the next (`PhiS`). The output buffer receives a
  copy of the accumulator at k = 42 only, where the pipeline writes it back; elsewhere it is idle.
-/
import proofs.«165453_j40484361732127_1_alg».proof.Proof.Kernel.Run1First
import proofs.«165453_j40484361732127_1_alg».proof.Proof.Kernel.Run1Mid
import proofs.«165453_j40484361732127_1_alg».proof.Proof.Kernel.Run1Last

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the unscoped buffers' contents when the call is entered, per core
variable (V : (c : Dev nD) → (b : Ref sig .tc) → Buf (Elt F) ((c : Thread nD τ).loc b))

/-! ## The windows' blocks -/

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- What the output buffer and the accumulator hold after a point. -/
abbrev St (F : FTy → Type) [FloatOps F] : Type := Vec F S1024x1024 .f32 × Vec F S1024x1024 .f32

def idleOut : Vec F S1024x1024 .f32 := VO.read (Elt F) (VO.writes (Elt F) VO.junk [])

abbrev rF (c : Dev nD) (t : Fin cfg1.N) (hf : isFirst (grid1.coords t)) (hl : ¬isLast (grid1.coords t)) :=
  runFirst (F := F) c (grid1.coords t) (ms0 t) (hs0 t) (ms1 t) (hs1 t) (ms2 t) (hs2 t) (ms3 t) (hs3 t) acc (Memref.isWhole_whole _) hf hl (iblk V c 0 t) (iblk V c 1 t) (iblk V c 2 t)
abbrev rM (c : Dev nD) (t : Fin cfg1.N) (hf : ¬isFirst (grid1.coords t)) (hl : ¬isLast (grid1.coords t)) (sa : Vec F S1024x1024 .f32) :=
  runMid (F := F) c (grid1.coords t) (ms0 t) (hs0 t) (ms1 t) (hs1 t) (ms2 t) (hs2 t) (ms3 t) (hs3 t) acc (Memref.isWhole_whole _) hf hl (iblk V c 0 t) (iblk V c 1 t) (iblk V c 2 t) sa
abbrev rL (c : Dev nD) (t : Fin cfg1.N) (hf : ¬isFirst (grid1.coords t)) (hl : isLast (grid1.coords t)) (sa : Vec F S1024x1024 .f32) :=
  runLast (F := F) c (grid1.coords t) (ms0 t) (hs0 t) (ms1 t) (hs1 t) (ms2 t) (hs2 t) (ms3 t) (hs3 t) acc (Memref.isWhole_whole _) hf hl (iblk V c 0 t) (iblk V c 1 t) (iblk V c 2 t) sa

theorem covA_F (c : Dev nD) (t : Fin cfg1.N) (hf) (hl) (y : S1024x1024.Idx) : ∃ pc ∈ (rF V c t hf hl).1, y ∈ pc.1.set :=
  View.cover_of_tiledL (rF V c t hf hl).1 S1024x1024.size (by sl_kernel_rfl) y
theorem covA_M (c : Dev nD) (t : Fin cfg1.N) (hf) (hl) (sa : Vec F S1024x1024 .f32) (y : S1024x1024.Idx) : ∃ pc ∈ (rM V c t hf hl sa).1, y ∈ pc.1.set :=
  View.cover_of_tiledL (rM V c t hf hl sa).1 S1024x1024.size (by sl_kernel_rfl) y
theorem covO_L (c : Dev nD) (t : Fin cfg1.N) (hf) (hl) (sa : Vec F S1024x1024 .f32) (y : S1024x1024.Idx) : ∃ pc ∈ (rL V c t hf hl sa).1, y ∈ pc.1.set :=
  View.cover_of_tiledL (rL V c t hf hl sa).1 S1024x1024.size (by sl_kernel_rfl) y
theorem covA_L (c : Dev nD) (t : Fin cfg1.N) (hf) (hl) (sa : Vec F S1024x1024 .f32) (y : S1024x1024.Idx) : ∃ pc ∈ (rL V c t hf hl sa).2.1, y ∈ pc.1.set :=
  View.cover_of_tiledL (rL V c t hf hl sa).2.1 S1024x1024.size (by sl_kernel_rfl) y

def stepFirst (c : Dev nD) (t : Fin cfg1.N) (hf : isFirst (grid1.coords t)) (hl : ¬isLast (grid1.coords t)) : St F :=
  (idleOut, VA.read (Elt F) (VA.writes (Elt F) VA.junk (rF V c t hf hl).1))
def stepMid (c : Dev nD) (t : Fin cfg1.N) (hf : ¬isFirst (grid1.coords t)) (hl : ¬isLast (grid1.coords t)) (sa : Vec F S1024x1024 .f32) : St F :=
  (idleOut, VA.read (Elt F) (VA.writes (Elt F) VA.junk (rM V c t hf hl sa).1))
def stepLast (c : Dev nD) (t : Fin cfg1.N) (hf : ¬isFirst (grid1.coords t)) (hl : isLast (grid1.coords t)) (sa : Vec F S1024x1024 .f32) : St F :=
  (VO.read (Elt F) (VO.writes (Elt F) VO.junk (rL V c t hf hl sa).1), VA.read (Elt F) (VA.writes (Elt F) VA.junk (rL V c t hf hl sa).2.1))

/-! ## The accumulation, point by point -/

def outsAt (c : Dev nD) : (n : ℕ) → n < cfg1.N → St F
  | 0, hn => stepFirst V c ⟨0, hn⟩ ((isFirst_iff ⟨0, hn⟩).mpr (Nat.zero_mod _))
      (fun h => (fun h => by (try dsimp only at h); omega) ((isLast_iff ⟨0, hn⟩).mp h))
  | n + 1, hn =>
    if h0 : (n + 1) % 43 = 0 then
      stepFirst V c ⟨n + 1, hn⟩ ((isFirst_iff ⟨n + 1, hn⟩).mpr h0)
        (fun h => (fun h => by (try dsimp only at h); omega) ((isLast_iff ⟨n + 1, hn⟩).mp h))
    else if h3 : (n + 1) % 43 = 42 then
      stepLast V c ⟨n + 1, hn⟩ (fun h => h0 ((isFirst_iff ⟨n + 1, hn⟩).mp h)) ((isLast_iff ⟨n + 1, hn⟩).mpr h3)
        (outsAt c n (Nat.lt_of_succ_lt hn)).2
    else
      stepMid V c ⟨n + 1, hn⟩ (fun h => h0 ((isFirst_iff ⟨n + 1, hn⟩).mp h)) (fun h => h3 ((isLast_iff ⟨n + 1, hn⟩).mp h))
        (outsAt c n (Nat.lt_of_succ_lt hn)).2

theorem outsAt_first (c : Dev nD) (t : Fin cfg1.N) (h0 : t.val % 43 = 0) :
    outsAt V c t.val t.isLt = stepFirst V c t ((isFirst_iff t).mpr h0) (fun h => by have := (isLast_iff t).mp h; omega) := by
  obtain ⟨n, hn⟩ := t
  cases n with
  | zero => exact rfl
  | succ n => exact (dif_pos h0).trans rfl

theorem outsAt_mid (c : Dev nD) (t : Fin cfg1.N) (h0 : ¬t.val % 43 = 0) (h3 : ¬t.val % 43 = 42) :
    outsAt V c t.val t.isLt = stepMid V c t (fun h => h0 ((isFirst_iff t).mp h)) (fun h => h3 ((isLast_iff t).mp h))
      (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h3).trans rfl)

theorem outsAt_last (c : Dev nD) (t : Fin cfg1.N) (h0 : ¬t.val % 43 = 0) (h3 : t.val % 43 = 42) :
    outsAt V c t.val t.isLt = stepLast V c t (fun h => h0 ((isFirst_iff t).mp h)) ((isLast_iff t).mpr h3)
      (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h3).trans rfl)

/-! ## The invariant: the accumulator at what the point before left -/

def PhiS (c : Dev nD) : (n : ℕ) → n ≤ cfg1.N → sProp 𝕄
  | 0, _ => Pipeline.ΦA spec1 c
  | n + 1, hn => iprop(iprop(owns (c : Thread nD τ) acc fullShare (outsAt V c n hn).2 ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) acc fullShare (outsAt V c n hn).2 ∗ others c) ∗ (∃ r, prngReg c r)) := rfl
theorem PhiS_pos (c : Dev nD) (n : ℕ) (h : n ≤ cfg1.N) (hz : n ≠ 0) :
    PhiS V c n h = iprop(iprop(owns (c : Thread nD τ) acc fullShare (outsAt V c (n - 1) (by omega)).2 ∗ others c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat1 V c).A w = V c (Pipeline.arrRef spec1 w) := by
  dsimp only [dat1]
theorem PhiS_castSucc (c : Dev nD) (t : Fin cfg1.N) : (dat1 V c).Φ t.castSucc = PhiS V c t.val (Nat.le_of_lt t.isLt) := by
  dsimp only [dat1]; simp only [Fin.coe_castSucc]
theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = (outsAt V c t.val t.isLt).1 := by dsimp only [dat1]
theorem before_0 (c : Dev nD) (t : Fin cfg1.N) (d) : (dat1 V c).before 0 t d = iblk V c 0 t :=
  before_0_of V (dat1 V c) (A_eq V c 0) (after_0 V c) t d
theorem before_1 (c : Dev nD) (t : Fin cfg1.N) (d) : (dat1 V c).before 1 t d = iblk V c 1 t :=
  before_1_of V (dat1 V c) (A_eq V c 1) (after_1 V c) t d
theorem before_2 (c : Dev nD) (t : Fin cfg1.N) (d) : (dat1 V c).before 2 t d = iblk V c 2 t :=
  before_2_of V (dat1 V c) (A_eq V c 2) (after_2 V c) t d

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  have hN : t.val < 688 := lt_of_lt_of_eq t.isLt (show cfg1.N = 688 from N_1)
  rw [show (dat1 V c).leavesExact 0 t = owns (c : Thread nD τ) (ms0 t) fullShare ((dat1 V c).after 0 t) from by
    unfold Dat.leavesExact; rw [live0 t], after_0]
  rw [show (dat1 V c).leavesExact 1 t = owns (c : Thread nD τ) (ms1 t) fullShare ((dat1 V c).after 1 t) from by
    unfold Dat.leavesExact; rw [live1 t], after_1]
  rw [show (dat1 V c).leavesExact 2 t = owns (c : Thread nD τ) (ms2 t) fullShare ((dat1 V c).after 2 t) from by
    unfold Dat.leavesExact; rw [live2 t], after_2]
  by_cases h0 : t.val % 43 = 0
  · have h3 : ¬t.val % 43 = 42 := by omega
    rw [Dat.leavesExact_idle (dat1 V c) 3 t (idle3 t (fun h => h3 ((isLast_iff t).mp h))) (noFlush3 t (fun h => h3 ((isLast_iff t).mp h)))]
    rw [outsAt_first V c t h0]
    unfold stepFirst; (try dsimp only)
    by_cases hz : t.val = 0
    · rw [PhiS_castSucc V c t, PhiS_zero V c _ _ hz, PhiA_eq]
      iintro ⟨⟨⟨HA, Hoth⟩, Hg⟩, Ho, ⟨%d0, H0⟩, ⟨%d1, H1⟩, ⟨%d2, H2⟩, ⟨%d3, H3⟩⟩
      iapply ((rF V c t ((isFirst_iff t).mpr h0) (fun h => by have := (isLast_iff t).mp h; omega)).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA Hoth Hg]
      · isplitl [HA Hoth]
        · isplitl [HA]
          · unfold owns; iexists _; isplitr
            swap; · iexact HA
            ipureintro; exact View.read_writes_of_cover _ _ _ _ _ (covA_F V c t _ _)
          · iexact Hoth
        · iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA, Hoth⟩, Hg⟩, Ho, ⟨%d0, H0⟩, ⟨%d1, H1⟩, ⟨%d2, H2⟩, ⟨%d3, H3⟩⟩
      iapply ((rF V c t ((isFirst_iff t).mpr h0) (fun h => by have := (isLast_iff t).mp h; omega)).2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%ea, HA⟩⟩
      isplitl [HA Hoth Hg]
      · isplitl [HA Hoth]
        · isplitl [HA]
          · unfold owns; iexists _; isplitr
            swap; · iexact HA
            ipureintro; exact View.read_writes_of_cover _ _ _ _ _ (covA_F V c t _ _)
          · iexact Hoth
        · iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 43 = 42
    · rw [show (dat1 V c).leavesExact 3 t = owns (c : Thread nD τ) (ms3 t) fullShare ((dat1 V c).after 3 t) from by
        unfold Dat.leavesExact; rw [live3 t ((isLast_iff t).mpr h3)], after_3]
      rw [outsAt_last V c t h0 h3]
      unfold stepLast; (try dsimp only)
      rw [PhiS_castSucc V c t, PhiS_pos V c _ _ hz]
      iintro ⟨⟨⟨HA, Hoth⟩, Hg⟩, Ho, ⟨%d0, H0⟩, ⟨%d1, H1⟩, ⟨%d2, H2⟩, ⟨%d3, H3⟩⟩
      iapply ((rL V c t (fun h => h0 ((isFirst_iff t).mp h)) ((isLast_iff t).mpr h3) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%eo, H3⟩, ⟨%ea, HA⟩⟩
      isplitl [HA Hoth Hg]
      · isplitl [HA Hoth]
        · isplitl [HA]
          · unfold owns; iexists _; isplitr
            swap; · iexact HA
            ipureintro; exact View.read_writes_of_cover _ _ _ _ _ (covA_L V c t _ _ _)
          · iexact Hoth
        · iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (covO_L V c t _ _ _)
    · rw [Dat.leavesExact_idle (dat1 V c) 3 t (idle3 t (fun h => h3 ((isLast_iff t).mp h))) (noFlush3 t (fun h => h3 ((isLast_iff t).mp h)))]
      rw [outsAt_mid V c t h0 h3]
      unfold stepMid; (try dsimp only)
      rw [PhiS_castSucc V c t, PhiS_pos V c _ _ hz]
      iintro ⟨⟨⟨HA, Hoth⟩, Hg⟩, Ho, ⟨%d0, H0⟩, ⟨%d1, H1⟩, ⟨%d2, H2⟩, ⟨%d3, H3⟩⟩
      iapply ((rM V c t (fun h => h0 ((isFirst_iff t).mp h)) (fun h => h3 ((isLast_iff t).mp h)) _).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA Hoth Hg]
      · isplitl [HA Hoth]
        · isplitl [HA]
          · unfold owns; iexists _; isplitr
            swap; · iexact HA
            ipureintro; exact View.read_writes_of_cover _ _ _ _ _ (covA_M V c t _ _ _)
          · iexact Hoth
        · iexact Hg
      isplitl [Ho]; · iexact Ho
      isplitl [H0]; · iexact H0
      isplitl [H1]; · iexact H1
      isplitl [H2]; · iexact H2
      iexists _; iexact H3

theorem body_obligation (c : Dev nD) : BodyObligation (dat1 (F := F) V c) (defs₀ (F := F)) Variants.none () Set.univ := fun t => by
  rw [bigSep_W1, bigSep_W1]
  exact sound_body V c t

/-! ## The invariant's two ends -/

theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the class's back: the accumulator's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA_eq]
  iintro ⟨⟨HA, Hoth⟩, Hg⟩
  isplitl [HA Hoth]
  · isplitl [HA]
    · iexists _; iexact HA
    · iexact Hoth
  · iexact Hg

theorem hout (c : Dev nD) : (dat1 V c).Φ (Fin.last cfg1.N) ⊢ Pipeline.ΦA spec1 c :=
  Phi_out V c _ (by rw [Fin.val_last]; have : cfg1.N = 688 := N_1; omega)

end Cert.Kernel.R1

end
-- ==== Proof.Kernel.Assemble.lean ====
/-
  The whole program on one core: the host lines, then the two kernels, one after the other.

  The unscoped buffers' contents are followed from the launch to the return as a fold: the three host lines write the
  scales as [n, 1] columns (`W1`); the first kernel leaves its output array at what its write-backs make of it and every
  other buffer as found (`W2`); the second kernel likewise (`W3`). Each kernel's proof data is taken at the contents it
  is entered with, so the second kernel reads the hidden activations the first one left. The run ends with every
  unscoped buffer at `W3`: the seven arguments, which nothing writes, at their launch contents, and the result array at
  what the second kernel's write-backs leave.
-/
import proofs.«165453_j40484361732127_1_alg».proof.Proof.Kernel.Frame0
import proofs.«165453_j40484361732127_1_alg».proof.Proof.Kernel.Frame1
import proofs.«165453_j40484361732127_1_alg».proof.Proof.Gen.Kernel.Regions
import Idealize.ShloMosaic.Lib.Pipeline.RegionsLoop

set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host lines (the first kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c (Proc.devRef .tc b)
/-- After the first kernel: its arrays at what the pipeline leaves, every other buffer as entered. -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c (Proc.devRef .tc b)
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second kernel (the return). -/
def W3 (c : Dev nD) : Valuation τ sig (Elt F) :=
  Pipeline.withArrays spec1 c (W2 m c) fun w => (R1.dat1 (V2 m) c).arrAt w cfg1.N
theorem W3_arr (c : Dev nD) (w : Fin cfg1.W) :
    W3 m c (Proc.devRef .tc (Pipeline.arrRef spec1 w)) = (R1.dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c (Proc.devRef .tc b)
theorem hF1 (c : Dev nD) (w : Fin cfg1.W) : (R1.dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W3 m c) ∗ ∃ r, prngReg c r)

/-! ## The two kernels as segments -/

/-- The class's invariant gives back the generator register and the scoped buffers no window stages (and no semaphore:
    the kernels have none of their own). -/
theorem giveBack0 (c : Dev nD) : (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr
theorem giveBack1 (c : Dev nD) : (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- Call 0 over the thread state: entered with every unscoped buffer at `W1`, left with them at `W2`. Its windows'
    arrays are split out of the unscoped buffers on entry and put back at their final contents on exit; the generator
    register goes into the call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (R0.hout (V1 m) c).trans (giveBack0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `W2`, left with them at `W3`. Its windows'
    arrays are split out of the unscoped buffers on entry and put back at their final contents on exit; the generator
    register goes into the call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m) c).loose
  hwaits := Pipeline.hwaits_of_owed_zero _ _ _ _ L lv 1 fun _ _ => rfl
  pre c := iprop(StableHlo.held (c : Thread nD τ) (Pipeline.ucRefs τ sig) (W2 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (R1.hout (V2 m) c).trans (giveBack1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, with
    every unscoped buffer of every core at `W3`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.Kernel.Asm

end
-- ==== Proof.Kernel.Args.lean ====
/-
  The arguments, and the kernels' input arrays, read through the fold of buffer contents.

  No host line and no kernel writes an argument: a kernel reads it through an input window, whose array the pipeline
  leaves as found, or does not touch it at all. So each argument's buffer at the return is its buffer at launch. The
  three host lines write only the scale columns, each the broadcast of its scale array.
-/
import proofs.«165453_j40484361732127_1_alg».proof.Proof.Kernel.Assemble

set_option maxRecDepth 16384

noncomputable section

namespace Cert.Kernel.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- A buffer the host lines do not write holds, after them, its launch contents. -/
theorem W1_of (c : Dev nD) (r : Ref sig .tc) (h : r ∉ (hostOps0_W : List (Ref sig .tc))) :
    W1 m c (Proc.devRef .tc r) = m ((c : Thread nD τ).loc r) :=
  (Gen.V1_of m c r h).trans rfl

/-! ## Each argument at the return -/

theorem W3_arg0 (c : Dev nD) : W3 m c (Proc.devRef .tc main_arg0) = m ((c : Thread nD τ).loc main_arg0) :=
  (W3_of_ne m c main_arg0 (by decide)).trans <|
    ((W2_arr m c 0).trans (((R0.dat0 (V1 m) c).arrAt_in 0 rfl _).trans (R0.A_eq (V1 m) c 0))).trans <| W1_of m c main_arg0 (by decide)
theorem W3_arg1 (c : Dev nD) : W3 m c (Proc.devRef .tc main_arg1) = m ((c : Thread nD τ).loc main_arg1) :=
  (W3_of_ne m c main_arg1 (by decide)).trans <|
    ((W2_arr m c 1).trans (((R0.dat0 (V1 m) c).arrAt_in 1 rfl _).trans (R0.A_eq (V1 m) c 1))).trans <| W1_of m c main_arg1 (by decide)
theorem W3_arg2 (c : Dev nD) : W3 m c (Proc.devRef .tc main_arg2) = m ((c : Thread nD τ).loc main_arg2) :=
  (W3_of_ne m c main_arg2 (by decide)).trans <| (W2_of_ne m c main_arg2 (by decide)).trans <| W1_of m c main_arg2 (by decide)
theorem W3_arg3 (c : Dev nD) : W3 m c (Proc.devRef .tc main_arg3) = m ((c : Thread nD τ).loc main_arg3) :=
  (W3_of_ne m c main_arg3 (by decide)).trans <|
    ((W2_arr m c 3).trans (((R0.dat0 (V1 m) c).arrAt_in 3 rfl _).trans (R0.A_eq (V1 m) c 3))).trans <| W1_of m c main_arg3 (by decide)
theorem W3_arg4 (c : Dev nD) : W3 m c (Proc.devRef .tc main_arg4) = m ((c : Thread nD τ).loc main_arg4) :=
  (W3_of_ne m c main_arg4 (by decide)).trans <| (W2_of_ne m c main_arg4 (by decide)).trans <| W1_of m c main_arg4 (by decide)
theorem W3_arg5 (c : Dev nD) : W3 m c (Proc.devRef .tc main_arg5) = m ((c : Thread nD τ).loc main_arg5) :=
  ((W3_arr m c 1).trans (((R1.dat1 (V2 m) c).arrAt_in 1 rfl _).trans (R1.A_eq (V2 m) c 1))).trans <|
    (W2_of_ne m c main_arg5 (by decide)).trans <| W1_of m c main_arg5 (by decide)
theorem W3_arg6 (c : Dev nD) : W3 m c (Proc.devRef .tc main_arg6) = m ((c : Thread nD τ).loc main_arg6) :=
  (W3_of_ne m c main_arg6 (by decide)).trans <| (W2_of_ne m c main_arg6 (by decide)).trans <| W1_of m c main_arg6 (by decide)

/-! ## What the kernels' arrays hold -/

/-- The first kernel's three argument arrays are found at their launch contents. -/
theorem V1_arg0 (c : Dev nD) : V1 m c main_arg0 = m ((c : Thread nD τ).loc main_arg0) := W1_of m c main_arg0 (by decide)
theorem V1_arg1 (c : Dev nD) : V1 m c main_arg1 = m ((c : Thread nD τ).loc main_arg1) := W1_of m c main_arg1 (by decide)
theorem V1_arg3 (c : Dev nD) : V1 m c main_arg3 = m ((c : Thread nD τ).loc main_arg3) := W1_of m c main_arg3 (by decide)
/-- Its two scale columns are the broadcasts of the scale arrays. -/
theorem V1_v0 (c : Dev nD) : V1 m c main_v0 = broadcastInDim S4096x1 ![0] bcast_S4096_S4096x1_0 (m ((c : Thread nD τ).loc main_arg2)) := by
  show StableHlo.after hostOps0 (fun b => m (c, b)) (Proc.devRef .tc main_v0) = _
  after_results
theorem V1_v1 (c : Dev nD) : V1 m c main_v1 = broadcastInDim S4096x1 ![0] bcast_S4096_S4096x1_0 (m ((c : Thread nD τ).loc main_arg4)) := by
  show StableHlo.after hostOps0 (fun b => m (c, b)) (Proc.devRef .tc main_v1) = _
  after_results
/-- The second kernel finds the hidden activations the first one left, the down weights at their launch contents, and
    the third scale column as the host lines wrote it. -/
theorem V2_v3 (c : Dev nD) : V2 m c main_v3 = (R0.dat0 (V1 m) c).arrAt 5 cfg0.N := W2_arr m c 5
theorem V2_arg5 (c : Dev nD) : V2 m c main_arg5 = m ((c : Thread nD τ).loc main_arg5) :=
  (W2_of_ne m c main_arg5 (by decide)).trans <| W1_of m c main_arg5 (by decide)
theorem V2_v2 (c : Dev nD) : V2 m c main_v2 = broadcastInDim S11008x1 ![0] bcast_S11008_S11008x1_0 (m ((c : Thread nD τ).loc main_arg6)) := by
  refine (W2_of_ne m c main_v2 (by decide)).trans ?_
  show StableHlo.after hostOps0 (fun b => m (c, b)) (Proc.devRef .tc main_v2) = _
  after_results
/-- The result array at the return is what the second kernel's write-backs leave. -/
theorem W3_v4 (c : Dev nD) : W3 m c (Proc.devRef .tc main_v4) = (R1.dat1 (V2 m) c).arrAt 3 cfg1.N := W3_arr m c 3

end Cert.Kernel.Asm

end
-- ==== Proof.KernelIdeal.Runs0.lean ====
/-
  The first kernel (gate and up projections, then the gated product) on one core: what all of its per-point runs share.

  The grid is 4 × 43 × 4 with the LAST axis the contraction: point t has contraction step k = t mod 4. The body branches
  twice on k: at k = 0 it clears the two accumulators; at k = 3 it reads them back and stores the gated product. So a
  point is in one of three cases: first (k = 0), middle (k = 1, 2), last (k = 3). The output window is touched only in the
  last case, and is written back exactly there.
-/
import proofs.«165453_j40484361732127_1_alg».proof.Proof.Gen.KernelIdeal.Launch
import proofs.«165453_j40484361732127_1_alg».proof.Proof.Gen.KernelIdeal.Skeleton
import proofs.«165453_j40484361732127_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, decided over the grid -/

/-- "This is the first contraction step": the body's first `scf.if`, as a function of the grid coordinates. -/
abbrev isFirst (i : grid0.Coords) : Prop :=
  (Scalar.cmpi .ne (Scalar.extui (Scalar.cmpi .eq (BitVec.ofNat 32 (i 2).val) 0#32)) 0#32) = 1#1
/-- It holds exactly at the points with t mod 4 = 0. -/
theorem isFirst_iff : ∀ t : Fin cfg0.N, isFirst (grid0.coords t) ↔ t.val % 4 = 0 :=
  (by decide +kernel : ∀ t : Fin grid0.N, isFirst (grid0.coords t) ↔ t.val % 4 = 0)

/-- "This is the last contraction step": the body's second `scf.if`. -/
abbrev isLast (i : grid0.Coords) : Prop := k0_cond2 i = 1#1
/-- It holds exactly at the points with t mod 4 = 3. -/
theorem isLast_iff : ∀ t : Fin cfg0.N, isLast (grid0.coords t) ↔ t.val % 4 = 3 :=
  (by decide +kernel : ∀ t : Fin grid0.N, isLast (grid0.coords t) ↔ t.val % 4 = 3)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- Away from the last contraction step the output window is idle and not written back. -/
theorem idle5 : ∀ t : Fin cfg0.N, ¬isLast (grid0.coords t) → cfg0.idle 5 (grid0.coords t) = true := by decide +kernel
theorem noFlush5 : ∀ t : Fin cfg0.N, ¬isLast (grid0.coords t) → (cfg0.win 5).flush t = false := by decide +kernel
/-- At the last contraction step it is live. -/
theorem live5 : ∀ t : Fin cfg0.N, isLast (grid0.coords t) → cfg0.idle 5 (grid0.coords t) = false := by decide +kernel

/-! ## The memrefs the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x256 .bf16 := win0_5.stage (cfg0.slots t 5)
abbrev hs5 (t : Fin cfg0.N) : (ms5 t).IsWhole := hstage0_5 ((cfg0.slots t 5).cast nbuf0_5)
/-- The two accumulators: whole scoped buffers of the kernel's own (gate, then up). -/
abbrev accG : Memref sig .tc .vmem S1024x256 .f32 := Memref.whole cc0_scratch0
abbrev accU : Memref sig .tc .vmem S1024x256 .f32 := Memref.whole cc0_scratch1
/-- The views through which the accumulators' and the output buffer's contents are stated. -/
abbrev VG : View sig .tc .vmem S1024x256 .f32 := accG.view
abbrev VU : View sig .tc .vmem S1024x256 .f32 := accU.view
abbrev VO : View sig .tc .vmem S1024x256 .bf16 := (Memref.whole cc0_stg5_0 : Memref sig .tc .vmem S1024x256 .bf16).view

/-! ## The class invariant with the two accumulators split off -/

/-- Every scoped buffer of the core that is neither a staging buffer of this call nor one of its two accumulators, at some
    contents: carried through the call unopened. -/
abbrev others (c : Dev nD) : sProp 𝕄 :=
  Pipeline.scopedRestBut (Ix := Unit) (Name := ℕ) (U := UR sig nD τ) (Lvl := ℕ) (Val := Elt F) spec0 c [cc0_scratch0, cc0_scratch1]

theorem PhiA_eq (c : Dev nD) :
    (Pipeline.ΦA spec0 c : sProp 𝕄)
      = iprop(iprop(iprop((∃ d, owns (c : Thread nD τ) accG fullShare d) ∗ (∃ d, owns (c : Thread nD τ) accU fullShare d)) ∗ others c) ∗ (∃ r, prngReg c r)) := by
  unfold Pipeline.ΦA
  rw [Pipeline.scopedRest_split_of_list spec0 c [cc0_scratch0, cc0_scratch1] (by decide) (by decide)]
  simp only [accG, accU, owns_whole]; try rfl

end Cert.KernelIdeal.R0

end
-- ==== Proof.KernelIdeal.Run0First.lean ====
/-
  The first kernel's body at a point of the FIRST contraction step (k = 0), run symbolically on any whole staging memrefs:
  the five input buffers are read and left as found, the output buffer is not touched, and each accumulator is stored twice
  (cleared, then increased by this step's partial product): the pieces each accumulator ends with are what the run finds.
-/
import proofs.«165453_j40484361732127_1_alg».proof.Proof.KernelIdeal.Runs0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point with k = 0. -/
noncomputable def runFirst (c : Dev nD) (i : grid0.Coords) (a3 : Memref sig .tc .vmem S1024x1024 .f32) (h3 : a3.IsWhole) (a4 : Memref sig .tc .vmem S1024x256 .f32) (h4 : a4.IsWhole) (a5 : Memref sig .tc .vmem S1024x1 .f32) (h5 : a5.IsWhole) (a6 : Memref sig .tc .vmem S1024x256 .f32) (h6 : a6.IsWhole) (a7 : Memref sig .tc .vmem S1024x1 .f32) (h7 : a7.IsWhole) (a8 : Memref sig .tc .vmem S1024x256 .bf16) (h8 : a8.IsWhole) (a9 : Memref sig .tc .vmem S1024x256 .f32) (h9 : a9.IsWhole) (a10 : Memref sig .tc .vmem S1024x256 .f32) (h10 : a10.IsWhole) (hf : isFirst i) (hl : ¬isLast i)
    (x0 : Vec F S1024x1024 .f32) (x1 : Vec F S1024x256 .f32) (x2 : Vec F S1024x1 .f32) (x3 : Vec F S1024x256 .f32) (x4 : Vec F S1024x1 .f32) :
    Σ' (LG : List (View.Piece (Elt F) S1024x256 .f32)), { LU : List (View.Piece (Elt F) S1024x256 .f32) //
      ∀ (xo : Vec F S1024x256 .bf16) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare xo ∗ (∃ d, owns (c : Thread nD τ) a9 fullShare d) ∗ (∃ d, owns (c : Thread nD τ) a10 fullShare d)
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare xo ∗ (∃ f, a9.view.loc (c : Thread nD τ) ↦[a9.view.set]{fullShare} a9.view.writes (Elt F) f LG) ∗ (∃ f, a10.view.loc (c : Thread nD τ) ↦[a10.view.set]{fullShare} a10.view.writes (Elt F) f LU)) -∗ K ⟨⟩))
          ⊢ wp frame (wpE (defs₀ (F := F)) Variants.none c none) E (cc0__swiglu_kernel i a3 h3 a4 h4 a5 h5 a6 h6 a7 h7 a8 h8 a9 h9 a10 h10) K } := by
  refine ⟨?_, ?_, fun xo E K => ?run⟩
  case run =>
    simp only [cc0__swiglu_kernel_eq_skeleton]; unfold cc0__swiglu_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dg, %fg, -, HG⟩, ⟨%du, %fu, -, HU⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [HG]; · iexists _; iexact HG
    iexists _; iexact HU

end Cert.KernelIdeal.R0

end
-- ==== Proof.KernelIdeal.Run0Mid.lean ====
/-
  The first kernel's body at a point of a MIDDLE contraction step (k = 1, 2): the accumulators are found at what the step
  before left (`sg`, `su`) and each is stored once, increased by this step's partial product; the output buffer is not
  touched.
-/
import proofs.«165453_j40484361732127_1_alg».proof.Proof.KernelIdeal.Runs0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point with 0 < k < 3. -/
noncomputable def runMid (c : Dev nD) (i : grid0.Coords) (a3 : Memref sig .tc .vmem S1024x1024 .f32) (h3 : a3.IsWhole) (a4 : Memref sig .tc .vmem S1024x256 .f32) (h4 : a4.IsWhole) (a5 : Memref sig .tc .vmem S1024x1 .f32) (h5 : a5.IsWhole) (a6 : Memref sig .tc .vmem S1024x256 .f32) (h6 : a6.IsWhole) (a7 : Memref sig .tc .vmem S1024x1 .f32) (h7 : a7.IsWhole) (a8 : Memref sig .tc .vmem S1024x256 .bf16) (h8 : a8.IsWhole) (a9 : Memref sig .tc .vmem S1024x256 .f32) (h9 : a9.IsWhole) (a10 : Memref sig .tc .vmem S1024x256 .f32) (h10 : a10.IsWhole) (hf : ¬isFirst i) (hl : ¬isLast i)
    (x0 : Vec F S1024x1024 .f32) (x1 : Vec F S1024x256 .f32) (x2 : Vec F S1024x1 .f32) (x3 : Vec F S1024x256 .f32) (x4 : Vec F S1024x1 .f32) (sg su : Vec F S1024x256 .f32) :
    Σ' (LG : List (View.Piece (Elt F) S1024x256 .f32)), { LU : List (View.Piece (Elt F) S1024x256 .f32) //
      ∀ (xo : Vec F S1024x256 .bf16) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare xo ∗ owns (c : Thread nD τ) a9 fullShare sg ∗ owns (c : Thread nD τ) a10 fullShare su
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare xo ∗ (∃ f, a9.view.loc (c : Thread nD τ) ↦[a9.view.set]{fullShare} a9.view.writes (Elt F) f LG) ∗ (∃ f, a10.view.loc (c : Thread nD τ) ↦[a10.view.set]{fullShare} a10.view.writes (Elt F) f LU)) -∗ K ⟨⟩))
          ⊢ wp frame (wpE (defs₀ (F := F)) Variants.none c none) E (cc0__swiglu_kernel i a3 h3 a4 h4 a5 h5 a6 h6 a7 h7 a8 h8 a9 h9 a10 h10) K } := by
  refine ⟨?_, ?_, fun xo E K => ?run⟩
  case run =>
    simp only [cc0__swiglu_kernel_eq_skeleton]; unfold cc0__swiglu_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fg, %hfg, HG⟩, ⟨%fu, %hfu, HU⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    obtain rfl := h9.eq_unread hfg; obtain rfl := h10.eq_unread hfu
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [HG]; · iexists _; iexact HG
    iexists _; iexact HU

end Cert.KernelIdeal.R0

end
-- ==== Proof.KernelIdeal.Run0Last.lean ====
/-
  The first kernel's body at a point of the LAST contraction step (k = 3): the accumulators are found at what the step
  before left, each is stored once, and the output buffer, found at anything, is stored whole with the gated product of
  the two finished accumulators.
-/
import proofs.«165453_j40484361732127_1_alg».proof.Proof.KernelIdeal.Runs0

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point with k = 3. -/
noncomputable def runLast (c : Dev nD) (i : grid0.Coords) (a3 : Memref sig .tc .vmem S1024x1024 .f32) (h3 : a3.IsWhole) (a4 : Memref sig .tc .vmem S1024x256 .f32) (h4 : a4.IsWhole) (a5 : Memref sig .tc .vmem S1024x1 .f32) (h5 : a5.IsWhole) (a6 : Memref sig .tc .vmem S1024x256 .f32) (h6 : a6.IsWhole) (a7 : Memref sig .tc .vmem S1024x1 .f32) (h7 : a7.IsWhole) (a8 : Memref sig .tc .vmem S1024x256 .bf16) (h8 : a8.IsWhole) (a9 : Memref sig .tc .vmem S1024x256 .f32) (h9 : a9.IsWhole) (a10 : Memref sig .tc .vmem S1024x256 .f32) (h10 : a10.IsWhole) (hf : ¬isFirst i) (hl : isLast i)
    (x0 : Vec F S1024x1024 .f32) (x1 : Vec F S1024x256 .f32) (x2 : Vec F S1024x1 .f32) (x3 : Vec F S1024x256 .f32) (x4 : Vec F S1024x1 .f32) (sg su : Vec F S1024x256 .f32) :
    Σ' (LO : List (View.Piece (Elt F) S1024x256 .bf16)) (LG : List (View.Piece (Elt F) S1024x256 .f32)), { LU : List (View.Piece (Elt F) S1024x256 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ d, owns (c : Thread nD τ) a8 fullShare d) ∗ owns (c : Thread nD τ) a9 fullShare sg ∗ owns (c : Thread nD τ) a10 fullShare su
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ (∃ f, a8.view.loc (c : Thread nD τ) ↦[a8.view.set]{fullShare} a8.view.writes (Elt F) f LO) ∗ (∃ f, a9.view.loc (c : Thread nD τ) ↦[a9.view.set]{fullShare} a9.view.writes (Elt F) f LG) ∗ (∃ f, a10.view.loc (c : Thread nD τ) ↦[a10.view.set]{fullShare} a10.view.writes (Elt F) f LU)) -∗ K ⟨⟩))
          ⊢ wp frame (wpE (defs₀ (F := F)) Variants.none c none) E (cc0__swiglu_kernel i a3 h3 a4 h4 a5 h5 a6 h6 a7 h7 a8 h8 a9 h9 a10 h10) K } := by
  refine ⟨?_, ?_, ?_, fun E K => ?run⟩
  case run =>
    simp only [cc0__swiglu_kernel_eq_skeleton]; unfold cc0__swiglu_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fg, %hfg, HG⟩, ⟨%fu, %hfu, HU⟩, Hk⟩
    obtain rfl := h3.eq_unread hf0; obtain rfl := h4.eq_unread hf1; obtain rfl := h5.eq_unread hf2
    obtain rfl := h6.eq_unread hf3; obtain rfl := h7.eq_unread hf4
    obtain rfl := h9.eq_unread hfg; obtain rfl := h10.eq_unread hfu
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]; · iexists _; iexact H5
    isplitl [HG]; · iexists _; iexact HG
    iexists _; iexact HU

end Cert.KernelIdeal.R0

end
-- ==== Proof.KernelIdeal.Frame0.lean ====
/-
  The first kernel as one pipeline on one core: its proof data and its body obligation.

  After the body at point t (contraction step k = t mod 4) the two accumulators hold what the step's case leaves: at
  k = 0 the cleared accumulator plus the step's partial product, at k > 0 what the point before left plus the step's
  partial product. So what they hold is a recursion on the point (`outsAt`), and the region's invariant carries the two
  accumulators AT those contents from one point to the next (`PhiS`); every other scoped buffer rides along unopened.
  The output buffer is stored only at k = 3, where the pipeline writes it back; elsewhere it is idle.
-/
import proofs.«165453_j40484361732127_1_alg».proof.Proof.KernelIdeal.Run0First
import proofs.«165453_j40484361732127_1_alg».proof.Proof.KernelIdeal.Run0Mid
import proofs.«165453_j40484361732127_1_alg».proof.Proof.KernelIdeal.Run0Last

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the unscoped buffers' contents when the call is entered, per core
variable (V : (c : Dev nD) → (b : Ref sig .tc) → Buf (Elt F) ((c : Thread nD τ).loc b))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- What the two accumulators and the output buffer hold after a point: (output, gate accumulator, up accumulator). -/
abbrev St (F : FTy → Type) [FloatOps F] : Type := Vec F S1024x256 .bf16 × Vec F S1024x256 .f32 × Vec F S1024x256 .f32

/-- The output buffer where the body does not store into it: a placeholder nothing consults (the window is idle and not
    written back there). -/
def idleOut : Vec F S1024x256 .bf16 := VO.read (Elt F) (VO.writes (Elt F) VO.junk [])

/-- The three runs at point `t`, on the memrefs the pipeline passes and the blocks the inputs hold. -/
abbrev rF (c : Dev nD) (t : Fin cfg0.N) (hf : isFirst (grid0.coords t)) (hl : ¬isLast (grid0.coords t)) :=
  runFirst (F := F) c (grid0.coords t) (ms0 t) (hs0 t) (ms1 t) (hs1 t) (ms2 t) (hs2 t) (ms3 t) (hs3 t) (ms4 t) (hs4 t) (ms5 t) (hs5 t) accG (Memref.isWhole_whole _) accU (Memref.isWhole_whole _) hf hl (iblk V c 0 t) (iblk V c 1 t) (iblk V c 2 t) (iblk V c 3 t) (iblk V c 4 t)
abbrev rM (c : Dev nD) (t : Fin cfg0.N) (hf : ¬isFirst (grid0.coords t)) (hl : ¬isLast (grid0.coords t)) (sg su : Vec F S1024x256 .f32) :=
  runMid (F := F) c (grid0.coords t) (ms0 t) (hs0 t) (ms1 t) (hs1 t) (ms2 t) (hs2 t) (ms3 t) (hs3 t) (ms4 t) (hs4 t) (ms5 t) (hs5 t) accG (Memref.isWhole_whole _) accU (Memref.isWhole_whole _) hf hl (iblk V c 0 t) (iblk V c 1 t) (iblk V c 2 t) (iblk V c 3 t) (iblk V c 4 t) sg su
abbrev rL (c : Dev nD) (t : Fin cfg0.N) (hf : ¬isFirst (grid0.coords t)) (hl : isLast (grid0.coords t)) (sg su : Vec F S1024x256 .f32) :=
  runLast (F := F) c (grid0.coords t) (ms0 t) (hs0 t) (ms1 t) (hs1 t) (ms2 t) (hs2 t) (ms3 t) (hs3 t) (ms4 t) (hs4 t) (ms5 t) (hs5 t) accG (Memref.isWhole_whole _) accU (Memref.isWhole_whole _) hf hl (iblk V c 0 t) (iblk V c 1 t) (iblk V c 2 t) (iblk V c 3 t) (iblk V c 4 t) sg su

/-- Each case's pieces cover the buffer they are stored into (every store is of the whole buffer). -/
theorem covG_F (c : Dev nD) (t : Fin cfg0.N) (hf) (hl) (y : S1024x256.Idx) : ∃ pc ∈ (rF V c t hf hl).1, y ∈ pc.1.set :=
  View.cover_of_tiledL (rF V c t hf hl).1 S1024x256.size (by sl_kernel_rfl) y
theorem covU_F (c : Dev nD) (t : Fin cfg0.N) (hf) (hl) (y : S1024x256.Idx) : ∃ pc ∈ (rF V c t hf hl).2.1, y ∈ pc.1.set :=
  View.cover_of_tiledL (rF V c t hf hl).2.1 S1024x256.size (by sl_kernel_rfl) y
theorem covG_M (c : Dev nD) (t : Fin cfg0.N) (hf) (hl) (sg su : Vec F S1024x256 .f32) (y : S1024x256.Idx) : ∃ pc ∈ (rM V c t hf hl sg su).1, y ∈ pc.1.set :=
  View.cover_of_tiledL (rM V c t hf hl sg su).1 S1024x256.size (by sl_kernel_rfl) y
theorem covU_M (c : Dev nD) (t : Fin cfg0.N) (hf) (hl) (sg su : Vec F S1024x256 .f32) (y : S1024x256.Idx) : ∃ pc ∈ (rM V c t hf hl sg su).2.1, y ∈ pc.1.set :=
  View.cover_of_tiledL (rM V c t hf hl sg su).2.1 S1024x256.size (by sl_kernel_rfl) y
theorem covO_L (c : Dev nD) (t : Fin cfg0.N) (hf) (hl) (sg su : Vec F S1024x256 .f32) (y : S1024x256.Idx) : ∃ pc ∈ (rL V c t hf hl sg su).1, y ∈ pc.1.set :=
  View.cover_of_tiledL (rL V c t hf hl sg su).1 S1024x256.size (by sl_kernel_rfl) y
theorem covG_L (c : Dev nD) (t : Fin cfg0.N) (hf) (hl) (sg su : Vec F S1024x256 .f32) (y : S1024x256.Idx) : ∃ pc ∈ (rL V c t hf hl sg su).2.1, y ∈ pc.1.set :=
  View.cover_of_tiledL (rL V c t hf hl sg su).2.1 S1024x256.size (by sl_kernel_rfl) y
theorem covU_L (c : Dev nD) (t : Fin cfg0.N) (hf) (hl) (sg su : Vec F S1024x256 .f32) (y : S1024x256.Idx) : ∃ pc ∈ (rL V c t hf hl sg su).2.2.1, y ∈ pc.1.set :=
  View.cover_of_tiledL (rL V c t hf hl sg su).2.2.1 S1024x256.size (by sl_kernel_rfl) y

/-- What a point of each case leaves: its pieces read back. -/
def stepFirst (c : Dev nD) (t : Fin cfg0.N) (hf : isFirst (grid0.coords t)) (hl : ¬isLast (grid0.coords t)) : St F :=
  (idleOut, VG.read (Elt F) (VG.writes (Elt F) VG.junk (rF V c t hf hl).1), VU.read (Elt F) (VU.writes (Elt F) VU.junk (rF V c t hf hl).2.1))
def stepMid (c : Dev nD) (t : Fin cfg0.N) (hf : ¬isFirst (grid0.coords t)) (hl : ¬isLast (grid0.coords t)) (sg su : Vec F S1024x256 .f32) : St F :=
  (idleOut, VG.read (Elt F) (VG.writes (Elt F) VG.junk (rM V c t hf hl sg su).1), VU.read (Elt F) (VU.writes (Elt F) VU.junk (rM V c t hf hl sg su).2.1))
def stepLast (c : Dev nD) (t : Fin cfg0.N) (hf : ¬isFirst (grid0.coords t)) (hl : isLast (grid0.coords t)) (sg su : Vec F S1024x256 .f32) : St F :=
  (VO.read (Elt F) (VO.writes (Elt F) VO.junk (rL V c t hf hl sg su).1), VG.read (Elt F) (VG.writes (Elt F) VG.junk (rL V c t hf hl sg su).2.1),
    VU.read (Elt F) (VU.writes (Elt F) VU.junk (rL V c t hf hl sg su).2.2.1))

/-! ## The accumulation, point by point -/

/-- What the output buffer and the two accumulators hold after the body at position `n`: the case k = n mod 4 selects,
    run on what position `n - 1` left in the accumulators. -/
def outsAt (c : Dev nD) : (n : ℕ) → n < cfg0.N → St F
  | 0, hn => stepFirst V c ⟨0, hn⟩ ((isFirst_iff ⟨0, hn⟩).mpr (Nat.zero_mod _))
      (fun h => (fun h => by (try dsimp only at h); omega) ((isLast_iff ⟨0, hn⟩).mp h))
  | n + 1, hn =>
    if h0 : (n + 1) % 4 = 0 then
      stepFirst V c ⟨n + 1, hn⟩ ((isFirst_iff ⟨n + 1, hn⟩).mpr h0)
        (fun h => (fun h => by (try dsimp only at h); omega) ((isLast_iff ⟨n + 1, hn⟩).mp h))
    else if h3 : (n + 1) % 4 = 3 then
      stepLast V c ⟨n + 1, hn⟩ (fun h => h0 ((isFirst_iff ⟨n + 1, hn⟩).mp h)) ((isLast_iff ⟨n + 1, hn⟩).mpr h3)
        (outsAt c n (Nat.lt_of_succ_lt hn)).2.1 (outsAt c n (Nat.lt_of_succ_lt hn)).2.2
    else
      stepMid V c ⟨n + 1, hn⟩ (fun h => h0 ((isFirst_iff ⟨n + 1, hn⟩).mp h)) (fun h => h3 ((isLast_iff ⟨n + 1, hn⟩).mp h))
        (outsAt c n (Nat.lt_of_succ_lt hn)).2.1 (outsAt c n (Nat.lt_of_succ_lt hn)).2.2

theorem outsAt_first (c : Dev nD) (t : Fin cfg0.N) (h0 : t.val % 4 = 0) :
    outsAt V c t.val t.isLt = stepFirst V c t ((isFirst_iff t).mpr h0) (fun h => by have := (isLast_iff t).mp h; omega) := by
  obtain ⟨n, hn⟩ := t
  cases n with
  | zero => exact rfl
  | succ n => exact (dif_pos h0).trans rfl

theorem outsAt_mid (c : Dev nD) (t : Fin cfg0.N) (h0 : ¬t.val % 4 = 0) (h3 : ¬t.val % 4 = 3) :
    outsAt V c t.val t.isLt = stepMid V c t (fun h => h0 ((isFirst_iff t).mp h)) (fun h => h3 ((isLast_iff t).mp h))
      (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_neg h3).trans rfl)

theorem outsAt_last (c : Dev nD) (t : Fin cfg0.N) (h0 : ¬t.val % 4 = 0) (h3 : t.val % 4 = 3) :
    outsAt V c t.val t.isLt = stepLast V c t (fun h => h0 ((isFirst_iff t).mp h)) ((isLast_iff t).mpr h3)
      (outsAt V c (t.val - 1) (Nat.lt_of_le_of_lt (Nat.sub_le _ _) t.isLt)).2.1 (outsAt V c (t.val - 1) (Nat.lt_of_le_of_lt (Nat.sub_le _ _) t.isLt)).2.2 := by
  obtain ⟨n, hn⟩ := t
  cases n with
  | zero => exact absurd (Nat.zero_mod _) h0
  | succ n => exact (dif_neg h0).trans ((dif_pos h3).trans rfl)

/-! ## The invariant: the accumulators at what the point before left -/

def PhiS (c : Dev nD) : (n : ℕ) → n ≤ cfg0.N → sProp 𝕄
  | 0, _ => Pipeline.ΦA spec0 c
  | n + 1, hn => iprop(iprop(iprop(owns (c : Thread nD τ) accG fullShare (outsAt V c n hn).2.1 ∗ owns (c : Thread nD τ) accU fullShare (outsAt V c n hn).2.2) ∗ others c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(iprop(owns (c : Thread nD τ) accG fullShare (outsAt V c n hn).2.1 ∗ owns (c : Thread nD τ) accU fullShare (outsAt V c n hn).2.2) ∗ others c) ∗ (∃ r, prngReg c r)) := rfl
theorem PhiS_pos (c : Dev nD) (n : ℕ) (h : n ≤ cfg0.N) (hz : n ≠ 0) :
    PhiS V c n h = iprop(iprop(iprop(owns (c : Thread nD τ) accG fullShare (outsAt V c (n - 1) (by omega)).2.1 ∗ owns (c : Thread nD τ) accU fullShare (outsAt V c (n - 1) (by omega)).2.2) ∗ others c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (outsAt V c t.val t.isLt).1
  Φ t := PhiS V c t.val (Nat.le_of_lt_succ t.isLt)
  q _ := fullShare
  owed _ := 0

theorem A_eq (c : Dev nD) (w : Fin cfg0.W) : (dat0 V c).A w = V c (Pipeline.arrRef spec0 w) := by
  dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after_0 (c : Dev nD) (t : Fin cfg0.N) : (dat0 V c).after 0 t = iblk V c 0 t := by dsimp only [dat0]
theorem after_1 (c : Dev nD) (t : Fin cfg0.N) : (dat0 V c).after 1 t = iblk V c 1 t := by dsimp only [dat0]
theorem after_2 (c : Dev nD) (t : Fin cfg0.N) : (dat0 V c).after 2 t = iblk V c 2 t := by dsimp only [dat0]
theorem after_3 (c : Dev nD) (t : Fin cfg0.N) : (dat0 V c).after 3 t = iblk V c 3 t := by dsimp only [dat0]
theorem after_4 (c : Dev nD) (t : Fin cfg0.N) : (dat0 V c).after 4 t = iblk V c 4 t := by dsimp only [dat0]
theorem after_5 (c : Dev nD) (t : Fin cfg0.N) : (dat0 V c).after 5 t = (outsAt V c t.val t.isLt).1 := by dsimp only [dat0]
theorem before_0 (c : Dev nD) (t : Fin cfg0.N) (d) : (dat0 V c).before 0 t d = iblk V c 0 t :=
  before_0_of V (dat0 V c) (A_eq V c 0) (after_0 V c) t d
theorem before_1 (c : Dev nD) (t : Fin cfg0.N) (d) : (dat0 V c).before 1 t d = iblk V c 1 t :=
  before_1_of V (dat0 V c) (A_eq V c 1) (after_1 V c) t d
theorem before_2 (c : Dev nD) (t : Fin cfg0.N) (d) : (dat0 V c).before 2 t d = iblk V c 2 t :=
  before_2_of V (dat0 V c) (A_eq V c 2) (after_2 V c) t d
theorem before_3 (c : Dev nD) (t : Fin cfg0.N) (d) : (dat0 V c).before 3 t d = iblk V c 3 t :=
  before_3_of V (dat0 V c) (A_eq V c 3) (after_3 V c) t d
theorem before_4 (c : Dev nD) (t : Fin cfg0.N) (d) : (dat0 V c).before 4 t d = iblk V c 4 t :=
  before_4_of V (dat0 V c) (A_eq V c 4) (after_4 V c) t d

/-! ## The body obligation -/

def bodyPre (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d)))

def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

set_option maxHeartbeats 8000000 in
/-- The body at any point: the inputs' buffers hold their blocks; the closed forms say which case the point is in; the
    invariant hands the run the accumulators at what the point before left (at anything at the very first point) and
    takes them back at this point's contents. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat0 V c).owesAt () t.succ = (dat0 V c).owesAt () t.castSucc from rfl]
  rw [show (dat0 V c).Φ t.succ = PhiS V c (t.val + 1) t.isLt from rfl, PhiS_succ]
  have hN : t.val < 688 := lt_of_lt_of_eq t.isLt (show cfg0.N = 688 from N_0)
  rw [show (dat0 V c).leavesExact 0 t = owns (c : Thread nD τ) (ms0 t) fullShare ((dat0 V c).after 0 t) from by
    unfold Dat.leavesExact; rw [live0 t], after_0]
  rw [show (dat0 V c).leavesExact 1 t = owns (c : Thread nD τ) (ms1 t) fullShare ((dat0 V c).after 1 t) from by
    unfold Dat.leavesExact; rw [live1 t], after_1]
  rw [show (dat0 V c).leavesExact 2 t = owns (c : Thread nD τ) (ms2 t) fullShare ((dat0 V c).after 2 t) from by
    unfold Dat.leavesExact; rw [live2 t], after_2]
  rw [show (dat0 V c).leavesExact 3 t = owns (c : Thread nD τ) (ms3 t) fullShare ((dat0 V c).after 3 t) from by
    unfold Dat.leavesExact; rw [live3 t], after_3]
  rw [show (dat0 V c).leavesExact 4 t = owns (c : Thread nD τ) (ms4 t) fullShare ((dat0 V c).after 4 t) from by
    unfold Dat.leavesExact; rw [live4 t], after_4]
  by_cases h0 : t.val % 4 = 0
  · have h3 : ¬t.val % 4 = 3 := by omega
    rw [Dat.leavesExact_idle (dat0 V c) 5 t (idle5 t (fun h => h3 ((isLast_iff t).mp h))) (noFlush5 t (fun h => h3 ((isLast_iff t).mp h)))]
    rw [outsAt_first V c t h0]
    unfold stepFirst; (try dsimp only)
    by_cases hz : t.val = 0
    · rw [PhiS_castSucc V c t, PhiS_zero V c _ _ hz, PhiA_eq]
      iintro ⟨⟨⟨⟨HG, HU⟩, Hoth⟩, Hg⟩, Ho, ⟨%d0, H0⟩, ⟨%d1, H1⟩, ⟨%d2, H2⟩, ⟨%d3, H3⟩, ⟨%d4, H4⟩, ⟨%d5, H5⟩⟩
      iapply ((rF V c t ((isFirst_iff t).mpr h0) (fun h => by have := (isLast_iff t).mp h; omega)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HG]; · iexact HG
      isplitl [HU]; · iexact HU
      iintro ⟨H0, H1, H2, H3, H4, H5, ⟨%eg, HG⟩, ⟨%eu, HU⟩⟩
      isplitl [HG HU Hoth Hg]
      · isplitl [HG HU Hoth]
        · isplitl [HG HU]
          · isplitl [HG]
            · unfold owns; iexists _; isplitr
              swap; · iexact HG
              ipureintro; exact View.read_writes_of_cover _ _ _ _ _ (covG_F V c t _ _)
            · unfold owns; iexists _; isplitr
              swap; · iexact HU
              ipureintro; exact View.read_writes_of_cover _ _ _ _ _ (covU_F V c t _ _)
          · iexact Hoth
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨⟨⟨HG, HU⟩, Hoth⟩, Hg⟩, Ho, ⟨%d0, H0⟩, ⟨%d1, H1⟩, ⟨%d2, H2⟩, ⟨%d3, H3⟩, ⟨%d4, H4⟩, ⟨%d5, H5⟩⟩
      iapply ((rF V c t ((isFirst_iff t).mpr h0) (fun h => by have := (isLast_iff t).mp h; omega)).2.2 _ Set.univ _)
      isplitl [H0]; · iexact H0
      isplitl [H1]; · iexact H1
      isplitl [H2]; · iexact H2
      isplitl [H3]; · iexact H3
      isplitl [H4]; · iexact H4
      isplitl [H5]; · iexact H5
      isplitl [HG]; · iexists _; iexact HG
      isplitl [HU]; · iexists _; iexact HU
      iintro ⟨H0, H1, H2, H3, H4, H5, ⟨%eg, HG⟩, ⟨%eu, HU⟩⟩
      isplitl [HG HU Hoth Hg]
      · isplitl [HG HU Hoth]
        · isplitl [HG HU]
          · isplitl [HG]
            · unfold owns; iexists _; isplitr
              swap; · iexact HG
              ipureintro; exact View.read_writes_of_cover _ _ _ _ _ (covG_F V c t _ _)
            · unfold owns; iexists _; isplitr
              swap; · iexact HU
              ipureintro; exact View.read_writes_of_cover _ _ _ _ _ (covU_F V c t _ _)
          · iexact Hoth
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun e => h0 (by rw [e])
    by_cases h3 : t.val % 4 = 3
    · rw [show (dat0 V c).leavesExact 5 t = owns (c : Thread nD τ) (ms5 t) fullShare ((dat0 V c).after 5 t) from by
        unfold Dat.leavesExact; rw [live5 t ((isLast_iff t).mpr h3)], after_5]
      rw [outsAt_last V c t h0 h3]
      unfold stepLast; (try dsimp only)
      rw [PhiS_castSucc V c t, PhiS_pos V c _ _ hz]
      iintro ⟨⟨⟨⟨HG, HU⟩, Hoth⟩, Hg⟩, Ho, ⟨%d0, H0⟩, ⟨%d1, H1⟩, ⟨%d2, H2⟩, ⟨%d3, H3⟩, ⟨%d4, H4⟩, ⟨%d5, H5⟩⟩
      iapply ((rL V c t (fun h => h0 ((isFirst_iff t).mp h)) ((isLast_iff t).mpr h3) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HG]; · iexact HG
      isplitl [HU]; · iexact HU
      iintro ⟨H0, H1, H2, H3, H4, ⟨%eo, H5⟩, ⟨%eg, HG⟩, ⟨%eu, HU⟩⟩
      isplitl [HG HU Hoth Hg]
      · isplitl [HG HU Hoth]
        · isplitl [HG HU]
          · isplitl [HG]
            · unfold owns; iexists _; isplitr
              swap; · iexact HG
              ipureintro; exact View.read_writes_of_cover _ _ _ _ _ (covG_L V c t _ _ _ _)
            · unfold owns; iexists _; isplitr
              swap; · iexact HU
              ipureintro; exact View.read_writes_of_cover _ _ _ _ _ (covU_L V c t _ _ _ _)
          · iexact Hoth
        · iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (covO_L V c t _ _ _ _)
    · rw [Dat.leavesExact_idle (dat0 V c) 5 t (idle5 t (fun h => h3 ((isLast_iff t).mp h))) (noFlush5 t (fun h => h3 ((isLast_iff t).mp h)))]
      rw [outsAt_mid V c t h0 h3]
      unfold stepMid; (try dsimp only)
      rw [PhiS_castSucc V c t, PhiS_pos V c _ _ hz]
      iintro ⟨⟨⟨⟨HG, HU⟩, Hoth⟩, Hg⟩, Ho, ⟨%d0, H0⟩, ⟨%d1, H1⟩, ⟨%d2, H2⟩, ⟨%d3, H3⟩, ⟨%d4, H4⟩, ⟨%d5, H5⟩⟩
      iapply ((rM V c t (fun h => h0 ((isFirst_iff t).mp h)) (fun h => h3 ((isLast_iff t).mp h)) _ _).2.2 _ Set.univ _)
      isplitl [H0]; · iexact H0
      isplitl [H1]; · iexact H1
      isplitl [H2]; · iexact H2
      isplitl [H3]; · iexact H3
      isplitl [H4]; · iexact H4
      isplitl [H5]; · iexact H5
      isplitl [HG]; · iexact HG
      isplitl [HU]; · iexact HU
      iintro ⟨H0, H1, H2, H3, H4, H5, ⟨%eg, HG⟩, ⟨%eu, HU⟩⟩
      isplitl [HG HU Hoth Hg]
      · isplitl [HG HU Hoth]
        · isplitl [HG HU]
          · isplitl [HG]
            · unfold owns; iexists _; isplitr
              swap; · iexact HG
              ipureintro; exact View.read_writes_of_cover _ _ _ _ _ (covG_M V c t _ _ _ _)
            · unfold owns; iexists _; isplitr
              swap; · iexact HU
              ipureintro; exact View.read_writes_of_cover _ _ _ _ _ (covU_M V c t _ _ _ _)
          · iexact Hoth
        · iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dat0 (F := F) V c) (defs₀ (F := F)) Variants.none () Set.univ := fun t => by
  rw [bigSep_W0, bigSep_W0]
  exact sound_body V c t

/-! ## The invariant's two ends -/

/-- What the call is entered with is the invariant before the first point. -/
theorem hin (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the class's back: the accumulators' named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA_eq]
  iintro ⟨⟨⟨HG, HU⟩, Hoth⟩, Hg⟩
  isplitl [HG HU Hoth]
  · isplitl [HG HU]
    · isplitl [HG]
      · iexists _; iexact HG
      · iexists _; iexact HU
    · iexact Hoth
  · iexact Hg

/-- The same after the last point. -/
theorem hout (c : Dev nD) : (dat0 V c).Φ (Fin.last cfg0.N) ⊢ Pipeline.ΦA spec0 c :=
  Phi_out V c _ (by rw [Fin.val_last]; have : cfg0.N = 688 := N_0; omega)

end Cert.KernelIdeal.R0

end
-- ==== Proof.KernelIdeal.Runs1.lean ====
/-
  The second kernel (down projection) on one core: what all of its per-point runs share.

  The grid is 4 × 4 × 43 with the LAST axis the contraction: point t has contraction step k = t mod 43. At k = 0 the body
  clears its accumulator; at every step it adds the step's partial product; at k = 42 it copies the accumulator into the
  output buffer. Three cases again: first (k = 0), middle (0 < k < 42), last (k = 42); the output window is touched, and
  written back, only in the last.
-/
import proofs.«165453_j40484361732127_1_alg».proof.Proof.Gen.KernelIdeal.Launch
import proofs.«165453_j40484361732127_1_alg».proof.Proof.Gen.KernelIdeal.Skeleton
import proofs.«165453_j40484361732127_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, decided over the grid -/

abbrev isFirst (i : grid1.Coords) : Prop :=
  (Scalar.cmpi .ne (Scalar.extui (Scalar.cmpi .eq (BitVec.ofNat 32 (i 2).val) 0#32)) 0#32) = 1#1
theorem isFirst_iff : ∀ t : Fin cfg1.N, isFirst (grid1.coords t) ↔ t.val % 43 = 0 :=
  (by decide +kernel : ∀ t : Fin grid1.N, isFirst (grid1.coords t) ↔ t.val % 43 = 0)

abbrev isLast (i : grid1.Coords) : Prop := k1_cond2 i = 1#1
theorem isLast_iff : ∀ t : Fin cfg1.N, isLast (grid1.coords t) ↔ t.val % 43 = 42 :=
  (by decide +kernel : ∀ t : Fin grid1.N, isLast (grid1.coords t) ↔ t.val % 43 = 42)

/-! ## Where the windows are idle -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
theorem idle3 : ∀ t : Fin cfg1.N, ¬isLast (grid1.coords t) → cfg1.idle 3 (grid1.coords t) = true := by decide +kernel
theorem noFlush3 : ∀ t : Fin cfg1.N, ¬isLast (grid1.coords t) → (cfg1.win 3).flush t = false := by decide +kernel
theorem live3 : ∀ t : Fin cfg1.N, isLast (grid1.coords t) → cfg1.idle 3 (grid1.coords t) = false := by decide +kernel

/-! ## The memrefs the body is called with -/

abbrev ms0 (t : Fin cfg1.N) : Memref sig .tc .vmem S1024x256 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S256x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x1 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1024x1024 .f32 := win1_3.stage (cfg1.slots t 3)
abbrev hs3 (t : Fin cfg1.N) : (ms3 t).IsWhole := hstage1_3 ((cfg1.slots t 3).cast nbuf1_3)
/-- The accumulator: a whole scoped buffer of the kernel's own. -/
abbrev acc : Memref sig .tc .vmem S1024x1024 .f32 := Memref.whole cc1_scratch0
abbrev VA : View sig .tc .vmem S1024x1024 .f32 := acc.view
abbrev VO : View sig .tc .vmem S1024x1024 .f32 := (Memref.whole cc1_stg3_0 : Memref sig .tc .vmem S1024x1024 .f32).view

/-! ## The class invariant with the accumulator split off -/

abbrev others (c : Dev nD) : sProp 𝕄 :=
  Pipeline.scopedRestBut (Ix := Unit) (Name := ℕ) (U := UR sig nD τ) (Lvl := ℕ) (Val := Elt F) spec1 c [cc1_scratch0]

theorem PhiA_eq (c : Dev nD) :
    (Pipeline.ΦA spec1 c : sProp 𝕄)
      = iprop(iprop((∃ d, owns (c : Thread nD τ) acc fullShare d) ∗ others c) ∗ (∃ r, prngReg c r)) := by
  unfold Pipeline.ΦA
  rw [Pipeline.scopedRest_split_of_list spec1 c [cc1_scratch0] (by decide) (by decide)]
  simp only [acc, owns_whole]; try rfl

end Cert.KernelIdeal.R1

end
-- ==== Proof.KernelIdeal.Run1First.lean ====
/-
  The second kernel's body at a point of the FIRST contraction step (k = 0), on any whole staging memrefs: the three input
  buffers are read and left as found, the output buffer is not touched, the accumulator is stored twice (cleared, then
  increased by this step's partial product).
-/
import proofs.«165453_j40484361732127_1_alg».proof.Proof.KernelIdeal.Runs1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point with k = 0. -/
noncomputable def runFirst (c : Dev nD) (i : grid1.Coords) (a3 : Memref sig .tc .vmem S1024x256 .bf16) (h3 : a3.IsWhole) (a4 : Memref sig .tc .vmem S256x1024 .f32) (h4 : a4.IsWhole) (a5 : Memref sig .tc .vmem S256x1 .f32) (h5 : a5.IsWhole) (a6 : Memref sig .tc .vmem S1024x1024 .f32) (h6 : a6.IsWhole) (a7 : Memref sig .tc .vmem S1024x1024 .f32) (h7 : a7.IsWhole) (hf : isFirst i) (hl : ¬isLast i)
    (x0 : Vec F S1024x256 .bf16) (x1 : Vec F S256x1024 .f32) (x2 : Vec F S256x1 .f32) :
    { LA : List (View.Piece (Elt F) S1024x1024 .f32) //
      ∀ (xo : Vec F S1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ (∃ d, owns (c : Thread nD τ) a7 fullShare d)
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f LA)) -∗ K ⟨⟩))
          ⊢ wp frame (wpE (defs₀ (F := F)) Variants.none c none) E (cc1__down_kernel i a3 h3 a4 h4 a5 h5 a6 h6 a7 h7) K } := by
  refine ⟨?_, fun xo E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%da, %fa, -, HA⟩, Hk⟩
    obtain rfl := h3.eq_unread hf0; obtain rfl := h4.eq_unread hf1; obtain rfl := h5.eq_unread hf2; obtain rfl := h6.eq_unread hf3
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.KernelIdeal.R1

end
-- ==== Proof.KernelIdeal.Run1Mid.lean ====
/-
  The second kernel's body at a point of a MIDDLE contraction step (0 < k < 42): the accumulator is found at what the step
  before left (`sa`) and stored once, increased by this step's partial product; the output buffer is not touched.
-/
import proofs.«165453_j40484361732127_1_alg».proof.Proof.KernelIdeal.Runs1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point with 0 < k < 42. -/
noncomputable def runMid (c : Dev nD) (i : grid1.Coords) (a3 : Memref sig .tc .vmem S1024x256 .bf16) (h3 : a3.IsWhole) (a4 : Memref sig .tc .vmem S256x1024 .f32) (h4 : a4.IsWhole) (a5 : Memref sig .tc .vmem S256x1 .f32) (h5 : a5.IsWhole) (a6 : Memref sig .tc .vmem S1024x1024 .f32) (h6 : a6.IsWhole) (a7 : Memref sig .tc .vmem S1024x1024 .f32) (h7 : a7.IsWhole) (hf : ¬isFirst i) (hl : ¬isLast i)
    (x0 : Vec F S1024x256 .bf16) (x1 : Vec F S256x1024 .f32) (x2 : Vec F S256x1 .f32) (sa : Vec F S1024x1024 .f32) :
    { LA : List (View.Piece (Elt F) S1024x1024 .f32) //
      ∀ (xo : Vec F S1024x1024 .f32) (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare xo ∗ owns (c : Thread nD τ) a7 fullShare sa
            ∗ (iprop(owns (c : Thread nD τ) a3 fullShare x0 ∗ owns (c : Thread nD τ) a4 fullShare x1 ∗ owns (c : Thread nD τ) a5 fullShare x2 ∗ owns (c : Thread nD τ) a6 fullShare xo ∗ (∃ f, a7.view.loc (c : Thread nD τ) ↦[a7.view.set]{fullShare} a7.view.writes (Elt F) f LA)) -∗ K ⟨⟩))
          ⊢ wp frame (wpE (defs₀ (F := F)) Variants.none c none) E (cc1__down_kernel i a3 h3 a4 h4 a5 h5 a6 h6 a7 h7) K } := by
  refine ⟨?_, fun xo E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%f3, %hf3, H3⟩, ⟨%fa, %hfa, HA⟩, Hk⟩
    obtain rfl := h3.eq_unread hf0; obtain rfl := h4.eq_unread hf1; obtain rfl := h5.eq_unread hf2; obtain rfl := h6.eq_unread hf3
    obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact HA

end Cert.KernelIdeal.R1

end
-- ==== Proof.KernelIdeal.Run1Last.lean ====
/-
  The second kernel's body at a point of the LAST contraction step (k = 42): the accumulator is found at what the step
  before left, stored once, and then copied whole into the output buffer, which is found at anything.
-/
import proofs.«165453_j40484361732127_1_alg».proof.Proof.KernelIdeal.Runs1

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a point with k = 42. -/
noncomputable def runLast (c : Dev nD) (i : grid1.Coords) (a3 : Memref sig .tc .vmem S1024x256 .bf16) (h3 : a3.IsWhole) (a4 : Memref sig .tc .vmem S256x1024 .f32) (h4 : a4.IsWhole) (a5 : Memref sig .tc .vmem S256x1 .f32) (h5 : a5.IsWhole) (a6 : Memref sig .tc .vmem S1024x1024 .f32) (h6 : a6.IsWhole) (a7 : Memref sig .tc .vmem S1024x1024 .f32) (h7 : a7.IsWhole) (hf : ¬isFirst i) (hl : isLast i)
    (x0 : Vec F S1024x256 .bf16) (x1 : Vec F S256x1024 .f32) (x2 : Vec F S256x1 .f32) (sa : Vec F S1024x1024 .f32) :
    Σ' (LO : List (View.Piece (Elt F) S1024x1024 .f32)), { LA : List (View.Piece (Elt F) S1024x1024 .f32) //
      ∀ (E : Set ℕ) (K : PUnit → sProp 𝕄),
        iprop(owns (c : Thread nD τ) a3 fullShare x0 ∗ owns (c : Thread nD τ) a4 fullShare x1 ∗ owns (c : Thread nD τ) a5 fullShare x2 ∗ (∃ d, owns (c : Thread nD τ) a6 fullShare d) ∗ owns (c : Thread nD τ) a7 fullShare sa
            ∗ (iprop(owns (c : Thread nD τ) a3 fullShare x0 ∗ owns (c : Thread nD τ) a4 fullShare x1 ∗ owns (c : Thread nD τ) a5 fullShare x2 ∗ (∃ f, a6.view.loc (c : Thread nD τ) ↦[a6.view.set]{fullShare} a6.view.writes (Elt F) f LO) ∗ (∃ f, a7.view.loc (c : Thread nD τ) ↦[a7.view.set]{fullShare} a7.view.writes (Elt F) f LA)) -∗ K ⟨⟩))
          ⊢ wp frame (wpE (defs₀ (F := F)) Variants.none c none) E (cc1__down_kernel i a3 h3 a4 h4 a5 h5 a6 h6 a7 h7) K } := by
  refine ⟨?_, ?_, fun E K => ?run⟩
  case run =>
    simp only [cc1__down_kernel_eq_skeleton]; unfold cc1__down_kernel_skel
    unfold owns
    iintro ⟨⟨%f0, %hf0, H0⟩, ⟨%f1, %hf1, H1⟩, ⟨%f2, %hf2, H2⟩, ⟨%d3, %f3, -, H3⟩, ⟨%fa, %hfa, HA⟩, Hk⟩
    obtain rfl := h3.eq_unread hf0; obtain rfl := h4.eq_unread hf1; obtain rfl := h5.eq_unread hf2
    obtain rfl := h7.eq_unread hfa
    sl_exec (disch := first | exact hf | exact hl)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]; · iexists _; iexact H3
    iexists _; iexact HA

end Cert.KernelIdeal.R1

end
-- ==== Proof.KernelIdeal.Frame1.lean ====
/-
  The second kernel as one pipeline on one core: its proof data and its body obligation.

  After the body at point t (contraction step k = t mod 43) the accumulator holds, at k = 0, the cleared accumulator plus
  the step's partial product, and at k > 0 what the point before left plus the step's partial product: a recursion on the
  point (`outsAt`), which the region's invariant carries from one point to the next (`PhiS`). The output buffer receives a
  copy of the accumulator at k = 42 only, where the pipeline writes it back; elsewhere it is idle.
-/
import proofs.«165453_j40484361732127_1_alg».proof.Proof.KernelIdeal.Run1First
import proofs.«165453_j40484361732127_1_alg».proof.Proof.KernelIdeal.Run1Mid
import proofs.«165453_j40484361732127_1_alg».proof.Proof.KernelIdeal.Run1Last

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the unscoped buffers' contents when the call is entered, per core
variable (V : (c : Dev nD) → (b : Ref sig .tc) → Buf (Elt F) ((c : Thread nD τ).loc b))

/-! ## The windows' blocks -/

def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What each case leaves -/

/-- What the output buffer and the accumulator hold after a point. -/
abbrev St (F : FTy → Type) [FloatOps F] : Type := Vec F S1024x1024 .f32 × Vec F S1024x1024 .f32

def idleOut : Vec F S1024x1024 .f32 := VO.read (Elt F) (VO.writes (Elt F) VO.junk [])

abbrev rF (c : Dev nD) (t : Fin cfg1.N) (hf : isFirst (grid1.coords t)) (hl : ¬isLast (grid1.coords t)) :=
  runFirst (F := F) c (grid1.coords t) (ms0 t) (hs0 t) (ms1 t) (hs1 t) (ms2 t) (hs2 t) (ms3 t) (hs3 t) acc (Memref.isWhole_whole _) hf hl (iblk V c 0 t) (iblk V c 1 t) (iblk V c 2 t)
abbrev rM (c : Dev nD) (t : Fin cfg1.N) (hf : ¬isFirst (grid1.coords t)) (hl : ¬isLast (grid1.coords t)) (sa : Vec F S1024x1024 .f32) :=
  runMid (F := F) c (grid1.coords t) (ms0 t) (hs0 t) (ms1 t) (hs1 t) (ms2 t) (hs2 t) (ms3 t) (hs3 t) acc (Memref.isWhole_whole _) hf hl (iblk V c 0 t) (iblk V c 1 t) (iblk V c 2 t) sa
abbrev rL (c : Dev nD) (t : Fin cfg1.N) (hf : ¬isFirst (grid1.coords t)) (hl : isLast (grid1.coords t)) (sa : Vec F S1024x1024 .f32) :=
  runLast (F := F) c (grid1.coords t) (ms0 t) (hs0 t) (ms1 t) (hs1 t) (ms2 t) (hs2 t) (ms3 t) (hs3 t) acc (Memref.isWhole_whole _) hf hl (iblk V c 0 t) (iblk V c 1 t) (iblk V c 2 t) sa

theorem covA_F (c : Dev nD) (t : Fin cfg1.N) (hf) (hl) (y : S1024x1024.Idx) : ∃ pc ∈ (rF V c t hf hl).1, y ∈ pc.1.set :=
  View.cover_of_tiledL (rF V c t hf hl).1 S1024x1024.size (by sl_kernel_rfl) y
theorem covA_M (c : Dev nD) (t : Fin cfg1.N) (hf) (hl) (sa : Vec F S1024x1024 .f32) (y : S1024x1024.Idx) : ∃ pc ∈ (rM V c t hf hl sa).1, y ∈ pc.1.set :=
  View.cover_of_tiledL (rM V c t hf hl sa).1 S1024x1024.size (by sl_kernel_rfl) y
theorem covO_L (c : Dev nD) (t : Fin cfg1.N) (hf) (hl) (sa : Vec F S1024x1024 .f32) (y : S1024x1024.Idx) : ∃ pc ∈ (rL V c t hf hl sa).1, y ∈ pc.1.set :=
  View.cover_of_tiledL (rL V c t hf hl sa).1 S1024x1024.size (by sl_kernel_rfl) y
theorem covA_L (c : Dev nD) (t : Fin cfg1.N) (hf) (hl) (sa : Vec F S1024x1024 .f32) (y : S1024x1024.Idx) : ∃ pc ∈ (rL V c t hf hl sa).2.1, y ∈ pc.1.set :=
  View.cover_of_tiledL (rL V c t hf hl sa).2.1 S1024x1024.size (by sl_kernel_rfl) y

def stepFirst (c : Dev nD) (t : Fin cfg1.N) (hf : isFirst (grid1.coords t)) (hl : ¬isLast (grid1.coords t)) : St F :=
  (idleOut, VA.read (Elt F) (VA.writes (Elt F) VA.junk (rF V c t hf hl).1))
def stepMid (c : Dev nD) (t : Fin cfg1.N) (hf : ¬isFirst (grid1.coords t)) (hl : ¬isLast (grid1.coords t)) (sa : Vec F S1024x1024 .f32) : St F :=
  (idleOut, VA.read (Elt F) (VA.writes (Elt F) VA.junk (rM V c t hf hl sa).1))
def stepLast (c : Dev nD) (t : Fin cfg1.N) (hf : ¬isFirst (grid1.coords t)) (hl : isLast (grid1.coords t)) (sa : Vec F S1024x1024 .f32) : St F :=
  (VO.read (Elt F) (VO.writes (Elt F) VO.junk (rL V c t hf hl sa).1), VA.read (Elt F) (VA.writes (Elt F) VA.junk (rL V c t hf hl sa).2.1))

/-! ## The accumulation, point by point -/

def outsAt (c : Dev nD) : (n : ℕ) → n < cfg1.N → St F
  | 0, hn => stepFirst V c ⟨0, hn⟩ ((isFirst_iff ⟨0, hn⟩).mpr (Nat.zero_mod _))
      (fun h => (fun h => by (try dsimp only at h); omega) ((isLast_iff ⟨0, hn⟩).mp h))
  | n + 1, hn =>
    if h0 : (n + 1) % 43 = 0 then
      stepFirst V c ⟨n + 1, hn⟩ ((isFirst_iff ⟨n + 1, hn⟩).mpr h0)
        (fun h => (fun h => by (try dsimp only at h); omega) ((isLast_iff ⟨n + 1, hn⟩).mp h))
    else if h3 : (n + 1) % 43 = 42 then
      stepLast V c ⟨n + 1, hn⟩ (fun h => h0 ((isFirst_iff ⟨n + 1, hn⟩).mp h)) ((isLast_iff ⟨n + 1, hn⟩).mpr h3)
        (outsAt c n (Nat.lt_of_succ_lt hn)).2
    else
      stepMid V c ⟨n + 1, hn⟩ (fun h => h0 ((isFirst_iff ⟨n + 1, hn⟩).mp h)) (fun h => h3 ((isLast_iff ⟨n + 1, hn⟩).mp h))
        (outsAt c n (Nat.lt_of_succ_lt hn)).2

theorem outsAt_first (c : Dev nD) (t : Fin cfg1.N) (h0 : t.val % 43 = 0) :
    outsAt V c t.val t.isLt = stepFirst V c t ((isFirst_iff t).mpr h0) (fun h => by have := (isLast_iff t).mp h; omega) := by
  obtain ⟨n, hn⟩ := t
  cases n with
  | zero => exact rfl
  | succ n => exact (dif_pos h0).trans rfl

theorem outsAt_mid (c : Dev nD) (t : Fin cfg1.N) (h0 : ¬t.val % 43 = 0) (h3 : ¬t.val % 43 = 42) :
    outsAt V c t.val t.isLt = stepMid V c t (fun h => h0 ((isFirst_iff t).mp h)) (fun h => h3 ((isLast_iff t).mp h))
      (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_neg h3).trans rfl)

theorem outsAt_last (c : Dev nD) (t : Fin cfg1.N) (h0 : ¬t.val % 43 = 0) (h3 : t.val % 43 = 42) :
    outsAt V c t.val t.isLt = stepLast V c t (fun h => h0 ((isFirst_iff t).mp h)) ((isLast_iff t).mpr h3)
      (outsAt V c (t.val - 1) (Nat.lt_of_le_of_lt (Nat.sub_le _ _) t.isLt)).2 := by
  obtain ⟨n, hn⟩ := t
  cases n with
  | zero => exact absurd (Nat.zero_mod _) h0
  | succ n => exact (dif_neg h0).trans ((dif_pos h3).trans rfl)

/-! ## The invariant: the accumulator at what the point before left -/

def PhiS (c : Dev nD) : (n : ℕ) → n ≤ cfg1.N → sProp 𝕄
  | 0, _ => Pipeline.ΦA spec1 c
  | n + 1, hn => iprop(iprop(owns (c : Thread nD τ) acc fullShare (outsAt V c n hn).2 ∗ others c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) acc fullShare (outsAt V c n hn).2 ∗ others c) ∗ (∃ r, prngReg c r)) := rfl
theorem PhiS_pos (c : Dev nD) (n : ℕ) (h : n ≤ cfg1.N) (hz : n ≠ 0) :
    PhiS V c n h = iprop(iprop(owns (c : Thread nD τ) acc fullShare (outsAt V c (n - 1) (by omega)).2 ∗ others c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat1 V c).A w = V c (Pipeline.arrRef spec1 w) := by
  dsimp only [dat1]
theorem PhiS_castSucc (c : Dev nD) (t : Fin cfg1.N) : (dat1 V c).Φ t.castSucc = PhiS V c t.val (Nat.le_of_lt t.isLt) := by
  dsimp only [dat1]; simp only [Fin.coe_castSucc]
theorem after_0 (c : Dev nD) (t : Fin cfg1.N) : (dat1 V c).after 0 t = iblk V c 0 t := by dsimp only [dat1]
theorem after_1 (c : Dev nD) (t : Fin cfg1.N) : (dat1 V c).after 1 t = iblk V c 1 t := by dsimp only [dat1]
theorem after_2 (c : Dev nD) (t : Fin cfg1.N) : (dat1 V c).after 2 t = iblk V c 2 t := by dsimp only [dat1]
theorem after_3 (c : Dev nD) (t : Fin cfg1.N) : (dat1 V c).after 3 t = (outsAt V c t.val t.isLt).1 := by dsimp only [dat1]
theorem before_0 (c : Dev nD) (t : Fin cfg1.N) (d) : (dat1 V c).before 0 t d = iblk V c 0 t :=
  before_0_of V (dat1 V c) (A_eq V c 0) (after_0 V c) t d
theorem before_1 (c : Dev nD) (t : Fin cfg1.N) (d) : (dat1 V c).before 1 t d = iblk V c 1 t :=
  before_1_of V (dat1 V c) (A_eq V c 1) (after_1 V c) t d
theorem before_2 (c : Dev nD) (t : Fin cfg1.N) (d) : (dat1 V c).before 2 t d = iblk V c 2 t :=
  before_2_of V (dat1 V c) (A_eq V c 2) (after_2 V c) t d

/-! ## The body obligation -/

def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d))
    ∗ (∃ d, owns (c : Thread nD τ) (ms3 t) fullShare ((dat1 V c).before 3 t d)))

def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat1 V c).owesAt () t.succ = (dat1 V c).owesAt () t.castSucc from rfl]
  rw [show (dat1 V c).Φ t.succ = PhiS V c (t.val + 1) t.isLt from rfl, PhiS_succ]
  have hN : t.val < 688 := lt_of_lt_of_eq t.isLt (show cfg1.N = 688 from N_1)
  rw [show (dat1 V c).leavesExact 0 t = owns (c : Thread nD τ) (ms0 t) fullShare ((dat1 V c).after 0 t) from by
    unfold Dat.leavesExact; rw [live0 t], after_0]
  rw [show (dat1 V c).leavesExact 1 t = owns (c : Thread nD τ) (ms1 t) fullShare ((dat1 V c).after 1 t) from by
    unfold Dat.leavesExact; rw [live1 t], after_1]
  rw [show (dat1 V c).leavesExact 2 t = owns (c : Thread nD τ) (ms2 t) fullShare ((dat1 V c).after 2 t) from by
    unfold Dat.leavesExact; rw [live2 t], after_2]
  by_cases h0 : t.val % 43 = 0
  · have h3 : ¬t.val % 43 = 42 := by omega
    rw [Dat.leavesExact_idle (dat1 V c) 3 t (idle3 t (fun h => h3 ((isLast_iff t).mp h))) (noFlush3 t (fun h => h3 ((isLast_iff t).mp h)))]
    rw [outsAt_first V c t h0]
    unfold stepFirst; (try dsimp only)
    by_cases hz : t.val = 0
    · rw [PhiS_castSucc V c t, PhiS_zero V c _ _ hz, PhiA_eq]
      iintro ⟨⟨⟨HA, Hoth⟩, Hg⟩, Ho, ⟨%d0, H0⟩, ⟨%d1, H1⟩, ⟨%d2, H2⟩, ⟨%d3, H3⟩⟩
      iapply ((rF V c t ((isFirst_iff t).mpr h0) (fun h => by have := (isLast_iff t).mp h; omega)).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA Hoth Hg]
      · isplitl [HA Hoth]
        · isplitl [HA]
          · unfold owns; iexists _; isplitr
            swap; · iexact HA
            ipureintro; exact View.read_writes_of_cover _ _ _ _ _ (covA_F V c t _ _)
          · iexact Hoth
        · iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HA, Hoth⟩, Hg⟩, Ho, ⟨%d0, H0⟩, ⟨%d1, H1⟩, ⟨%d2, H2⟩, ⟨%d3, H3⟩⟩
      iapply ((rF V c t ((isFirst_iff t).mpr h0) (fun h => by have := (isLast_iff t).mp h; omega)).2 _ Set.univ _)
      isplitl [H0]; · iexact H0
      isplitl [H1]; · iexact H1
      isplitl [H2]; · iexact H2
      isplitl [H3]; · iexact H3
      isplitl [HA]; · iexists _; iexact HA
      iintro ⟨H0, H1, H2, H3, ⟨%ea, HA⟩⟩
      isplitl [HA Hoth Hg]
      · isplitl [HA Hoth]
        · isplitl [HA]
          · unfold owns; iexists _; isplitr
            swap; · iexact HA
            ipureintro; exact View.read_writes_of_cover _ _ _ _ _ (covA_F V c t _ _)
          · iexact Hoth
        · iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h3 : t.val % 43 = 42
    · rw [show (dat1 V c).leavesExact 3 t = owns (c : Thread nD τ) (ms3 t) fullShare ((dat1 V c).after 3 t) from by
        unfold Dat.leavesExact; rw [live3 t ((isLast_iff t).mpr h3)], after_3]
      rw [outsAt_last V c t h0 h3]
      unfold stepLast; (try dsimp only)
      rw [PhiS_castSucc V c t, PhiS_pos V c _ _ hz]
      iintro ⟨⟨⟨HA, Hoth⟩, Hg⟩, Ho, ⟨%d0, H0⟩, ⟨%d1, H1⟩, ⟨%d2, H2⟩, ⟨%d3, H3⟩⟩
      iapply ((rL V c t (fun h => h0 ((isFirst_iff t).mp h)) ((isLast_iff t).mpr h3) _).2.2 Set.univ _)
      isplitl [H0]; · iexact H0
      isplitl [H1]; · iexact H1
      isplitl [H2]; · iexact H2
      isplitl [H3]; · iexists _; iexact H3
      isplitl [HA]; · iexact HA
      iintro ⟨H0, H1, H2, ⟨%eo, H3⟩, ⟨%ea, HA⟩⟩
      isplitl [HA Hoth Hg]
      · isplitl [HA Hoth]
        · isplitl [HA]
          · unfold owns; iexists _; isplitr
            swap; · iexact HA
            ipureintro; exact View.read_writes_of_cover _ _ _ _ _ (covA_L V c t _ _ _)
          · iexact Hoth
        · iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (covO_L V c t _ _ _)
    · rw [Dat.leavesExact_idle (dat1 V c) 3 t (idle3 t (fun h => h3 ((isLast_iff t).mp h))) (noFlush3 t (fun h => h3 ((isLast_iff t).mp h)))]
      rw [outsAt_mid V c t h0 h3]
      unfold stepMid; (try dsimp only)
      rw [PhiS_castSucc V c t, PhiS_pos V c _ _ hz]
      iintro ⟨⟨⟨HA, Hoth⟩, Hg⟩, Ho, ⟨%d0, H0⟩, ⟨%d1, H1⟩, ⟨%d2, H2⟩, ⟨%d3, H3⟩⟩
      iapply ((rM V c t (fun h => h0 ((isFirst_iff t).mp h)) (fun h => h3 ((isLast_iff t).mp h)) _).2 _ Set.univ _)
      isplitl [H0]; · iexact H0
      isplitl [H1]; · iexact H1
      isplitl [H2]; · iexact H2
      isplitl [H3]; · iexact H3
      isplitl [HA]; · iexact HA
      iintro ⟨H0, H1, H2, H3, ⟨%ea, HA⟩⟩
      isplitl [HA Hoth Hg]
      · isplitl [HA Hoth]
        · isplitl [HA]
          · unfold owns; iexists _; isplitr
            swap; · iexact HA
            ipureintro; exact View.read_writes_of_cover _ _ _ _ _ (covA_M V c t _ _ _)
          · iexact Hoth
        · iexact Hg
      isplitl [Ho]; · iexact Ho
      isplitl [H0]; · iexact H0
      isplitl [H1]; · iexact H1
      isplitl [H2]; · iexact H2
      iexists _; iexact H3

theorem body_obligation (c : Dev nD) : BodyObligation (dat1 (F := F) V c) (defs₀ (F := F)) Variants.none () Set.univ := fun t => by
  rw [bigSep_W1, bigSep_W1]
  exact sound_body V c t

/-! ## The invariant's two ends -/

theorem hin (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives the class's back: the accumulator's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA_eq]
  iintro ⟨⟨HA, Hoth⟩, Hg⟩
  isplitl [HA Hoth]
  · isplitl [HA]
    · iexists _; iexact HA
    · iexact Hoth
  · iexact Hg

theorem hout (c : Dev nD) : (dat1 V c).Φ (Fin.last cfg1.N) ⊢ Pipeline.ΦA spec1 c :=
  Phi_out V c _ (by rw [Fin.val_last]; have : cfg1.N = 688 := N_1; omega)

end Cert.KernelIdeal.R1

end
-- ==== Proof.KernelIdeal.Assemble.lean ====
/-
  The whole program on one core: the host lines, then the two kernels, one after the other.

  The unscoped buffers' contents are followed from the launch to the return as a fold: the three host lines write the
  scales as [n, 1] columns (`W1`); the first kernel leaves its output array at what its write-backs make of it and every
  other buffer as found (`W2`); the second kernel likewise (`W3`). Each kernel's proof data is taken at the contents it
  is entered with, so the second kernel reads the hidden activations the first one left. The run ends with every
  unscoped buffer at `W3`: the seven arguments, which nothing writes, at their launch contents, and the result array at
  what the second kernel's write-backs leave.
-/
import proofs.«165453_j40484361732127_1_alg».proof.Proof.KernelIdeal.Frame0
import proofs.«165453_j40484361732127_1_alg».proof.Proof.KernelIdeal.Frame1
import proofs.«165453_j40484361732127_1_alg».proof.Proof.Gen.KernelIdeal.Regions
import Idealize.ShloMosaic.Lib.Pipeline.RegionsLoop

set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the host lines (the first kernel's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c (Proc.devRef .tc b)
/-- After the first kernel: its arrays at what the pipeline leaves, every other buffer as entered. -/
def W2 (c : Dev nD) : Valuation τ sig (Elt F) :=
  Pipeline.withArrays spec0 c (W1 m c) fun w => (R0.dat0 (V1 m) c).arrAt w cfg0.N
theorem W2_arr (c : Dev nD) (w : Fin cfg0.W) :
    W2 m c (Proc.devRef .tc (Pipeline.arrRef spec0 w)) = (R0.dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c (Proc.devRef .tc b)
theorem hF0 (c : Dev nD) (w : Fin cfg0.W) : (R0.dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second kernel (the return). -/
def W3 (c : Dev nD) : Valuation τ sig (Elt F) :=
  Pipeline.withArrays spec1 c (W2 m c) fun w => (R1.dat1 (V2 m) c).arrAt w cfg1.N
theorem W3_arr (c : Dev nD) (w : Fin cfg1.W) :
    W3 m c (Proc.devRef .tc (Pipeline.arrRef spec1 w)) = (R1.dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c (Proc.devRef .tc b)
theorem hF1 (c : Dev nD) (w : Fin cfg1.W) : (R1.dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)

/-! ## The proof data family and the thread state -/

abbrev adm : (p : Fin 2) → (pcfgs (F := F) p).Adm := fun p => (cfgs p).toPCfg_adm
/-- Both pipelines' proof data, each at its call's entry contents. -/
def pdats : (p : Fin 2) → (c : Dev nD) → Dat τ (Elt F) Unit ℕ (UR sig nD τ) ℕ (Pipeline.pin (pcfgs (F := F)) adm p) c
  | ⟨0, _⟩ => fun c => R0.dat0 (V1 m) c
  | ⟨1, _⟩ => fun c => R1.dat1 (V2 m) c
abbrev 𝒱₀ : Variants := Variants.none
abbrev L : GSem nD τ sig → Finset Unit := fun _ => ∅
abbrev lv : GSem nD τ sig → Unit → ℕ := fun _ _ => 0
/-- What rides beside the buffers: the generator register at some state, and the core owing nothing. -/
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (W3 m c) ∗ ∃ r, prngReg c r)

/-! ## The two kernels as segments -/

/-- The class's invariant gives back the generator register and the scoped buffers no window stages (and no semaphore:
    the kernels have none of their own). -/
theorem giveBack0 (c : Dev nD) : (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr
theorem giveBack1 (c : Dev nD) : (Pipeline.ΦA spec1 c : sProp 𝕄) ⊢ iprop((∃ r, prngReg c r) ∗ BI.emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- Call 0 over the thread state: entered with every unscoped buffer at `W1`, left with them at `W2`. Its windows'
    arrays are split out of the unscoped buffers on entry and put back at their final contents on exit; the generator
    register goes into the call's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (V1 m) c).loose
  hwaits := Pipeline.hwaits_of_owed_zero _ _ _ _ L lv 0 fun _ _ => rfl
  pre c := iprop(StableHlo.held (c : Thread nD τ) (Pipeline.ucRefs τ sig) (W1 m c) ∗ Rest c)
  post c := iprop(StableHlo.held (c : Thread nD τ) (Pipeline.ucRefs τ sig) (W2 m c) ∗ Rest c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact (R0.hout (V1 m) c).trans (giveBack0 c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 over the thread state: entered with every unscoped buffer at `W2`, left with them at `W3`. Its windows'
    arrays are split out of the unscoped buffers on entry and put back at their final contents on exit; the generator
    register goes into the call's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (V2 m) c).loose
  hwaits := Pipeline.hwaits_of_owed_zero _ _ _ _ L lv 1 fun _ _ => rfl
  pre c := iprop(StableHlo.held (c : Thread nD τ) (Pipeline.ucRefs τ sig) (W2 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (R1.hout (V2 m) c).trans (giveBack1 c)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, with
    every unscoped buffer of every core at `W3`. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Tend m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h c => h c)

end Cert.KernelIdeal.Asm

end
-- ==== Proof.KernelIdeal.Args.lean ====
/-
  The arguments, and the kernels' input arrays, read through the fold of buffer contents.

  No host line and no kernel writes an argument: a kernel reads it through an input window, whose array the pipeline
  leaves as found, or does not touch it at all. So each argument's buffer at the return is its buffer at launch. The
  three host lines write only the scale columns, each the broadcast of its scale array.
-/
import proofs.«165453_j40484361732127_1_alg».proof.Proof.KernelIdeal.Assemble

set_option maxRecDepth 16384

noncomputable section

namespace Cert.KernelIdeal.Asm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- A buffer the host lines do not write holds, after them, its launch contents. -/
theorem W1_of (c : Dev nD) (r : Ref sig .tc) (h : r ∉ (hostOps0_W : List (Ref sig .tc))) :
    W1 m c (Proc.devRef .tc r) = m ((c : Thread nD τ).loc r) :=
  (Gen.V1_of m c r h).trans rfl

/-! ## Each argument at the return -/

theorem W3_arg0 (c : Dev nD) : W3 m c (Proc.devRef .tc main_arg0) = m ((c : Thread nD τ).loc main_arg0) :=
  (W3_of_ne m c main_arg0 (by decide)).trans <|
    ((W2_arr m c 0).trans (((R0.dat0 (V1 m) c).arrAt_in 0 rfl _).trans (R0.A_eq (V1 m) c 0))).trans <| W1_of m c main_arg0 (by decide)
theorem W3_arg1 (c : Dev nD) : W3 m c (Proc.devRef .tc main_arg1) = m ((c : Thread nD τ).loc main_arg1) :=
  (W3_of_ne m c main_arg1 (by decide)).trans <|
    ((W2_arr m c 1).trans (((R0.dat0 (V1 m) c).arrAt_in 1 rfl _).trans (R0.A_eq (V1 m) c 1))).trans <| W1_of m c main_arg1 (by decide)
theorem W3_arg2 (c : Dev nD) : W3 m c (Proc.devRef .tc main_arg2) = m ((c : Thread nD τ).loc main_arg2) :=
  (W3_of_ne m c main_arg2 (by decide)).trans <| (W2_of_ne m c main_arg2 (by decide)).trans <| W1_of m c main_arg2 (by decide)
theorem W3_arg3 (c : Dev nD) : W3 m c (Proc.devRef .tc main_arg3) = m ((c : Thread nD τ).loc main_arg3) :=
  (W3_of_ne m c main_arg3 (by decide)).trans <|
    ((W2_arr m c 3).trans (((R0.dat0 (V1 m) c).arrAt_in 3 rfl _).trans (R0.A_eq (V1 m) c 3))).trans <| W1_of m c main_arg3 (by decide)
theorem W3_arg4 (c : Dev nD) : W3 m c (Proc.devRef .tc main_arg4) = m ((c : Thread nD τ).loc main_arg4) :=
  (W3_of_ne m c main_arg4 (by decide)).trans <| (W2_of_ne m c main_arg4 (by decide)).trans <| W1_of m c main_arg4 (by decide)
theorem W3_arg5 (c : Dev nD) : W3 m c (Proc.devRef .tc main_arg5) = m ((c : Thread nD τ).loc main_arg5) :=
  ((W3_arr m c 1).trans (((R1.dat1 (V2 m) c).arrAt_in 1 rfl _).trans (R1.A_eq (V2 m) c 1))).trans <|
    (W2_of_ne m c main_arg5 (by decide)).trans <| W1_of m c main_arg5 (by decide)
theorem W3_arg6 (c : Dev nD) : W3 m c (Proc.devRef .tc main_arg6) = m ((c : Thread nD τ).loc main_arg6) :=
  (W3_of_ne m c main_arg6 (by decide)).trans <| (W2_of_ne m c main_arg6 (by decide)).trans <| W1_of m c main_arg6 (by decide)

/-! ## What the kernels' arrays hold -/

/-- The first kernel's three argument arrays are found at their launch contents. -/
theorem V1_arg0 (c : Dev nD) : V1 m c main_arg0 = m ((c : Thread nD τ).loc main_arg0) := W1_of m c main_arg0 (by decide)
theorem V1_arg1 (c : Dev nD) : V1 m c main_arg1 = m ((c : Thread nD τ).loc main_arg1) := W1_of m c main_arg1 (by decide)
theorem V1_arg3 (c : Dev nD) : V1 m c main_arg3 = m ((c : Thread nD τ).loc main_arg3) := W1_of m c main_arg3 (by decide)
/-- Its two scale columns are the broadcasts of the scale arrays. -/
theorem V1_v0 (c : Dev nD) : V1 m c main_v0 = broadcastInDim S4096x1 ![0] bcast_S4096_S4096x1_0 (m ((c : Thread nD τ).loc main_arg2)) := by
  show StableHlo.after hostOps0 (fun b => m (c, b)) (Proc.devRef .tc main_v0) = _
  after_results
theorem V1_v1 (c : Dev nD) : V1 m c main_v1 = broadcastInDim S4096x1 ![0] bcast_S4096_S4096x1_0 (m ((c : Thread nD τ).loc main_arg4)) := by
  show StableHlo.after hostOps0 (fun b => m (c, b)) (Proc.devRef .tc main_v1) = _
  after_results
/-- The second kernel finds the hidden activations the first one left, the down weights at their launch contents, and
    the third scale column as the host lines wrote it. -/
theorem V2_v3 (c : Dev nD) : V2 m c main_v3 = (R0.dat0 (V1 m) c).arrAt 5 cfg0.N := W2_arr m c 5
theorem V2_arg5 (c : Dev nD) : V2 m c main_arg5 = m ((c : Thread nD τ).loc main_arg5) :=
  (W2_of_ne m c main_arg5 (by decide)).trans <| W1_of m c main_arg5 (by decide)
theorem V2_v2 (c : Dev nD) : V2 m c main_v2 = broadcastInDim S11008x1 ![0] bcast_S11008_S11008x1_0 (m ((c : Thread nD τ).loc main_arg6)) := by
  refine (W2_of_ne m c main_v2 (by decide)).trans ?_
  show StableHlo.after hostOps0 (fun b => m (c, b)) (Proc.devRef .tc main_v2) = _
  after_results
/-- The result array at the return is what the second kernel's write-backs leave. -/
theorem W3_v4 (c : Dev nD) : W3 m c (Proc.devRef .tc main_v4) = (R1.dat1 (V2 m) c).arrAt 3 cfg1.N := W3_arr m c 3

end Cert.KernelIdeal.Asm

end
-- ==== Proof.KernelIdeal.Pieces0.lean ====
/-
  What each case of the first kernel leaves, as the body's arithmetic applied to the point's blocks.

  Every store of the body is of a whole buffer, so a buffer ends at the payload of its LAST store, and a whole-buffer load
  of a staged block is the block. Hence each accumulator ends at its step's partial product added to the cleared
  accumulator (first step) or to what the step before left (later steps), and at the last step the output buffer receives
  the gated product of the two accumulators as just updated.
-/
import proofs.«165453_j40484361732127_1_alg».proof.Proof.KernelIdeal.Frame0
import Idealize.ShloMosaic.Lib.Pipeline.Value

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The all-zero offset of a whole-buffer rectangle. -/
theorem hz2 : (![0, 0] : Fin 2 → ℕ) = fun _ => 0 := by funext a; fin_cases a <;> rfl

theorem first_gate (c : Dev nD) (t : Fin cfg0.N) (hf) (hl) :
    (stepFirst V c t hf hl).2.1 = k0_pay5 (iblk V c 0 t) (iblk V c 1 t) (iblk V c 2 t) (k0_pay2 (F := F)) := by
  unfold stepFirst
  dsimp only
  rw [View.read_writes_eq_canon _ _ _ (covG_F V c t hf hl)]
  unfold rF runFirst
  dsimp only
  (try sl_unfold_run_names)
  rw [View.canon_cons_unit_zero hz2]
  simp only [View.readAt_eq_ld, Memref.IsWhole.read_unread, View.ld_unit_zero (S := S1024x256) hz2, View.ld_unit_zero (S := S1024x1024) hz2,
    View.ld_unit_zero (S := S1024x1) hz2, View.readCov_unit_zero (S := S1024x256) _ hz2]

theorem first_up (c : Dev nD) (t : Fin cfg0.N) (hf) (hl) :
    (stepFirst V c t hf hl).2.2 = k0_pay6 (iblk V c 0 t) (iblk V c 3 t) (iblk V c 4 t) (k0_pay3 (F := F)) := by
  unfold stepFirst
  dsimp only
  rw [View.read_writes_eq_canon _ _ _ (covU_F V c t hf hl)]
  unfold rF runFirst
  dsimp only
  (try sl_unfold_run_names)
  rw [View.canon_cons_unit_zero hz2]
  simp only [View.readAt_eq_ld, Memref.IsWhole.read_unread, View.ld_unit_zero (S := S1024x256) hz2, View.ld_unit_zero (S := S1024x1024) hz2,
    View.ld_unit_zero (S := S1024x1) hz2, View.readCov_unit_zero (S := S1024x256) _ hz2]

theorem mid_gate (c : Dev nD) (t : Fin cfg0.N) (hf) (hl) (sg su : Vec F S1024x256 .f32) :
    (stepMid V c t hf hl sg su).2.1 = k0_pay5 (iblk V c 0 t) (iblk V c 1 t) (iblk V c 2 t) sg := by
  have eG : View.read (Elt F) (View.whole cc0_scratch0) (Memref.IsWhole.unread (Memref.isWhole_whole cc0_scratch0) sg) = sg :=
    Memref.IsWhole.read_unread (m := accG) (Memref.isWhole_whole _) sg
  have eU : View.read (Elt F) (View.whole cc0_scratch1) (Memref.IsWhole.unread (Memref.isWhole_whole cc0_scratch1) su) = su :=
    Memref.IsWhole.read_unread (m := accU) (Memref.isWhole_whole _) su
  unfold stepMid
  dsimp only
  rw [View.read_writes_eq_canon _ _ _ (covG_M V c t hf hl sg su)]
  unfold rM runMid
  dsimp only
  (try sl_unfold_run_names)
  rw [View.canon_cons_unit_zero hz2]
  simp only [View.readAt_eq_ld, Memref.IsWhole.read_unread, View.ld_unit_zero (S := S1024x256) hz2, View.ld_unit_zero (S := S1024x1024) hz2,
    View.ld_unit_zero (S := S1024x1) hz2, View.readCov_unit_zero (S := S1024x256) _ hz2]
  (try simp only [eG, eU])

theorem mid_up (c : Dev nD) (t : Fin cfg0.N) (hf) (hl) (sg su : Vec F S1024x256 .f32) :
    (stepMid V c t hf hl sg su).2.2 = k0_pay6 (iblk V c 0 t) (iblk V c 3 t) (iblk V c 4 t) su := by
  have eG : View.read (Elt F) (View.whole cc0_scratch0) (Memref.IsWhole.unread (Memref.isWhole_whole cc0_scratch0) sg) = sg :=
    Memref.IsWhole.read_unread (m := accG) (Memref.isWhole_whole _) sg
  have eU : View.read (Elt F) (View.whole cc0_scratch1) (Memref.IsWhole.unread (Memref.isWhole_whole cc0_scratch1) su) = su :=
    Memref.IsWhole.read_unread (m := accU) (Memref.isWhole_whole _) su
  unfold stepMid
  dsimp only
  rw [View.read_writes_eq_canon _ _ _ (covU_M V c t hf hl sg su)]
  unfold rM runMid
  dsimp only
  (try sl_unfold_run_names)
  rw [View.canon_cons_unit_zero hz2]
  simp only [View.readAt_eq_ld, Memref.IsWhole.read_unread, View.ld_unit_zero (S := S1024x256) hz2, View.ld_unit_zero (S := S1024x1024) hz2,
    View.ld_unit_zero (S := S1024x1) hz2, View.readCov_unit_zero (S := S1024x256) _ hz2]
  (try simp only [eG, eU])

theorem last_gate (c : Dev nD) (t : Fin cfg0.N) (hf) (hl) (sg su : Vec F S1024x256 .f32) :
    (stepLast V c t hf hl sg su).2.1 = k0_pay5 (iblk V c 0 t) (iblk V c 1 t) (iblk V c 2 t) sg := by
  have eG : View.read (Elt F) (View.whole cc0_scratch0) (Memref.IsWhole.unread (Memref.isWhole_whole cc0_scratch0) sg) = sg :=
    Memref.IsWhole.read_unread (m := accG) (Memref.isWhole_whole _) sg
  have eU : View.read (Elt F) (View.whole cc0_scratch1) (Memref.IsWhole.unread (Memref.isWhole_whole cc0_scratch1) su) = su :=
    Memref.IsWhole.read_unread (m := accU) (Memref.isWhole_whole _) su
  unfold stepLast
  dsimp only
  rw [View.read_writes_eq_canon _ _ _ (covG_L V c t hf hl sg su)]
  unfold rL runLast
  dsimp only
  (try sl_unfold_run_names)
  rw [View.canon_cons_unit_zero hz2]
  simp only [View.readAt_eq_ld, Memref.IsWhole.read_unread, View.ld_unit_zero (S := S1024x256) hz2, View.ld_unit_zero (S := S1024x1024) hz2,
    View.ld_unit_zero (S := S1024x1) hz2, View.readCov_unit_zero (S := S1024x256) _ hz2]
  (try simp only [eG, eU])

theorem last_up (c : Dev nD) (t : Fin cfg0.N) (hf) (hl) (sg su : Vec F S1024x256 .f32) :
    (stepLast V c t hf hl sg su).2.2 = k0_pay6 (iblk V c 0 t) (iblk V c 3 t) (iblk V c 4 t) su := by
  have eG : View.read (Elt F) (View.whole cc0_scratch0) (Memref.IsWhole.unread (Memref.isWhole_whole cc0_scratch0) sg) = sg :=
    Memref.IsWhole.read_unread (m := accG) (Memref.isWhole_whole _) sg
  have eU : View.read (Elt F) (View.whole cc0_scratch1) (Memref.IsWhole.unread (Memref.isWhole_whole cc0_scratch1) su) = su :=
    Memref.IsWhole.read_unread (m := accU) (Memref.isWhole_whole _) su
  unfold stepLast
  dsimp only
  rw [View.read_writes_eq_canon _ _ _ (covU_L V c t hf hl sg su)]
  unfold rL runLast
  dsimp only
  (try sl_unfold_run_names)
  rw [View.canon_cons_unit_zero hz2]
  simp only [View.readAt_eq_ld, Memref.IsWhole.read_unread, View.ld_unit_zero (S := S1024x256) hz2, View.ld_unit_zero (S := S1024x1024) hz2,
    View.ld_unit_zero (S := S1024x1) hz2, View.readCov_unit_zero (S := S1024x256) _ hz2]
  (try simp only [eG, eU])

/-- At the last step the output buffer receives the gated product of the two finished accumulators. -/
theorem last_out (c : Dev nD) (t : Fin cfg0.N) (hf) (hl) (sg su : Vec F S1024x256 .f32) :
    (stepLast V c t hf hl sg su).1 = k0_pay1 (k0_pay5 (iblk V c 0 t) (iblk V c 1 t) (iblk V c 2 t) sg) (k0_pay6 (iblk V c 0 t) (iblk V c 3 t) (iblk V c 4 t) su) := by
  have eG : View.read (Elt F) (View.whole cc0_scratch0) (Memref.IsWhole.unread (Memref.isWhole_whole cc0_scratch0) sg) = sg :=
    Memref.IsWhole.read_unread (m := accG) (Memref.isWhole_whole _) sg
  have eU : View.read (Elt F) (View.whole cc0_scratch1) (Memref.IsWhole.unread (Memref.isWhole_whole cc0_scratch1) su) = su :=
    Memref.IsWhole.read_unread (m := accU) (Memref.isWhole_whole _) su
  unfold stepLast
  dsimp only
  rw [View.read_writes_eq_canon _ _ _ (covO_L V c t hf hl sg su)]
  unfold rL runLast
  dsimp only
  (try sl_unfold_run_names)
  rw [View.canon_cons_unit_zero hz2]
  simp only [View.readAt_eq_ld, Memref.IsWhole.read_unread, View.ld_unit_zero (S := S1024x256) hz2, View.ld_unit_zero (S := S1024x1024) hz2,
    View.ld_unit_zero (S := S1024x1) hz2, View.readCov_unit_zero (S := S1024x256) _ hz2]
  (try simp only [eG, eU])

end Cert.KernelIdeal.R0

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.Payloads.lean ====
/-
  The arithmetic of the kernel's bodies, read entry by entry over the extended reals.

  Both kernels keep a running sum in a scratch block. At each contraction step the first kernel adds, to the gate and to the
  up accumulator, the product of a 1024 × 1024 block of x with a 1024 × 256 block of row-scaled weights; at its last step it
  writes silu(gate) · up. The second kernel adds the product of a 1024 × 256 block of the hidden activation with a
  256 × 1024 block of row-scaled down weights. Read at entry (p, q) of a block:
    * the three initial values are 0;
    * an accumulation step gives  a[p, q] + Σ_kk x[p, kk] · (w[kk, q] · s[kk, 0]);
    * the final value of the first kernel is  (g · logistic g) · u  at (p, q).
  Over the extended reals a change of float format and a cast to the same shape are the identity, the scale column
  [K, 1] broadcast to [K, N] reads the column at the row, and a product into the zero block is the plain sum over the
  contracted axis.
-/
import proofs.«165453_j40484361732127_1_alg».proof.Proof.Gen.KernelIdeal.Skeleton
import proofs.«165453_j40484361732127_1_alg».proof.Proof.LibDotRows
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.Lib.DotRows Idealize.ShloMosaic Idealize.ShloMosaic.ValueIdx

/-- A column [a, 1] broadcast along the rows to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row-scaled weights at (k, q): a [K, N] block times its [K, 1] scale column, after a change of format. -/
theorem scaled_at {K N : ℕ} (w : FVec Ideal ⟨2, ![K, N]⟩ .f32) (s : FVec Ideal ⟨2, ![K, 1]⟩ .f32)
    (hc : (⟨2, ![K, 1]⟩ : Shape).ShapeCasts ⟨2, ![K, 1]⟩) (hb : (⟨2, ![K, 1]⟩ : Shape).Broadcasts ⟨2, ![K, N]⟩)
    (hlt : FTy.bits .bf16 < FTy.bits .f32) (k : Fin K) (q : Fin N) :
    (truncf .bf16 (mulf w (broadcastTo ⟨2, ![K, N]⟩ (shapeCast ⟨2, ![K, 1]⟩ s hc) hb)) hlt : FVec Ideal ⟨2, ![K, N]⟩ .bf16) (ix2 k q)
      = w (ix2 k q) * s (ix2 k (0 : Fin 1)) :=
  congrArg (fun z => w (ix2 k q) * z)
    ((broadcastTo_a1_ab_apply (shapeCast ⟨2, ![K, 1]⟩ s hc) hb k q).trans (congrFun (shapeCast_self s hc) (ix2 k (0 : Fin 1))))

/-! ## The initial values -/

theorem pay2_at (p : Fin 1024) (q : Fin 256) : Gen.k0_pay2 (F := Ideal) (ix2 p q) = 0 := by
  unfold Gen.k0_pay2
  refine (congrFun (shapeCast_self _ _) (ix2 p q)).trans ?_
  exact Ideal.ofBits_zero_f32

theorem pay3_at (p : Fin 1024) (q : Fin 256) : Gen.k0_pay3 (F := Ideal) (ix2 p q) = 0 := by
  unfold Gen.k0_pay3
  refine (congrFun (shapeCast_self _ _) (ix2 p q)).trans ?_
  exact Ideal.ofBits_zero_f32

theorem k1_pay1_at (p : Fin 1024) (n : Fin 1024) : Gen.k1_pay1 (F := Ideal) (ix2 p n) = 0 := by
  unfold Gen.k1_pay1
  refine (congrFun (shapeCast_self _ _) (ix2 p n)).trans ?_
  exact Ideal.ofBits_zero_f32

/-! ## One accumulation step of the first kernel -/

theorem pay5_at (x : Vec Ideal S1024x1024 .f32) (w : Vec Ideal S1024x256 .f32) (s : Vec Ideal S1024x1 .f32)
    (a : Vec Ideal S1024x256 .f32) (p : Fin 1024) (q : Fin 256) :
    Gen.k0_pay5 (F := Ideal) x w s a (ix2 p q)
      = a (ix2 p q) + ∑ kk : Fin 1024, x (ix2 p kk) * (w (ix2 kk q) * s (ix2 kk (0 : Fin 1))) := by
  unfold Gen.k0_pay5 Gen.k0_pay4
  refine (congrFun (shapeCast_self _ _) (ix2 p q)).trans ?_
  refine (addf_apply _ _ _).trans ?_
  refine congrArg (fun z => a (ix2 p q) + z) ?_
  refine (matmul_plain_apply (M := 1024) (K := 1024) (N := 256) _ _ p q).trans ?_
  exact Finset.sum_congr rfl fun kk _ =>
    congrArg (fun z => x (ix2 p kk) * z) (scaled_at w s _ _ _ kk q)

theorem pay6_at (x : Vec Ideal S1024x1024 .f32) (w : Vec Ideal S1024x256 .f32) (s : Vec Ideal S1024x1 .f32)
    (a : Vec Ideal S1024x256 .f32) (p : Fin 1024) (q : Fin 256) :
    Gen.k0_pay6 (F := Ideal) x w s a (ix2 p q)
      = a (ix2 p q) + ∑ kk : Fin 1024, x (ix2 p kk) * (w (ix2 kk q) * s (ix2 kk (0 : Fin 1))) := by
  unfold Gen.k0_pay6 Gen.k0_pay4
  refine (congrFun (shapeCast_self _ _) (ix2 p q)).trans ?_
  refine (addf_apply _ _ _).trans ?_
  refine congrArg (fun z => a (ix2 p q) + z) ?_
  refine (matmul_plain_apply (M := 1024) (K := 1024) (N := 256) _ _ p q).trans ?_
  exact Finset.sum_congr rfl fun kk _ =>
    congrArg (fun z => x (ix2 p kk) * z) (scaled_at w s _ _ _ kk q)

/-! ## The first kernel's final value: silu of the gate sum, times the up sum -/

theorem pay1_at (g u : Vec Ideal S1024x256 .f32) (p : Fin 1024) (q : Fin 256) :
    Gen.k0_pay1 (F := Ideal) g u (ix2 p q) = (g (ix2 p q) * Ideal.logistic (g (ix2 p q))) * u (ix2 p q) := rfl

/-! ## One accumulation step of the second kernel -/

theorem down_at (h : Vec Ideal S1024x256 .bf16) (w : Vec Ideal S256x1024 .f32) (s : Vec Ideal S256x1 .f32)
    (a : Vec Ideal S1024x1024 .f32) (p : Fin 1024) (n : Fin 1024) :
    Gen.k1_pay2 (F := Ideal) h w s a (ix2 p n)
      = a (ix2 p n) + ∑ kk : Fin 256, h (ix2 p kk) * (w (ix2 kk n) * s (ix2 kk (0 : Fin 1))) := by
  unfold Gen.k1_pay2
  refine (congrFun (shapeCast_self _ _) (ix2 p n)).trans ?_
  refine (addf_apply _ _ _).trans ?_
  refine congrArg (fun z => a (ix2 p n) + z) ?_
  refine (matmul_plain_apply (M := 1024) (K := 256) (N := 1024) _ _ p n).trans ?_
  exact Finset.sum_congr rfl fun kk _ =>
    congrArg₂ (fun y z => y * z) (congrFun (shapeCast_self h _) (ix2 p kk))
      (scaled_at w s _ _ _ kk n)

end Cert.KernelIdeal.Pay

end
-- ==== Proof.BlockIdx.lean ====
/-
  Where each block sits in its array.

  The first kernel runs over 4 × 43 × 4 = 688 points: point t has row block i = t / 172, column block j = (t / 4) % 43 and
  contraction step k = t % 4. The second runs over 4 × 4 × 43 = 688 points: i = t / 172, j = (t / 43) % 4, k = t % 43.
  Each window's block at point t is the rectangle of its array at (block index) × (block size) on each axis, so entry y of
  the block is entry  index × size + y  of the array. The block indices are read off the index maps once, over all
  688 points; the rest is arithmetic.

  Also: every entry of each result array lies in the block of exactly the point at the LAST contraction step of its row and
  column block, and that point is given in closed form.
-/
import proofs.«165453_j40484361732127_1_alg».proof.KernelIdeal
import proofs.«165453_j40484361732127_1_alg».proof.Proof.Gen.KernelIdeal.Launch
import proofs.«165453_j40484361732127_1_alg».proof.Proof.Gen.KernelIdeal.Points
import Idealize.ShloMosaic.Lib.Pipeline.Value
import Idealize.ShloMosaic.Lib.ValueIdx

noncomputable section

namespace Cert.KernelIdeal.Blk

open Cert.KernelIdeal Idealize.ShloMosaic Idealize.ShloMosaic.ValueIdx

/-! ## The first kernel: x (i, k); the two weights (k, j); their scale columns (k, 0); the hidden result (i, j) -/

/-- x: row block i; column block k. -/
theorem idx0_0 : ∀ t : Fin cfg0.N, win0_0.index t (0 : Fin 2) = t.val / 172 ∧ win0_0.index t (1 : Fin 2) = t.val % 4 :=
  (by decide +kernel : ∀ t : Fin grid0.N, win0_0.index t (0 : Fin 2) = t.val / 172 ∧ win0_0.index t (1 : Fin 2) = t.val % 4)

theorem emb0_0 (t : Fin cfg0.N) (y : S1024x1024.Idx) :
    ((((cfg0.win 0).blk t).view.emb y) 0).val = (t.val / 172) * 1024 + (y 0).val
      ∧ ((((cfg0.win 0).blk t).view.emb y) 1).val = (t.val % 4) * 1024 + (y 1).val := by
  obtain ⟨e0, e1⟩ := idx0_0 t
  constructor
  · show win0_0.index t (0 : Fin 2) * 1024 + 1 * (y 0).val = _
    omega
  · show win0_0.index t (1 : Fin 2) * 1024 + 1 * (y 1).val = _
    omega

/-- The gate weights: row block k; column block j. -/
theorem idx0_1 : ∀ t : Fin cfg0.N, win0_1.index t (0 : Fin 2) = t.val % 4 ∧ win0_1.index t (1 : Fin 2) = t.val / 4 % 43 :=
  (by decide +kernel : ∀ t : Fin grid0.N, win0_1.index t (0 : Fin 2) = t.val % 4 ∧ win0_1.index t (1 : Fin 2) = t.val / 4 % 43)

theorem emb0_1 (t : Fin cfg0.N) (y : S1024x256.Idx) :
    ((((cfg0.win 1).blk t).view.emb y) 0).val = (t.val % 4) * 1024 + (y 0).val
      ∧ ((((cfg0.win 1).blk t).view.emb y) 1).val = (t.val / 4 % 43) * 256 + (y 1).val := by
  obtain ⟨e0, e1⟩ := idx0_1 t
  constructor
  · show win0_1.index t (0 : Fin 2) * 1024 + 1 * (y 0).val = _
    omega
  · show win0_1.index t (1 : Fin 2) * 256 + 1 * (y 1).val = _
    omega

/-- The gate scales, a [4096, 1] column: row block k; the one column. -/
theorem idx0_2 : ∀ t : Fin cfg0.N, win0_2.index t (0 : Fin 2) = t.val % 4 ∧ win0_2.index t (1 : Fin 2) = 0 :=
  (by decide +kernel : ∀ t : Fin grid0.N, win0_2.index t (0 : Fin 2) = t.val % 4 ∧ win0_2.index t (1 : Fin 2) = 0)

theorem emb0_2 (t : Fin cfg0.N) (y : S1024x1.Idx) :
    ((((cfg0.win 2).blk t).view.emb y) 0).val = (t.val % 4) * 1024 + (y 0).val
      ∧ ((((cfg0.win 2).blk t).view.emb y) 1).val = (y 1).val := by
  obtain ⟨e0, e1⟩ := idx0_2 t
  constructor
  · show win0_2.index t (0 : Fin 2) * 1024 + 1 * (y 0).val = _
    omega
  · show win0_2.index t (1 : Fin 2) * 1 + 1 * (y 1).val = _
    omega

/-- The up weights: row block k; column block j. -/
theorem idx0_3 : ∀ t : Fin cfg0.N, win0_3.index t (0 : Fin 2) = t.val % 4 ∧ win0_3.index t (1 : Fin 2) = t.val / 4 % 43 :=
  (by decide +kernel : ∀ t : Fin grid0.N, win0_3.index t (0 : Fin 2) = t.val % 4 ∧ win0_3.index t (1 : Fin 2) = t.val / 4 % 43)

theorem emb0_3 (t : Fin cfg0.N) (y : S1024x256.Idx) :
    ((((cfg0.win 3).blk t).view.emb y) 0).val = (t.val % 4) * 1024 + (y 0).val
      ∧ ((((cfg0.win 3).blk t).view.emb y) 1).val = (t.val / 4 % 43) * 256 + (y 1).val := by
  obtain ⟨e0, e1⟩ := idx0_3 t
  constructor
  · show win0_3.index t (0 : Fin 2) * 1024 + 1 * (y 0).val = _
    omega
  · show win0_3.index t (1 : Fin 2) * 256 + 1 * (y 1).val = _
    omega

/-- The up scales, a [4096, 1] column: row block k; the one column. -/
theorem idx0_4 : ∀ t : Fin cfg0.N, win0_4.index t (0 : Fin 2) = t.val % 4 ∧ win0_4.index t (1 : Fin 2) = 0 :=
  (by decide +kernel : ∀ t : Fin grid0.N, win0_4.index t (0 : Fin 2) = t.val % 4 ∧ win0_4.index t (1 : Fin 2) = 0)

theorem emb0_4 (t : Fin cfg0.N) (y : S1024x1.Idx) :
    ((((cfg0.win 4).blk t).view.emb y) 0).val = (t.val % 4) * 1024 + (y 0).val
      ∧ ((((cfg0.win 4).blk t).view.emb y) 1).val = (y 1).val := by
  obtain ⟨e0, e1⟩ := idx0_4 t
  constructor
  · show win0_4.index t (0 : Fin 2) * 1024 + 1 * (y 0).val = _
    omega
  · show win0_4.index t (1 : Fin 2) * 1 + 1 * (y 1).val = _
    omega

/-- The hidden result: row block i; column block j. -/
theorem idx0_5 : ∀ t : Fin cfg0.N, win0_5.index t (0 : Fin 2) = t.val / 172 ∧ win0_5.index t (1 : Fin 2) = t.val / 4 % 43 :=
  (by decide +kernel : ∀ t : Fin grid0.N, win0_5.index t (0 : Fin 2) = t.val / 172 ∧ win0_5.index t (1 : Fin 2) = t.val / 4 % 43)

theorem emb0_5 (t : Fin cfg0.N) (y : S1024x256.Idx) :
    ((((cfg0.win 5).blk t).view.emb y) 0).val = (t.val / 172) * 1024 + (y 0).val
      ∧ ((((cfg0.win 5).blk t).view.emb y) 1).val = (t.val / 4 % 43) * 256 + (y 1).val := by
  obtain ⟨e0, e1⟩ := idx0_5 t
  constructor
  · show win0_5.index t (0 : Fin 2) * 1024 + 1 * (y 0).val = _
    omega
  · show win0_5.index t (1 : Fin 2) * 256 + 1 * (y 1).val = _
    omega

/-! ## The second kernel: the hidden activation (i, k); the down weights (k, j); their scale column (k, 0); the result (i, j) -/

/-- The hidden activation: row block i; column block k. -/
theorem idx1_0 : ∀ t : Fin cfg1.N, win1_0.index t (0 : Fin 2) = t.val / 172 ∧ win1_0.index t (1 : Fin 2) = t.val % 43 :=
  (by decide +kernel : ∀ t : Fin grid1.N, win1_0.index t (0 : Fin 2) = t.val / 172 ∧ win1_0.index t (1 : Fin 2) = t.val % 43)

theorem emb1_0 (t : Fin cfg1.N) (y : S1024x256.Idx) :
    ((((cfg1.win 0).blk t).view.emb y) 0).val = (t.val / 172) * 1024 + (y 0).val
      ∧ ((((cfg1.win 0).blk t).view.emb y) 1).val = (t.val % 43) * 256 + (y 1).val := by
  obtain ⟨e0, e1⟩ := idx1_0 t
  constructor
  · show win1_0.index t (0 : Fin 2) * 1024 + 1 * (y 0).val = _
    omega
  · show win1_0.index t (1 : Fin 2) * 256 + 1 * (y 1).val = _
    omega

/-- The down weights: row block k; column block j. -/
theorem idx1_1 : ∀ t : Fin cfg1.N, win1_1.index t (0 : Fin 2) = t.val % 43 ∧ win1_1.index t (1 : Fin 2) = t.val / 43 % 4 :=
  (by decide +kernel : ∀ t : Fin grid1.N, win1_1.index t (0 : Fin 2) = t.val % 43 ∧ win1_1.index t (1 : Fin 2) = t.val / 43 % 4)

theorem emb1_1 (t : Fin cfg1.N) (y : S256x1024.Idx) :
    ((((cfg1.win 1).blk t).view.emb y) 0).val = (t.val % 43) * 256 + (y 0).val
      ∧ ((((cfg1.win 1).blk t).view.emb y) 1).val = (t.val / 43 % 4) * 1024 + (y 1).val := by
  obtain ⟨e0, e1⟩ := idx1_1 t
  constructor
  · show win1_1.index t (0 : Fin 2) * 256 + 1 * (y 0).val = _
    omega
  · show win1_1.index t (1 : Fin 2) * 1024 + 1 * (y 1).val = _
    omega

/-- The down scales, a [11008, 1] column: row block k; the one column. -/
theorem idx1_2 : ∀ t : Fin cfg1.N, win1_2.index t (0 : Fin 2) = t.val % 43 ∧ win1_2.index t (1 : Fin 2) = 0 :=
  (by decide +kernel : ∀ t : Fin grid1.N, win1_2.index t (0 : Fin 2) = t.val % 43 ∧ win1_2.index t (1 : Fin 2) = 0)

theorem emb1_2 (t : Fin cfg1.N) (y : S256x1.Idx) :
    ((((cfg1.win 2).blk t).view.emb y) 0).val = (t.val % 43) * 256 + (y 0).val
      ∧ ((((cfg1.win 2).blk t).view.emb y) 1).val = (y 1).val := by
  obtain ⟨e0, e1⟩ := idx1_2 t
  constructor
  · show win1_2.index t (0 : Fin 2) * 256 + 1 * (y 0).val = _
    omega
  · show win1_2.index t (1 : Fin 2) * 1 + 1 * (y 1).val = _
    omega

/-- The result: row block i; column block j. -/
theorem idx1_3 : ∀ t : Fin cfg1.N, win1_3.index t (0 : Fin 2) = t.val / 172 ∧ win1_3.index t (1 : Fin 2) = t.val / 43 % 4 :=
  (by decide +kernel : ∀ t : Fin grid1.N, win1_3.index t (0 : Fin 2) = t.val / 172 ∧ win1_3.index t (1 : Fin 2) = t.val / 43 % 4)

theorem emb1_3 (t : Fin cfg1.N) (y : S1024x1024.Idx) :
    ((((cfg1.win 3).blk t).view.emb y) 0).val = (t.val / 172) * 1024 + (y 0).val
      ∧ ((((cfg1.win 3).blk t).view.emb y) 1).val = (t.val / 43 % 4) * 1024 + (y 1).val := by
  obtain ⟨e0, e1⟩ := idx1_3 t
  constructor
  · show win1_3.index t (0 : Fin 2) * 1024 + 1 * (y 0).val = _
    omega
  · show win1_3.index t (1 : Fin 2) * 1024 + 1 * (y 1).val = _
    omega

/-- An entry of a [1024, 1] or [256, 1] block is in column 0. -/
theorem col_S1024x1 (y : S1024x1.Idx) : (y 1).val = 0 := by
  have h : (y 1).val < 1 := (y 1).isLt
  omega
theorem col_S256x1 (y : S256x1.Idx) : (y 1).val = 0 := by
  have h : (y 1).val < 1 := (y 1).isLt
  omega

/-! ## The point that completes an entry of a result -/

/-- The first kernel's point at the last contraction step (k = 3) of the block holding entry (r, f) of the hidden result. -/
def last0 (r f : Nat) (hr : r < 4096) (hf : f < 11008) : Fin cfg0.N :=
  ⟨(r / 1024 * 43 + f / 256) * 4 + 3, by have hN : cfg0.N = 688 := Gen.N_0; omega⟩

theorem last0_val (r f : Nat) (hr : r < 4096) (hf : f < 11008) : (last0 r f hr hf).val = (r / 1024 * 43 + f / 256) * 4 + 3 := rfl

theorem last0_facts (r f : Nat) (hr : r < 4096) (hf : f < 11008) :
    (last0 r f hr hf).val % 4 = 3 ∧ (last0 r f hr hf).val / 172 = r / 1024 ∧ (last0 r f hr hf).val / 4 % 43 = f / 256 := by
  rw [last0_val]
  omega

/-- Every entry (r, f) of the hidden result has such a point. -/
theorem cover0 (r f : Nat) (hr : r < 4096) (hf : f < 11008) :
    ∃ t : Fin cfg0.N, t.val % 4 = 3 ∧ t.val / 172 = r / 1024 ∧ t.val / 4 % 43 = f / 256 :=
  ⟨last0 r f hr hf, last0_facts r f hr hf⟩

/-- The second kernel's point at the last contraction step (k = 42) of the block holding entry (r, n) of the result. -/
def last1 (r n : Nat) (hr : r < 4096) (hn : n < 4096) : Fin cfg1.N :=
  ⟨(r / 1024 * 4 + n / 1024) * 43 + 42, by have hN : cfg1.N = 688 := Gen.N_1; omega⟩

theorem last1_val (r n : Nat) (hr : r < 4096) (hn : n < 4096) : (last1 r n hr hn).val = (r / 1024 * 4 + n / 1024) * 43 + 42 := rfl

theorem last1_facts (r n : Nat) (hr : r < 4096) (hn : n < 4096) :
    (last1 r n hr hn).val % 43 = 42 ∧ (last1 r n hr hn).val / 172 = r / 1024 ∧ (last1 r n hr hn).val / 43 % 4 = n / 1024 := by
  rw [last1_val]
  omega

/-- Every entry (r, n) of the result has such a point. -/
theorem cover1 (r n : Nat) (hr : r < 4096) (hn : n < 4096) :
    ∃ t : Fin cfg1.N, t.val % 43 = 42 ∧ t.val / 172 = r / 1024 ∧ t.val / 43 % 4 = n / 1024 :=
  ⟨last1 r n hr hn, last1_facts r n hr hn⟩

end Cert.KernelIdeal.Blk

end
-- ==== Proof.BlockSum.lean ====
/-
  Two facts about finite sums of extended reals, used to read a blocked accumulation as one sum.

    * A sum over D = nb · B terms equals the sum, over the nb consecutive blocks, of the sum of the B terms of each block:
      term number b · B + kk of the whole sum is term kk of block b.
    * A sequence that starts at 0 + S 0 and grows by S (k + 1) at step k + 1 holds, at step n, the sum S 0 + … + S n.

  Both use only that addition of extended reals is commutative and associative with unit 0; no term needs to be finite.
-/
import Mathlib.Algebra.BigOperators.Fin
import Mathlib.Logic.Equiv.Fin.Basic
import Idealize.ShloMosaic.PureOps.Ideal

namespace Cert.SwiGLU

/-- A finite sum cut into nb consecutive blocks of B terms. -/
theorem sum_blocks {D : Nat} (nb B : Nat) (h : nb * B = D) (g : Fin D → EReal) (idx : Fin nb → Fin B → Fin D)
    (hidx : ∀ b kk, (idx b kk).val = b.val * B + kk.val) :
    ∑ k : Fin D, g k = ∑ b : Fin nb, ∑ kk : Fin B, g (idx b kk) := by
  subst h
  -- position (b, kk) of the block decomposition is the term numbered kk + B · b
  have hi : ∀ b kk, idx b kk = finProdFinEquiv (b, kk) := fun b kk =>
    Fin.ext (by rw [hidx b kk]; simp only [finProdFinEquiv_apply_val]; rw [Nat.mul_comm, Nat.add_comm])
  simp only [hi]
  rw [← Equiv.sum_comp finProdFinEquiv g, Fintype.sum_prod_type]

/-- An accumulator started at 0 + S 0 and increased by S (k+1) at each step holds the partial sum. -/
theorem acc_eq_sum (S A : ℕ → EReal) (h0 : A 0 = 0 + S 0) (hs : ∀ k, A (k + 1) = A k + S (k + 1)) (n : ℕ) :
    A n = ∑ b ∈ Finset.range (n + 1), S b := by
  induction n with
  | zero => rw [h0, zero_add, Finset.sum_range_one]
  | succ n ih => rw [hs n, ih, Finset.sum_range_succ (fun b => S b) (n + 1)]

end Cert.SwiGLU
-- ==== Proof.Spec.lean ====
/-
  The mathematics both programs compute, entry by entry, over the extended reals.

  With x an [M, D] matrix, w1q, w3q [D, H] matrices with one scale per ROW (s1, s3 : [D]), and w2q an [H, E] matrix with
  one scale per row (s2 : [H]):
    proj x wq s (p, f)  =  Σ_k x[p, k] · (wq[k, f] · s[k])                     -- a product with the row-scaled weights
    hidden (p, f)       =  (g · logistic g) · u,   g = proj x w1q s1 (p, f),  u = proj x w3q s3 (p, f)
    out (p, n)          =  Σ_f hidden (p, f) · (w2q[f, n] · s2[f])
  Every sum is a finite sum in the commutative monoid of extended reals, so it may be cut into consecutive blocks and
  re-associated freely: nothing below asks the entries to be finite.
-/
import Idealize.ShloMosaic.Lib.ValueIdx
import Idealize.ShloMosaic.PureOps.Ideal

noncomputable section

namespace Cert.SwiGLU

open Idealize.ShloMosaic Idealize.ShloMosaic.ValueIdx

/-- An [a, b] array of extended reals, and an [a] array. -/
abbrev Mat (a b : Nat) : Type := (⟨2, ![a, b]⟩ : Shape).Idx → EReal
abbrev Col (a : Nat) : Type := (⟨1, ![a]⟩ : Shape).Idx → EReal

/-- Entry (p, f) of x times the row-scaled weights: Σ_k x[p, k] · (wq[k, f] · s[k]). -/
def proj {M D H : Nat} (x : Mat M D) (wq : Mat D H) (s : Col D) (p : Fin M) (f : Fin H) : EReal :=
  ∑ k : Fin D, x (ix2 p k) * (wq (ix2 k f) * s (ix1 k))

/-- The gated hidden activation at (p, f): silu of the gate projection, times the up projection. -/
def hidden {M D H : Nat} (x : Mat M D) (w1q : Mat D H) (s1 : Col D) (w3q : Mat D H) (s3 : Col D) (p : Fin M) (f : Fin H) : EReal :=
  (proj x w1q s1 p f * Ideal.logistic (proj x w1q s1 p f)) * proj x w3q s3 p f

/-- Entry (p, n) of the result: the hidden activation times the row-scaled down weights. -/
def outAt {M D H E : Nat} (x : Mat M D) (w1q : Mat D H) (s1 : Col D) (w3q : Mat D H) (s3 : Col D) (w2q : Mat H E) (s2 : Col H)
    (p : Fin M) (n : Fin E) : EReal :=
  ∑ f : Fin H, hidden x w1q s1 w3q s3 p f * (w2q (ix2 f n) * s2 (ix1 f))

/-- The whole result array. -/
def out {M D H E : Nat} (x : Mat M D) (w1q : Mat D H) (s1 : Col D) (w3q : Mat D H) (s3 : Col D) (w2q : Mat H E) (s2 : Col H) : Mat M E :=
  fun j => outAt x w1q s1 w3q s3 w2q s2 (j 0) (j 1)

theorem out_ix2 {M D H E : Nat} (x : Mat M D) (w1q : Mat D H) (s1 : Col D) (w3q : Mat D H) (s3 : Col D) (w2q : Mat H E) (s2 : Col H)
    (p : Fin M) (n : Fin E) : out x w1q s1 w3q s3 w2q s2 (ix2 p n) = outAt x w1q s1 w3q s3 w2q s2 p n := rfl

end Cert.SwiGLU

end
-- ==== Proof.Ext.lean ====
/-
  Arrays read at natural-number coordinates.

  A block of an array sits at "block index × block size + offset inside the block", which is arithmetic on naturals. To
  state such reads without carrying range proofs inside sums, an [a, b] array is extended to all pairs of naturals by 0
  outside its range; inside the range the extension is the array.
-/
import proofs.«165453_j40484361732127_1_alg».proof.Proof.Spec

noncomputable section

namespace Cert.SwiGLU

open Idealize.ShloMosaic Idealize.ShloMosaic.ValueIdx

/-- The entry at (r, k) when both are in range, 0 outside. -/
def ext2 {a b : Nat} (A : Mat a b) (r k : Nat) : EReal :=
  if h : r < a ∧ k < b then A (ix2 ⟨r, h.1⟩ ⟨k, h.2⟩) else 0

theorem ext2_ix2 {a b : Nat} (A : Mat a b) (p : Fin a) (q : Fin b) : ext2 A p.val q.val = A (ix2 p q) := by
  unfold ext2; rw [dif_pos ⟨p.isLt, q.isLt⟩]

theorem ext2_of_lt {a b : Nat} (A : Mat a b) (r k : Nat) (hr : r < a) (hk : k < b) : ext2 A r k = A (ix2 ⟨r, hr⟩ ⟨k, hk⟩) := by
  unfold ext2; rw [dif_pos ⟨hr, hk⟩]

/-- Any entry of the array is the extension at the index's coordinates. -/
theorem ext2_apply {a b : Nat} (A : Mat a b) (j : (⟨2, ![a, b]⟩ : Shape).Idx) : A j = ext2 A (j 0).val (j 1).val := by
  obtain ⟨p, q, rfl⟩ : ∃ (p : Fin a) (q : Fin b), j = ix2 p q := ⟨j 0, j 1, eq_ix2 j⟩
  exact (ext2_ix2 A p q).symm

/-- Two indices with the same coordinates read the same entry. -/
theorem apply_congr {a b : Nat} (A : Mat a b) (j : (⟨2, ![a, b]⟩ : Shape).Idx) (r k : Nat) (h0 : (j 0).val = r) (h1 : (j 1).val = k) :
    A j = ext2 A r k := by
  rw [ext2_apply A j, h0, h1]

end Cert.SwiGLU

end
-- ==== Proof.KernelIdeal.Val0.lean ====
/-
  The first kernel's result array is the gated hidden activation of the specification, entry by entry.

  Point t of the 4 × 43 × 4 grid has row block i = t / 172, column block j = t / 4 % 43 and contraction step k = t % 4. Write
  X for x, W for a weight matrix and S for its scale column [4096, 1]. For a row r, a column f and a contraction block b put
      term X W S r f b  =  Σ_{kk < 1024}  X[r, b·1024 + kk] · (W[b·1024 + kk, f] · S[b·1024 + kk, 0]).
  After the body at point t the gate accumulator holds, at entry (p, q) of its 1024 × 256 block,
      Σ_{b ≤ k}  term X W1 S1 (i·1024 + p) (j·256 + q) b,
  and the up accumulator the same with W3, S3: at k = 0 the cleared accumulator receives the step's product, and at k > 0 the
  step's product is added to what the point before (same i, j; step k − 1) left. At k = 3 the sum over the four blocks of 1024
  contraction positions is the sum over all 4096 of them, which is the specification's projection, and the output block
  receives (g · logistic g) · u of the two finished sums. The points with k = 3 write their blocks back, and every entry of the
  [4096, 11008] array lies in the block of one of them; so the array ends holding the hidden activation everywhere.
-/
import proofs.«165453_j40484361732127_1_alg».proof.Proof.KernelIdeal.Pieces0
import proofs.«165453_j40484361732127_1_alg».proof.Proof.Payloads
import proofs.«165453_j40484361732127_1_alg».proof.Proof.BlockIdx
import proofs.«165453_j40484361732127_1_alg».proof.Proof.BlockSum
import proofs.«165453_j40484361732127_1_alg».proof.Proof.Ext
import proofs.«165453_j40484361732127_1_alg».proof.Proof.Spec
import Idealize.ShloMosaic.Lib.Pipeline.Value

noncomputable section

namespace Cert.KernelIdeal.Val0

open Idealize.ShloMosaic Idealize.ShloMosaic.TcCoe Idealize.ShloMosaic.ValueIdx
open Idealize.ShloMosaic.Pipeline (Dat)
open Cert.KernelIdeal Cert.KernelIdeal.Gen Cert.SwiGLU

/-- An [n, 1] array as an [n] one: the entry of its one column. -/
def colOf {n : Nat} (S : Mat n 1) : Col n := fun k => S (ix2 (k 0) (0 : Fin 1))

theorem colOf_ix1 {n : Nat} (S : Mat n 1) (k : Fin n) : colOf S (ix1 k) = S (ix2 k (0 : Fin 1)) := rfl

-- the unscoped buffers' contents when the first kernel is entered, per core
variable (V : (c : Dev nD) → (b : Ref sig .tc) → Buf (Elt Ideal) ((c : Thread nD τ).loc b))

/-- The five arrays the kernel reads: x, the gate weights and their scale column, the up weights and theirs. -/
abbrev aX (c : Dev nD) : Mat 4096 4096 := V c main_arg0
abbrev aW1 (c : Dev nD) : Mat 4096 11008 := V c main_arg1
abbrev aS1 (c : Dev nD) : Mat 4096 1 := V c main_v0
abbrev aW3 (c : Dev nD) : Mat 4096 11008 := V c main_arg3
abbrev aS3 (c : Dev nD) : Mat 4096 1 := V c main_v1

/-! ## The blocks the body reads, as entries of the arrays -/

theorem blk0 (c : Dev nD) (t : Fin cfg0.N) (p kk : Fin 1024) :
    R0.iblk V c 0 t (ix2 p kk) = ext2 (aX V c) (t.val / 172 * 1024 + p.val) (t.val % 4 * 1024 + kk.val) := by
  obtain ⟨h0, h1⟩ := Blk.emb0_0 t (ix2 p kk)
  unfold R0.iblk
  rw [View.read_apply]
  exact apply_congr (aX V c) _ _ _ h0 h1

theorem blk1 (c : Dev nD) (t : Fin cfg0.N) (kk : Fin 1024) (q : Fin 256) :
    R0.iblk V c 1 t (ix2 kk q) = ext2 (aW1 V c) (t.val % 4 * 1024 + kk.val) (t.val / 4 % 43 * 256 + q.val) := by
  obtain ⟨h0, h1⟩ := Blk.emb0_1 t (ix2 kk q)
  unfold R0.iblk
  rw [View.read_apply]
  exact apply_congr (aW1 V c) _ _ _ h0 h1

theorem blk2 (c : Dev nD) (t : Fin cfg0.N) (kk : Fin 1024) :
    R0.iblk V c 2 t (ix2 kk (0 : Fin 1)) = ext2 (aS1 V c) (t.val % 4 * 1024 + kk.val) 0 := by
  obtain ⟨h0, h1⟩ := Blk.emb0_2 t (ix2 kk (0 : Fin 1))
  unfold R0.iblk
  rw [View.read_apply]
  exact apply_congr (aS1 V c) _ _ _ h0 h1

theorem blk3 (c : Dev nD) (t : Fin cfg0.N) (kk : Fin 1024) (q : Fin 256) :
    R0.iblk V c 3 t (ix2 kk q) = ext2 (aW3 V c) (t.val % 4 * 1024 + kk.val) (t.val / 4 % 43 * 256 + q.val) := by
  obtain ⟨h0, h1⟩ := Blk.emb0_3 t (ix2 kk q)
  unfold R0.iblk
  rw [View.read_apply]
  exact apply_congr (aW3 V c) _ _ _ h0 h1

theorem blk4 (c : Dev nD) (t : Fin cfg0.N) (kk : Fin 1024) :
    R0.iblk V c 4 t (ix2 kk (0 : Fin 1)) = ext2 (aS3 V c) (t.val % 4 * 1024 + kk.val) 0 := by
  obtain ⟨h0, h1⟩ := Blk.emb0_4 t (ix2 kk (0 : Fin 1))
  unfold R0.iblk
  rw [View.read_apply]
  exact apply_congr (aS3 V c) _ _ _ h0 h1

/-! ## The two accumulators, point by point -/

/-- The product over one block of 1024 contraction positions: Σ_kk X[r, b·1024 + kk] · (W[b·1024 + kk, f] · S[b·1024 + kk, 0]). -/
def term (X : Mat 4096 4096) (W : Mat 4096 11008) (S : Mat 4096 1) (r f b : ℕ) : EReal :=
  ∑ kk : Fin 1024, ext2 X r (b * 1024 + kk.val) * (ext2 W (b * 1024 + kk.val) f * ext2 S (b * 1024 + kk.val) 0)

/-- One step of the gate accumulator: what it held, plus the step's term at the point's row, column and contraction block. -/
theorem gate_step (c : Dev nD) (t : Fin cfg0.N) (a : Vec Ideal S1024x256 .f32) (p : Fin 1024) (q : Fin 256) :
    Gen.k0_pay5 (F := Ideal) (R0.iblk V c 0 t) (R0.iblk V c 1 t) (R0.iblk V c 2 t) a (ix2 p q)
      = a (ix2 p q) + term (aX V c) (aW1 V c) (aS1 V c) (t.val / 172 * 1024 + p.val) (t.val / 4 % 43 * 256 + q.val) (t.val % 4) := by
  refine (Pay.pay5_at _ _ _ a p q).trans ?_
  refine congrArg (fun z => a (ix2 p q) + z) ?_
  exact Finset.sum_congr rfl fun kk _ => by rw [blk0 V c t p kk, blk1 V c t kk q, blk2 V c t kk]

/-- After the body at position n the gate accumulator holds the partial sum over the contraction blocks 0 … n % 4. -/
theorem gate_inv (c : Dev nD) (n : ℕ) : ∀ (hn : n < cfg0.N) (p : Fin 1024) (q : Fin 256),
    (R0.outsAt V c n hn).2.1 (ix2 p q)
      = ∑ b ∈ Finset.range (n % 4 + 1), term (aX V c) (aW1 V c) (aS1 V c) (n / 172 * 1024 + p.val) (n / 4 % 43 * 256 + q.val) b := by
  induction n using Nat.strong_induction_on with
  | _ n ih =>
    intro hn p q
    by_cases h0 : n % 4 = 0
    · -- the first step of a block: the cleared accumulator plus the step's term
      refine (congrArg (fun s : R0.St Ideal => s.2.1 (ix2 p q)) (R0.outsAt_first V c ⟨n, hn⟩ h0)).trans ?_
      refine (congrFun (R0.first_gate V c ⟨n, hn⟩ _ _) (ix2 p q)).trans ?_
      refine (gate_step V c ⟨n, hn⟩ _ p q).trans ?_
      dsimp only
      rw [Pay.pay2_at, zero_add, h0, Nat.zero_add, Finset.sum_range_one]
    · -- a later step: what the point before left (same row and column block, one step earlier) plus the step's term
      have e1 : (n - 1) / 172 = n / 172 := by omega
      have e2 : (n - 1) / 4 = n / 4 := by omega
      have e3 : (n - 1) % 4 + 1 = n % 4 := by omega
      have hprev := ih (n - 1) (by omega) (Nat.lt_of_le_of_lt (Nat.sub_le _ _) hn) p q
      rw [e1, e2, e3] at hprev
      by_cases h3 : n % 4 = 3
      · refine (congrArg (fun s : R0.St Ideal => s.2.1 (ix2 p q)) (R0.outsAt_last V c ⟨n, hn⟩ h0 h3)).trans ?_
        refine (congrFun (R0.last_gate V c ⟨n, hn⟩ _ _ _ _) (ix2 p q)).trans ?_
        refine (gate_step V c ⟨n, hn⟩ _ p q).trans ?_
        dsimp only
        rw [Finset.sum_range_succ]
        exact congrArg (fun z => z + term (aX V c) (aW1 V c) (aS1 V c) (n / 172 * 1024 + p.val) (n / 4 % 43 * 256 + q.val) (n % 4)) hprev
      · refine (congrArg (fun s : R0.St Ideal => s.2.1 (ix2 p q)) (R0.outsAt_mid V c ⟨n, hn⟩ h0 h3)).trans ?_
        refine (congrFun (R0.mid_gate V c ⟨n, hn⟩ _ _ _ _) (ix2 p q)).trans ?_
        refine (gate_step V c ⟨n, hn⟩ _ p q).trans ?_
        dsimp only
        rw [Finset.sum_range_succ]
        exact congrArg (fun z => z + term (aX V c) (aW1 V c) (aS1 V c) (n / 172 * 1024 + p.val) (n / 4 % 43 * 256 + q.val) (n % 4)) hprev

/-- One step of the up accumulator: what it held, plus the step's term at the point's row, column and contraction block. -/
theorem up_step (c : Dev nD) (t : Fin cfg0.N) (a : Vec Ideal S1024x256 .f32) (p : Fin 1024) (q : Fin 256) :
    Gen.k0_pay6 (F := Ideal) (R0.iblk V c 0 t) (R0.iblk V c 3 t) (R0.iblk V c 4 t) a (ix2 p q)
      = a (ix2 p q) + term (aX V c) (aW3 V c) (aS3 V c) (t.val / 172 * 1024 + p.val) (t.val / 4 % 43 * 256 + q.val) (t.val % 4) := by
  refine (Pay.pay6_at _ _ _ a p q).trans ?_
  refine congrArg (fun z => a (ix2 p q) + z) ?_
  exact Finset.sum_congr rfl fun kk _ => by rw [blk0 V c t p kk, blk3 V c t kk q, blk4 V c t kk]

/-- After the body at position n the up accumulator holds the partial sum over the contraction blocks 0 … n % 4. -/
theorem up_inv (c : Dev nD) (n : ℕ) : ∀ (hn : n < cfg0.N) (p : Fin 1024) (q : Fin 256),
    (R0.outsAt V c n hn).2.2 (ix2 p q)
      = ∑ b ∈ Finset.range (n % 4 + 1), term (aX V c) (aW3 V c) (aS3 V c) (n / 172 * 1024 + p.val) (n / 4 % 43 * 256 + q.val) b := by
  induction n using Nat.strong_induction_on with
  | _ n ih =>
    intro hn p q
    by_cases h0 : n % 4 = 0
    · -- the first step of a block: the cleared accumulator plus the step's term
      refine (congrArg (fun s : R0.St Ideal => s.2.2 (ix2 p q)) (R0.outsAt_first V c ⟨n, hn⟩ h0)).trans ?_
      refine (congrFun (R0.first_up V c ⟨n, hn⟩ _ _) (ix2 p q)).trans ?_
      refine (up_step V c ⟨n, hn⟩ _ p q).trans ?_
      dsimp only
      rw [Pay.pay3_at, zero_add, h0, Nat.zero_add, Finset.sum_range_one]
    · -- a later step: what the point before left (same row and column block, one step earlier) plus the step's term
      have e1 : (n - 1) / 172 = n / 172 := by omega
      have e2 : (n - 1) / 4 = n / 4 := by omega
      have e3 : (n - 1) % 4 + 1 = n % 4 := by omega
      have hprev := ih (n - 1) (by omega) (Nat.lt_of_le_of_lt (Nat.sub_le _ _) hn) p q
      rw [e1, e2, e3] at hprev
      by_cases h3 : n % 4 = 3
      · refine (congrArg (fun s : R0.St Ideal => s.2.2 (ix2 p q)) (R0.outsAt_last V c ⟨n, hn⟩ h0 h3)).trans ?_
        refine (congrFun (R0.last_up V c ⟨n, hn⟩ _ _ _ _) (ix2 p q)).trans ?_
        refine (up_step V c ⟨n, hn⟩ _ p q).trans ?_
        dsimp only
        rw [Finset.sum_range_succ]
        exact congrArg (fun z => z + term (aX V c) (aW3 V c) (aS3 V c) (n / 172 * 1024 + p.val) (n / 4 % 43 * 256 + q.val) (n % 4)) hprev
      · refine (congrArg (fun s : R0.St Ideal => s.2.2 (ix2 p q)) (R0.outsAt_mid V c ⟨n, hn⟩ h0 h3)).trans ?_
        refine (congrFun (R0.mid_up V c ⟨n, hn⟩ _ _ _ _) (ix2 p q)).trans ?_
        refine (up_step V c ⟨n, hn⟩ _ p q).trans ?_
        dsimp only
        rw [Finset.sum_range_succ]
        exact congrArg (fun z => z + term (aX V c) (aW3 V c) (aS3 V c) (n / 172 * 1024 + p.val) (n / 4 % 43 * 256 + q.val) (n % 4)) hprev

/-! ## The finished sums are the specification's projections -/

/-- The four blocks of 1024 contraction positions make up all 4096: the sum of the four terms is the projection. -/
theorem sum_terms (X : Mat 4096 4096) (W : Mat 4096 11008) (S : Mat 4096 1) (r f : ℕ) (hr : r < 4096) (hf : f < 11008) :
    ∑ b ∈ Finset.range 4, term X W S r f b = proj X W (colOf S) ⟨r, hr⟩ ⟨f, hf⟩ := by
  unfold proj
  rw [sum_blocks (D := 4096) 4 1024 rfl _
    (fun b kk => ⟨b.val * 1024 + kk.val, by have := b.isLt; have := kk.isLt; omega⟩) (fun _ _ => rfl), Finset.sum_range]
  refine Finset.sum_congr rfl fun b _ => ?_
  unfold term
  refine Finset.sum_congr rfl fun kk _ => ?_
  have hk : b.val * 1024 + kk.val < 4096 := by have := b.isLt; have := kk.isLt; omega
  rw [ext2_of_lt X r _ hr hk, ext2_of_lt W _ f hk hf, ext2_of_lt S _ 0 hk Nat.one_pos]
  rfl

/-- The gated product is a function of the two sums. -/
theorem gated_congr {a b g u : EReal} (ha : a = g) (hb : b = u) :
    (a * Ideal.logistic a) * b = (g * Ideal.logistic g) * u := by
  rw [ha, hb]

/-! ## The block a last step writes back -/

/-- At a point of the last contraction step the output buffer holds the hidden activation of the point's rows and columns. -/
theorem out_block (c : Dev nD) (t : Fin cfg0.N) (h3 : t.val % 4 = 3) (p : Fin 1024) (q : Fin 256)
    (hr : t.val / 172 * 1024 + p.val < 4096) (hf : t.val / 4 % 43 * 256 + q.val < 11008) :
    (R0.outsAt V c t.val t.isLt).1 (ix2 p q)
      = Cert.SwiGLU.hidden (aX V c) (aW1 V c) (colOf (aS1 V c)) (aW3 V c) (colOf (aS3 V c))
          ⟨t.val / 172 * 1024 + p.val, hr⟩ ⟨t.val / 4 % 43 * 256 + q.val, hf⟩ := by
  have h0 : ¬t.val % 4 = 0 := by omega
  have hG : (R0.outsAt V c t.val t.isLt).2.1 (ix2 p q)
      = proj (aX V c) (aW1 V c) (colOf (aS1 V c)) ⟨t.val / 172 * 1024 + p.val, hr⟩ ⟨t.val / 4 % 43 * 256 + q.val, hf⟩ := by
    rw [gate_inv V c t.val t.isLt p q, h3]
    exact sum_terms _ _ _ _ _ hr hf
  have hU : (R0.outsAt V c t.val t.isLt).2.2 (ix2 p q)
      = proj (aX V c) (aW3 V c) (colOf (aS3 V c)) ⟨t.val / 172 * 1024 + p.val, hr⟩ ⟨t.val / 4 % 43 * 256 + q.val, hf⟩ := by
    rw [up_inv V c t.val t.isLt p q, h3]
    exact sum_terms _ _ _ _ _ hr hf
  refine (congrArg (fun s : R0.St Ideal => s.1 (ix2 p q)) (R0.outsAt_last V c t h0 h3)).trans ?_
  refine (congrFun (R0.last_out V c t _ _ _ _) (ix2 p q)).trans ?_
  refine (Pay.pay1_at _ _ p q).trans ?_
  unfold Cert.SwiGLU.hidden
  refine gated_congr ?_ ?_
  · exact ((congrFun (R0.last_gate V c t _ _ _ _) (ix2 p q)).symm.trans
      (congrArg (fun s : R0.St Ideal => s.2.1 (ix2 p q)) (R0.outsAt_last V c t h0 h3)).symm).trans hG
  · exact ((congrFun (R0.last_up V c t _ _ _ _) (ix2 p q)).symm.trans
      (congrArg (fun s : R0.St Ideal => s.2.2 (ix2 p q)) (R0.outsAt_last V c t h0 h3)).symm).trans hU

/-! ## The whole array -/

/-- The hidden activation as an array. -/
abbrev hiddenArr (c : Dev nD) : S4096x11008.Idx → EReal :=
  fun j => Cert.SwiGLU.hidden (aX V c) (aW1 V c) (colOf (aS1 V c)) (aW3 V c) (colOf (aS3 V c)) (j 0) (j 1)

/-- What a last step writes back is its block of the hidden activation. -/
theorem flushed_eq (c : Dev nD) (t : Fin cfg0.N) (hf : (cfg0.win 5).flush t = true) :
    (R0.dat0 (F := Ideal) V c).flushed 5 t = ((cfg0.win 5).blk t).view.read (Elt Ideal) (hiddenArr V c) := by
  have h3 : t.val % 4 = 3 := (Gen.flush0_5 t).mp hf
  have hN : cfg0.N = 688 := Gen.N_0
  show (cfg0.win 5).cut (grid0.coords t) ((R0.dat0 (F := Ideal) V c).after 5 t) = _
  rw [R0.after_5]
  funext y
  obtain ⟨p, q, rfl⟩ : ∃ (p : Fin 1024) (q : Fin 256), y = ix2 p q := ⟨y 0, y 1, eq_ix2 y⟩
  obtain ⟨e0, e1⟩ := Blk.emb0_5 t (ix2 p q)
  have hr : t.val / 172 * 1024 + p.val < 4096 := by have := t.isLt; have := p.isLt; omega
  have hc : t.val / 4 % 43 * 256 + q.val < 11008 := by have := q.isLt; omega
  rw [View.read_apply]
  refine (out_block V c t h3 p q hr hc).trans ?_
  exact congrArg₂ (fun a b => Cert.SwiGLU.hidden (aX V c) (aW1 V c) (colOf (aS1 V c)) (aW3 V c) (colOf (aS3 V c)) a b)
    (Fin.ext e0.symm) (Fin.ext e1.symm)

/-- The first kernel's result array after the run is the hidden activation, entry by entry. -/
theorem hidden_array (c : Dev nD) :
    (R0.dat0 (F := Ideal) V c).arrAt 5 cfg0.N
      = fun j => Cert.SwiGLU.hidden (V c main_arg0) (V c main_arg1) (colOf (V c main_v0)) (V c main_arg3) (colOf (V c main_v1)) (j 0) (j 1) :=
  (R0.dat0 (F := Ideal) V c).arrAt_eq_of_cover 5 (hiddenArr V c) (flushed_eq V c) fun (i : S4096x11008.Idx) => by
    have hi0 : (i 0).val < 4096 := (i 0).isLt
    have hi1 : (i 1).val < 11008 := (i 1).isLt
    obtain ⟨f3, fi, fj⟩ := Blk.last0_facts (i 0).val (i 1).val hi0 hi1
    obtain ⟨x0, x1⟩ := Blk.idx0_5 (Blk.last0 (i 0).val (i 1).val hi0 hi1)
    refine ⟨Blk.last0 (i 0).val (i 1).val hi0 hi1, (Gen.flush0_5 _).mpr f3, ?_⟩
    show i ∈ ((View.whole main_v3).slice (win0_5.rect (Blk.last0 (i 0).val (i 1).val hi0 hi1))).set
    rw [View.set_slice_whole, Rect.mem_set_unit]
    intro a
    match a with
    | ⟨0, _⟩ =>
      show win0_5.index (Blk.last0 (i 0).val (i 1).val hi0 hi1) (0 : Fin 2) * 1024 ≤ (i 0).val
        ∧ (i 0).val < win0_5.index (Blk.last0 (i 0).val (i 1).val hi0 hi1) (0 : Fin 2) * 1024 + 1024
      rw [x0, fi]; omega
    | ⟨1, _⟩ =>
      show win0_5.index (Blk.last0 (i 0).val (i 1).val hi0 hi1) (1 : Fin 2) * 256 ≤ (i 1).val
        ∧ (i 1).val < win0_5.index (Blk.last0 (i 0).val (i 1).val hi0 hi1) (1 : Fin 2) * 256 + 256
      rw [x1, fj]; omega

end Cert.KernelIdeal.Val0

end
-- ==== Proof.KernelIdeal.Pieces1.lean ====
/-
  What each case of the second kernel leaves, as the body's arithmetic applied to the point's blocks.

  Every store of the body is of a whole buffer, so a buffer ends at the payload of its LAST store, and a whole-buffer load
  of a staged block is the block. Hence: at the first contraction step the accumulator ends at the step's partial product
  added to the cleared accumulator; at a later step at the partial product added to what the step before left; and at the
  last step the output buffer receives that same value.
-/
import proofs.«165453_j40484361732127_1_alg».proof.Proof.KernelIdeal.Frame1
import Idealize.ShloMosaic.Lib.Pipeline.Value

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The all-zero offset of a whole-buffer rectangle. -/
theorem hz2 : (![0, 0] : Fin 2 → ℕ) = fun _ => 0 := by funext a; fin_cases a <;> rfl

theorem first_acc (c : Dev nD) (t : Fin cfg1.N) (hf) (hl) :
    (stepFirst V c t hf hl).2 = k1_pay2 (iblk V c 0 t) (iblk V c 1 t) (iblk V c 2 t) (k1_pay1 (F := F)) := by
  unfold stepFirst
  dsimp only
  rw [View.read_writes_eq_canon _ _ _ (covA_F V c t hf hl)]
  unfold rF runFirst
  dsimp only
  (try sl_unfold_run_names)
  rw [View.canon_cons_unit_zero hz2]
  simp only [View.readAt_eq_ld, Memref.IsWhole.read_unread, View.ld_unit_zero (S := S1024x256) hz2, View.ld_unit_zero (S := S256x1024) hz2,
    View.ld_unit_zero (S := S256x1) hz2, View.ld_unit_zero (S := S1024x1024) hz2, View.readCov_unit_zero (S := S1024x1024) _ hz2]

theorem mid_acc (c : Dev nD) (t : Fin cfg1.N) (hf) (hl) (sa : Vec F S1024x1024 .f32) :
    (stepMid V c t hf hl sa).2 = k1_pay2 (iblk V c 0 t) (iblk V c 1 t) (iblk V c 2 t) sa := by
  have eA : View.read (Elt F) (View.whole cc1_scratch0) (Memref.IsWhole.unread (Memref.isWhole_whole cc1_scratch0) sa) = sa :=
    Memref.IsWhole.read_unread (m := acc) (Memref.isWhole_whole _) sa
  unfold stepMid
  dsimp only
  rw [View.read_writes_eq_canon _ _ _ (covA_M V c t hf hl sa)]
  unfold rM runMid
  dsimp only
  (try sl_unfold_run_names)
  rw [View.canon_cons_unit_zero hz2]
  simp only [View.readAt_eq_ld, Memref.IsWhole.read_unread, View.ld_unit_zero (S := S1024x256) hz2, View.ld_unit_zero (S := S256x1024) hz2,
    View.ld_unit_zero (S := S256x1) hz2, View.ld_unit_zero (S := S1024x1024) hz2, View.readCov_unit_zero (S := S1024x1024) _ hz2]
  (try simp only [eA])

theorem last_acc (c : Dev nD) (t : Fin cfg1.N) (hf) (hl) (sa : Vec F S1024x1024 .f32) :
    (stepLast V c t hf hl sa).2 = k1_pay2 (iblk V c 0 t) (iblk V c 1 t) (iblk V c 2 t) sa := by
  have eA : View.read (Elt F) (View.whole cc1_scratch0) (Memref.IsWhole.unread (Memref.isWhole_whole cc1_scratch0) sa) = sa :=
    Memref.IsWhole.read_unread (m := acc) (Memref.isWhole_whole _) sa
  unfold stepLast
  dsimp only
  rw [View.read_writes_eq_canon _ _ _ (covA_L V c t hf hl sa)]
  unfold rL runLast
  dsimp only
  (try sl_unfold_run_names)
  rw [View.canon_cons_unit_zero hz2]
  simp only [View.readAt_eq_ld, Memref.IsWhole.read_unread, View.ld_unit_zero (S := S1024x256) hz2, View.ld_unit_zero (S := S256x1024) hz2,
    View.ld_unit_zero (S := S256x1) hz2, View.ld_unit_zero (S := S1024x1024) hz2, View.readCov_unit_zero (S := S1024x1024) _ hz2]
  (try simp only [eA])

/-- At the last step the output buffer receives the finished accumulator. -/
theorem last_out (c : Dev nD) (t : Fin cfg1.N) (hf) (hl) (sa : Vec F S1024x1024 .f32) :
    (stepLast V c t hf hl sa).1 = k1_pay2 (iblk V c 0 t) (iblk V c 1 t) (iblk V c 2 t) sa := by
  have eA : View.read (Elt F) (View.whole cc1_scratch0) (Memref.IsWhole.unread (Memref.isWhole_whole cc1_scratch0) sa) = sa :=
    Memref.IsWhole.read_unread (m := acc) (Memref.isWhole_whole _) sa
  unfold stepLast
  dsimp only
  rw [View.read_writes_eq_canon _ _ _ (covO_L V c t hf hl sa)]
  unfold rL runLast
  dsimp only
  (try sl_unfold_run_names)
  rw [View.canon_cons_unit_zero hz2]
  simp only [View.readAt_eq_ld, Memref.IsWhole.read_unread, View.ld_unit_zero (S := S1024x256) hz2, View.ld_unit_zero (S := S256x1024) hz2,
    View.ld_unit_zero (S := S256x1) hz2, View.ld_unit_zero (S := S1024x1024) hz2, View.readCov_unit_zero (S := S1024x1024) _ hz2]
  (try simp only [eA])

end Cert.KernelIdeal.R1

end
-- ==== Proof.KernelIdeal.Val1.lean ====
/-
  What the second kernel leaves in the result array.

  Point t of the 4 × 4 × 43 grid has row block i = t / 172, column block j = (t / 43) mod 4 and contraction step
  k = t mod 43. Write H for the hidden activations the kernel is entered with ([4096, 11008]), W for the down weights
  ([11008, 4096]) and S for their row scales as a column ([11008, 1]). The partial product of contraction step b at block
  (i, j), entry (p, n), is
      part i j b p n = Σ_{kk < 256} H[i·1024 + p, b·256 + kk] · (W[b·256 + kk, j·1024 + n] · S[b·256 + kk, 0]).
  After the body at point t the accumulator holds Σ_{b ≤ k} part i j b: at k = 0 the cleared accumulator plus the step's
  partial product, afterwards what the point before left plus the step's. At k = 42 the output block is that sum over all
  43 steps, which is the sum over all 11008 contraction positions; the write-backs at the points with k = 42 cover the
  array, so every entry (r, s) of the result is Σ_f H[r, f] · (W[f, s] · S[f, 0]).
-/
import proofs.«165453_j40484361732127_1_alg».proof.Proof.KernelIdeal.Pieces1
import proofs.«165453_j40484361732127_1_alg».proof.Proof.Payloads
import proofs.«165453_j40484361732127_1_alg».proof.Proof.BlockIdx
import proofs.«165453_j40484361732127_1_alg».proof.Proof.BlockSum
import proofs.«165453_j40484361732127_1_alg».proof.Proof.Ext
import Idealize.ShloMosaic.Lib.Pipeline.Value

noncomputable section

namespace Cert.KernelIdeal.Val1

open Idealize.ShloMosaic Idealize.ShloMosaic.TcCoe Idealize.SL.Sem Idealize.ShloMosaic.ValueIdx
open Idealize.ShloMosaic.Pipeline (Dat)
open Cert.KernelIdeal Cert.KernelIdeal.Gen Cert.SwiGLU

-- the unscoped buffers' contents when the second kernel is entered, per core
variable (V : (c : Dev nD) → (b : Ref sig .tc) → Buf (Elt Ideal) ((c : Thread nD τ).loc b))

/-- The three arrays the kernel reads. -/
abbrev Harr (c : Dev nD) : Mat 4096 11008 := V c main_v3
abbrev Warr (c : Dev nD) : Mat 11008 4096 := V c main_arg5
abbrev Sarr (c : Dev nD) : Mat 11008 1 := V c main_v2

/-! ## The windows' blocks, as entries of the arrays -/

theorem blkH (c : Dev nD) (t : Fin cfg1.N) (p : Fin 1024) (kk : Fin 256) :
    (R1.iblk V c 0 t : Vec Ideal S1024x256 .bf16) (ix2 p kk) = ext2 (Harr V c) (t.val / 172 * 1024 + p.val) (t.val % 43 * 256 + kk.val) := by
  unfold R1.iblk
  rw [View.read_apply]
  exact apply_congr (Harr V c) _ _ _ (Blk.emb1_0 t (ix2 p kk)).1 (Blk.emb1_0 t (ix2 p kk)).2

theorem blkW (c : Dev nD) (t : Fin cfg1.N) (kk : Fin 256) (n : Fin 1024) :
    (R1.iblk V c 1 t : Vec Ideal S256x1024 .f32) (ix2 kk n) = ext2 (Warr V c) (t.val % 43 * 256 + kk.val) (t.val / 43 % 4 * 1024 + n.val) := by
  unfold R1.iblk
  rw [View.read_apply]
  exact apply_congr (Warr V c) _ _ _ (Blk.emb1_1 t (ix2 kk n)).1 (Blk.emb1_1 t (ix2 kk n)).2

theorem blkS (c : Dev nD) (t : Fin cfg1.N) (kk : Fin 256) :
    (R1.iblk V c 2 t : Vec Ideal S256x1 .f32) (ix2 kk (0 : Fin 1)) = ext2 (Sarr V c) (t.val % 43 * 256 + kk.val) 0 := by
  unfold R1.iblk
  rw [View.read_apply]
  exact apply_congr (Sarr V c) _ _ _ (Blk.emb1_2 t (ix2 kk (0 : Fin 1))).1 (Blk.emb1_2 t (ix2 kk (0 : Fin 1))).2

/-- The point's three input blocks, at their literal vector types. -/
abbrev hB (c : Dev nD) (t : Fin cfg1.N) : Vec Ideal S1024x256 .bf16 := R1.iblk V c 0 t
abbrev wB (c : Dev nD) (t : Fin cfg1.N) : Vec Ideal S256x1024 .f32 := R1.iblk V c 1 t
abbrev sB (c : Dev nD) (t : Fin cfg1.N) : Vec Ideal S256x1 .f32 := R1.iblk V c 2 t

/-! ## One contraction step's partial product -/

def part (c : Dev nD) (i j b : ℕ) (p n : Fin 1024) : EReal :=
  ∑ kk : Fin 256, ext2 (Harr V c) (i * 1024 + p.val) (b * 256 + kk.val)
    * (ext2 (Warr V c) (b * 256 + kk.val) (j * 1024 + n.val) * ext2 (Sarr V c) (b * 256 + kk.val) 0)

theorem step_sum (c : Dev nD) (t : Fin cfg1.N) (p n : Fin 1024) :
    (∑ kk : Fin 256, hB V c t (ix2 p kk) * (wB V c t (ix2 kk n) * sB V c t (ix2 kk (0 : Fin 1))))
      = part V c (t.val / 172) (t.val / 43 % 4) (t.val % 43) p n := by
  unfold part
  refine Finset.sum_congr rfl fun kk _ => ?_
  rw [show hB V c t (ix2 p kk) = _ from blkH V c t p kk, show wB V c t (ix2 kk n) = _ from blkW V c t kk n,
    show sB V c t (ix2 kk (0 : Fin 1)) = _ from blkS V c t kk]

/-! ## The accumulator after each point -/

theorem acc_eq (c : Dev nD) : ∀ (n : ℕ) (hn : n < cfg1.N) (p q : Fin 1024),
    (R1.outsAt V c n hn).2 (ix2 p q) = ∑ b ∈ Finset.range (n % 43 + 1), part V c (n / 172) (n / 43 % 4) b p q := by
  intro n
  induction n with
  | zero =>
    intro hn p q
    have e := R1.outsAt_first V c ⟨0, hn⟩ (Nat.zero_mod _)
    rw [e, R1.first_acc, Pay.down_at, Pay.k1_pay1_at, zero_add, step_sum]
    simp only [Nat.zero_mod, Nat.zero_div, zero_add, Finset.sum_range_one]
  | succ n ih =>
    intro hn p q
    by_cases h0 : (n + 1) % 43 = 0
    · have e := R1.outsAt_first V c ⟨n + 1, hn⟩ h0
      rw [e, R1.first_acc, Pay.down_at, Pay.k1_pay1_at, zero_add, step_sum]
      show part V c ((n + 1) / 172) ((n + 1) / 43 % 4) ((n + 1) % 43) p q = _
      rw [h0, zero_add, Finset.sum_range_one]
    · have ih' := ih (Nat.lt_of_succ_lt hn) p q
      have a1 : n / 172 = (n + 1) / 172 := by omega
      have a2 : n / 43 = (n + 1) / 43 := by omega
      have a3 : (n + 1) % 43 = n % 43 + 1 := by omega
      by_cases h3 : (n + 1) % 43 = 42
      · have e := R1.outsAt_last V c ⟨n + 1, hn⟩ h0 h3
        rw [e, R1.last_acc, Pay.down_at, step_sum]
        show (R1.outsAt V c n _).2 (ix2 p q) + part V c ((n + 1) / 172) ((n + 1) / 43 % 4) ((n + 1) % 43) p q = _
        rw [ih', a1, a2, a3]
        exact (Finset.sum_range_succ (fun b => part V c ((n + 1) / 172) ((n + 1) / 43 % 4) b p q) (n % 43 + 1)).symm
      · have e := R1.outsAt_mid V c ⟨n + 1, hn⟩ h0 h3
        rw [e, R1.mid_acc, Pay.down_at, step_sum]
        show (R1.outsAt V c n _).2 (ix2 p q) + part V c ((n + 1) / 172) ((n + 1) / 43 % 4) ((n + 1) % 43) p q = _
        rw [ih', a1, a2, a3]
        exact (Finset.sum_range_succ (fun b => part V c ((n + 1) / 172) ((n + 1) / 43 % 4) b p q) (n % 43 + 1)).symm

/-! ## The output block at the last contraction step -/

/-- At the last step the output buffer receives exactly what the accumulator ends at. -/
theorem out_eq_acc (c : Dev nD) (t : Fin cfg1.N) (h3 : t.val % 43 = 42) :
    (R1.outsAt V c t.val t.isLt).1 = (R1.outsAt V c t.val t.isLt).2 := by
  have h0 : ¬t.val % 43 = 0 := by omega
  rw [R1.outsAt_last V c t h0 h3, R1.last_out, R1.last_acc]

/-- Entry (r, s) of the product of the hidden activations with the row-scaled down weights, at natural coordinates. -/
def Gn (c : Dev nD) (r s : ℕ) : EReal :=
  ∑ f : Fin 11008, ext2 (Harr V c) r f.val * (ext2 (Warr V c) f.val s * ext2 (Sarr V c) f.val 0)

/-- The 43 steps' partial products add up to the sum over all 11008 contraction positions. -/
theorem sum_parts (c : Dev nD) (i j : ℕ) (p n : Fin 1024) :
    ∑ b ∈ Finset.range 43, part V c i j b p n = Gn V c (i * 1024 + p.val) (j * 1024 + n.val) := by
  unfold part Gn
  rw [Finset.sum_range]
  exact (sum_blocks 43 256 (by norm_num) (fun f : Fin 11008 => ext2 (Harr V c) (i * 1024 + p.val) f.val
      * (ext2 (Warr V c) f.val (j * 1024 + n.val) * ext2 (Sarr V c) f.val 0))
    (fun b kk => ⟨b.val * 256 + kk.val, by have := b.isLt; have := kk.isLt; omega⟩) (fun _ _ => rfl)).symm

/-- The result array the kernel leaves: entry j is `Gn` at j's coordinates. -/
def G (c : Dev nD) : Mat 4096 4096 := fun j => Gn V c (j 0).val (j 1).val

theorem out_block (c : Dev nD) (t : Fin cfg1.N) (h3 : t.val % 43 = 42) (p q : Fin 1024) :
    (R1.outsAt V c t.val t.isLt).1 (ix2 p q) = Gn V c (t.val / 172 * 1024 + p.val) (t.val / 43 % 4 * 1024 + q.val) := by
  rw [out_eq_acc V c t h3, acc_eq V c t.val t.isLt p q, h3]
  exact sum_parts V c _ _ p q

/-! ## The write-backs, and the array they leave -/

/-- What a write-back at a point of the last contraction step writes is the block of `G` at that point. -/
theorem flushed_eq (c : Dev nD) (t : Fin cfg1.N) (hf : (cfg1.win 3).flush t = true) :
    (R1.dat1 V c).flushed 3 t = ((cfg1.win 3).blk t).view.read (Elt Ideal) (G V c) := by
  have h3 : t.val % 43 = 42 := (flush1_3 t).mp hf
  show (cfg1.win 3).cut (grid1.coords t) ((R1.dat1 V c).after 3 t) = _
  rw [R1.after_3]
  funext y
  obtain ⟨p, q, rfl⟩ : ∃ (p q : Fin 1024), y = ix2 p q := ⟨y 0, y 1, eq_ix2 y⟩
  rw [View.read_apply]
  show (R1.outsAt V c t.val t.isLt).1 (ix2 p q) = G V c (((cfg1.win 3).blk t).view.emb (ix2 p q))
  rw [out_block V c t h3 p q]
  unfold G
  rw [(Blk.emb1_3 t (ix2 p q)).1, (Blk.emb1_3 t (ix2 p q)).2]

/-- Every entry of the array lies in the block of a point of the last contraction step. -/
theorem cover (c : Dev nD) (i : ((cfg1.win 3).arr.view.loc (c.tc : Thread nD τ)).2.ty.Idx) :
    ∃ t : Fin cfg1.N, (cfg1.win 3).flush t = true ∧ i ∈ ((cfg1.win 3).blk t).view.set := by
  have h0 : (i 0).val < 4096 := (i 0).isLt
  have h1 : (i 1).val < 4096 := (i 1).isLt
  obtain ⟨f3, fi, fj⟩ := Blk.last1_facts (i 0).val (i 1).val h0 h1
  refine ⟨Blk.last1 (i 0).val (i 1).val h0 h1, (flush1_3 _).mpr f3, ?_⟩
  generalize Blk.last1 (i 0).val (i 1).val h0 h1 = t at f3 fi fj
  show i ∈ ((View.whole main_v4).slice (win1_3.rect t)).set
  rw [View.set_slice_whole, Rect.mem_set_unit]
  intro a
  match a with
  | ⟨0, _⟩ =>
    show win1_3.index t 0 * win1_3.size 0 ≤ (i 0 : Nat) ∧ (i 0 : Nat) < win1_3.index t 0 * win1_3.size 0 + win1_3.xsize (grid1.coords t) 0
    rw [(Blk.idx1_3 t).1, fi]
    show (i 0).val / 1024 * 1024 ≤ (i 0).val ∧ (i 0).val < (i 0).val / 1024 * 1024 + 1024
    omega
  | ⟨1, _⟩ =>
    show win1_3.index t 1 * win1_3.size 1 ≤ (i 1 : Nat) ∧ (i 1 : Nat) < win1_3.index t 1 * win1_3.size 1 + win1_3.xsize (grid1.coords t) 1
    rw [(Blk.idx1_3 t).2, fj]
    show (i 1).val / 1024 * 1024 ≤ (i 1).val ∧ (i 1).val < (i 1).val / 1024 * 1024 + 1024
    omega

/-- THE RESULT ARRAY: after the kernel, entry (r, s) is Σ_f H[r, f] · (W[f, s] · S[f, 0]). -/
theorem out_array (c : Dev nD) : (R1.dat1 V c).arrAt 3 cfg1.N = G V c :=
  (R1.dat1 V c).arrAt_eq_of_cover 3 (G V c) (flushed_eq V c) (cover c)

/-- The same entry at Fin coordinates. -/
theorem G_ix2 (c : Dev nD) (r s : Fin 4096) :
    G V c (ix2 r s) = ∑ f : Fin 11008, Harr V c (ix2 r f) * (Warr V c (ix2 f s) * Sarr V c (ix2 f (0 : Fin 1))) := by
  show Gn V c r.val s.val = _
  unfold Gn
  refine Finset.sum_congr rfl fun f _ => ?_
  rw [ext2_ix2, ext2_ix2]
  exact congrArg (fun z => Harr V c (ix2 r f) * (Warr V c (ix2 f s) * z)) (ext2_ix2 (Sarr V c) f (0 : Fin 1))

end Cert.KernelIdeal.Val1

end
-- ==== Proof.KernelIdeal.Bridge.lean ====
/-
  The kernel's result array is the specification of its argument arrays.

  The second kernel leaves, at (r, s), Σ_f H[r, f] · (W[f, s] · S[f, 0]), where H is the array the first kernel left — the
  gated hidden activation of x with the two row-scaled projections —, W the down weights as launched, and S the column the
  host lines made of the third scale array. The first kernel read x and the two weight arrays as launched, and its two
  scale columns are the host lines' broadcasts of the first two scale arrays. Substituting, entry (r, s) is the
  specification's sum.
-/
import proofs.«165453_j40484361732127_1_alg».proof.Proof.KernelIdeal.Args
import proofs.«165453_j40484361732127_1_alg».proof.Proof.KernelIdeal.Val0
import proofs.«165453_j40484361732127_1_alg».proof.Proof.KernelIdeal.Val1

noncomputable section

namespace Cert.KernelIdeal.Bridge

open Idealize.ShloMosaic Idealize.ShloMosaic.TcCoe Idealize.SL.Sem Idealize.ShloMosaic.ValueIdx
open Cert.KernelIdeal Cert.KernelIdeal.Gen Cert.SwiGLU

variable (m : (ℓ : Loc nD τ sig) → Buf (Elt Ideal) ℓ)

/-- An [n] array broadcast to an [n, 1] column and read back as an [n] array is the array. -/
theorem colOf_bcast4096 (x : Col 4096) :
    Val0.colOf (broadcastInDim S4096x1 ![0] bcast_S4096_S4096x1_0 x : Mat 4096 1) = x := by
  funext k
  obtain ⟨k0, rfl⟩ : ∃ k0 : Fin 4096, k = ix1 k0 := ⟨k 0, eq_ix1 k⟩
  rw [Val0.colOf_ix1]
  exact broadcastInDim_apply _ bcast_S4096_S4096x1_0 x (ix2 k0 (0 : Fin 1)) (ix1 k0) (fun a => match a with
    | ⟨0, _⟩ => by show k0.val = if (4096 : Nat) = 1 then 0 else k0.val; rw [if_neg (by decide)])

/-- THE KERNEL'S VALUE: at the return the result array holds the specification of the seven launch arrays. -/
theorem result_eq (c : Dev nD) :
    Asm.W3 m c (Proc.devRef .tc main_v4)
      = Cert.SwiGLU.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [Asm.W3_v4, Val1.out_array]
  funext j
  obtain ⟨r, s, rfl⟩ : ∃ (r s : Fin 4096), j = ix2 r s := ⟨j 0, j 1, eq_ix2 j⟩
  rw [Val1.G_ix2, out_ix2]
  unfold outAt
  refine Finset.sum_congr rfl fun f _ => ?_
  have hH : Val1.Harr (Asm.V2 m) c (ix2 r f)
      = Cert.SwiGLU.hidden (m ((c : Thread nD τ).loc main_arg0)) (m ((c : Thread nD τ).loc main_arg1)) (m ((c : Thread nD τ).loc main_arg2)) (m ((c : Thread nD τ).loc main_arg3)) (m ((c : Thread nD τ).loc main_arg4)) r f := by
    show Asm.V2 m c main_v3 (ix2 r f) = _
    rw [Asm.V2_v3, Val0.hidden_array]
    show Cert.SwiGLU.hidden (Asm.V1 m c main_arg0) (Asm.V1 m c main_arg1) (Val0.colOf (Asm.V1 m c main_v0))
      (Asm.V1 m c main_arg3) (Val0.colOf (Asm.V1 m c main_v1)) r f = _
    rw [Asm.V1_arg0, Asm.V1_arg1, Asm.V1_arg3, Asm.V1_v0, Asm.V1_v1, colOf_bcast4096, colOf_bcast4096]
  have hW : Val1.Warr (Asm.V2 m) c (ix2 f s) = (m ((c : Thread nD τ).loc main_arg5)) (ix2 f s) := by
    show Asm.V2 m c main_arg5 (ix2 f s) = _
    rw [Asm.V2_arg5]
  have hS : Val1.Sarr (Asm.V2 m) c (ix2 f (0 : Fin 1)) = (m ((c : Thread nD τ).loc main_arg6)) (ix1 f) := by
    show Asm.V2 m c main_v2 (ix2 f (0 : Fin 1)) = _
    rw [Asm.V2_v2]
    exact broadcastInDim_apply _ bcast_S11008_S11008x1_0 _ (ix2 f (0 : Fin 1)) (ix1 f) (fun a => match a with
      | ⟨0, _⟩ => by show f.val = if (11008 : Nat) = 1 then 0 else f.val; rw [if_neg (by decide)])
  rw [hH, hW, hS]

end Cert.KernelIdeal.Bridge

end
-- ==== Proof.RefSpec.lean ====
/-
  The reference program's result IS the specification, entry by entry.

  The reference scales each weight matrix by its per-row scale (a [D] column broadcast along the rows), forms the two
  projections as plain matrix products, applies silu to the gate projection as g · (1 / (1 + e^(−g))), multiplies by the up
  projection and takes one more plain matrix product with the scaled down weights. Read at an entry:
    * the scaled weights at (k, f) are wq[k, f] · s[k];
    * a projection at (p, f) is Σ_k x[p, k] · (wq[k, f] · s[k]);
    * 1 / (1 + e^(−g)) is the logistic function of g, the literal pattern 0x3F800000 being the real number one;
    * the result at (p, n) is Σ_f hidden(p, f) · (w2q[f, n] · s2[f]).
  Every product is met in the order the specification writes it, so no law of the extended reals is used at all.
-/
import proofs.«165453_j40484361732127_1_alg».proof.Proof.Gen.ReferenceIdeal.Read
import proofs.«165453_j40484361732127_1_alg».proof.Proof.Spec
import Idealize.ShloMosaic.Lib.ValueIdx
import Idealize.ShloMosaic.Lib.IdealHost
import Idealize.ShloMosaic.PureOps.Ideal.Laws

noncomputable section

namespace Cert.ReferenceIdeal.RefSpec

open Cert.ReferenceIdeal Cert.ReferenceIdeal.Read Cert.SwiGLU Idealize.ShloMosaic Idealize.ShloMosaic.ValueIdx

/-! The index functions of the generated reading, at an index given by its two coordinates. -/

theorem lidx9 (p : Fin 4096) (f : Fin 11008) (k : Fin 4096) : lidx_main_v9 (ix2 p f) k = ix2 p k :=
  funext fun a => Fin.ext (by match a with | ⟨0, _⟩ => rfl | ⟨1, _⟩ => rfl)
theorem ridx9 (p : Fin 4096) (f : Fin 11008) (k : Fin 4096) : ridx_main_v9 (ix2 p f) k = ix2 k f :=
  funext fun a => Fin.ext (by match a with | ⟨0, _⟩ => rfl | ⟨1, _⟩ => rfl)
theorem lidx10 (p : Fin 4096) (f : Fin 11008) (k : Fin 4096) : lidx_main_v10 (ix2 p f) k = ix2 p k :=
  funext fun a => Fin.ext (by match a with | ⟨0, _⟩ => rfl | ⟨1, _⟩ => rfl)
theorem ridx10 (p : Fin 4096) (f : Fin 11008) (k : Fin 4096) : ridx_main_v10 (ix2 p f) k = ix2 k f :=
  funext fun a => Fin.ext (by match a with | ⟨0, _⟩ => rfl | ⟨1, _⟩ => rfl)
theorem lidx13 (p : Fin 4096) (n : Fin 4096) (f : Fin 11008) : lidx_main_v13 (ix2 p n) f = ix2 p f :=
  funext fun a => Fin.ext (by match a with | ⟨0, _⟩ => rfl | ⟨1, _⟩ => rfl)
theorem ridx13 (p : Fin 4096) (n : Fin 4096) (f : Fin 11008) : ridx_main_v13 (ix2 p n) f = ix2 f n :=
  funext fun a => Fin.ext (by match a with | ⟨0, _⟩ => rfl | ⟨1, _⟩ => rfl)

/-- The row of a [D, H] entry, through the two broadcasts of a [D] column: entry (k, f) reads the column at k. -/
theorem col1 (k : Fin 4096) (f : Fin 11008) : idx_main_v0 (idx_main_v1 (ix2 k f)) = ix1 k :=
  funext fun a => Fin.ext (by match a with | ⟨0, _⟩ => rfl)
theorem col4 (k : Fin 4096) (f : Fin 11008) : idx_main_v3 (idx_main_v4 (ix2 k f)) = ix1 k :=
  funext fun a => Fin.ext (by match a with | ⟨0, _⟩ => rfl)
theorem col7 (f : Fin 11008) (n : Fin 4096) : idx_main_v6 (idx_main_v7 (ix2 f n)) = ix1 f :=
  funext fun a => Fin.ext (by match a with | ⟨0, _⟩ => rfl)

variable (x0 : (⟨S4096x4096, .f32⟩ : BufTy).Contents (Elt Ideal)) (x1 : (⟨S4096x11008, .f32⟩ : BufTy).Contents (Elt Ideal))
  (x2 : (⟨S4096, .f32⟩ : BufTy).Contents (Elt Ideal)) (x3 : (⟨S4096x11008, .f32⟩ : BufTy).Contents (Elt Ideal))
  (x4 : (⟨S4096, .f32⟩ : BufTy).Contents (Elt Ideal)) (x5 : (⟨S11008x4096, .f32⟩ : BufTy).Contents (Elt Ideal))
  (x6 : (⟨S11008, .f32⟩ : BufTy).Contents (Elt Ideal))

/-! The scaled weights at an entry: wq[k, f] · s[k]. -/

theorem v2_at (k : Fin 4096) (f : Fin 11008) : val_main_v2 (F := Ideal) x1 x2 (ix2 k f) = x1 (ix2 k f) * x2 (ix1 k) := by
  rw [val_main_v2_apply, val_main_v1_apply, val_main_v0_apply, col1, Ideal.mulf_def]
theorem v5_at (k : Fin 4096) (f : Fin 11008) : val_main_v5 (F := Ideal) x3 x4 (ix2 k f) = x3 (ix2 k f) * x4 (ix1 k) := by
  rw [val_main_v5_apply, val_main_v4_apply, val_main_v3_apply, col4, Ideal.mulf_def]
theorem v8_at (f : Fin 11008) (n : Fin 4096) : val_main_v8 (F := Ideal) x5 x6 (ix2 f n) = x5 (ix2 f n) * x6 (ix1 f) := by
  rw [val_main_v8_apply, val_main_v7_apply, val_main_v6_apply, col7, Ideal.mulf_def]

/-! The two projections at an entry. -/

theorem v9_at (p : Fin 4096) (f : Fin 11008) : val_main_v9 (F := Ideal) x0 x1 x2 (ix2 p f) = proj x0 x1 x2 p f := by
  rw [val_main_v9_apply, proj]
  exact Finset.sum_congr rfl fun k _ => by rw [lidx9, ridx9, v2_at]
theorem v10_at (p : Fin 4096) (f : Fin 11008) : val_main_v10 (F := Ideal) x0 x3 x4 (ix2 p f) = proj x0 x3 x4 p f := by
  rw [val_main_v10_apply, proj]
  exact Finset.sum_congr rfl fun k _ => by rw [lidx10, ridx10, v5_at]

/-- silu of the gate projection at an entry: g · logistic g, the expression 1 / (1 + e^(−g)) being the logistic function. -/
theorem v11_at (p : Fin 4096) (f : Fin 11008) :
    val_main_v11 (F := Ideal) x0 x1 x2 (ix2 p f) = proj x0 x1 x2 p f * Ideal.logistic (proj x0 x1 x2 p f) := by
  rw [val_main_v11_apply, val_main_call0_v5_apply, val_main_call0_v4_apply, val_main_call0_cst_0_apply,
    val_main_call0_v3_apply, val_main_call0_v2_apply, val_main_call0_cst_apply, val_main_call0_v1_apply,
    val_main_call0_v0_apply, v9_at]
  simp only [Ideal.ofBits_def, Ideal.ofBits_one_f32, Ideal.mulf_def, Ideal.addf_def, Ideal.hostDivf_def, Ideal.hostUnary_exp_def,
    Ideal.hostNegf_def, Ideal.negf_def, Ideal.logistic]

/-- The gated hidden activation at an entry. -/
theorem v12_at (p : Fin 4096) (f : Fin 11008) :
    val_main_v12 (F := Ideal) x0 x1 x2 x3 x4 (ix2 p f) = Cert.SwiGLU.hidden x0 x1 x2 x3 x4 p f := by
  rw [val_main_v12_apply, v11_at, v10_at, Ideal.mulf_def, Cert.SwiGLU.hidden]

/-- The reference's result is the specification. -/
theorem ref_eq :
    Cert.ReferenceIdeal.Read.val_main_v13 (F := Ideal) x0 x1 x2 x3 x4 x5 x6 = Cert.SwiGLU.out x0 x1 x2 x3 x4 x5 x6 := by
  funext j
  -- the two coordinates of the entry, as numbers below 4096
  obtain ⟨p, n, rfl⟩ : ∃ (p : Fin 4096) (n : Fin 4096), j = ix2 p n := ⟨j 0, j 1, eq_ix2 j⟩
  rw [out_ix2, val_main_v13_apply, outAt]
  exact Finset.sum_congr rfl fun f _ => by rw [lidx13, ridx13, v12_at, v8_at]

end Cert.ReferenceIdeal.RefSpec

end
-- ==== Proof.lean ====
/-
  A SwiGLU feed-forward block with row-scaled weights, as two kernels, against its plain reference.

  With x an [M, D] array, w1_q, w3_q [D, H] arrays with one scale per row (s1, s3 : [D]) and w2_q an [H, E] array with one
  scale per row (s2 : [H]), both programs compute, over the extended reals,
      out[p, n] = Σ_f ( silu(g[p, f]) · u[p, f] ) · (w2_q[f, n] · s2[f]),
      g[p, f] = Σ_k x[p, k] · (w1_q[k, f] · s1[k]),   u[p, f] = Σ_k x[p, k] · (w3_q[k, f] · s3[k]),   silu(g) = g · logistic(g).
  The reference forms the three scaled weight arrays and takes three whole matrix products; its logistic is spelt
  1 / (1 + exp(−g)), which is the same function of an extended real. The kernel program cuts each product's contraction
  axis into consecutive blocks and adds the blocks' partial products into an accumulator that is cleared at the first
  block: the first kernel accumulates g and u over 4 blocks of 1024 and stores silu(g) · u at the last, the second
  accumulates the final product over 43 blocks of 256 and copies the accumulator out at the last. A finite sum in the
  commutative monoid of extended reals may be cut into consecutive blocks and added block by block, so the two programs
  agree entry by entry; no entry needs to be finite for that, and the precondition is not used.

  Both kernel programs (the one read at machine words and the one read at extended reals have the same text) terminate
  without a fault and leave the seven arguments as launched: no host line and no kernel writes an argument. That is read
  off one run of each program, which follows every unscoped buffer from the launch to the return.
-/
import proofs.«165453_j40484361732127_1_alg».proof.Defs
import proofs.«165453_j40484361732127_1_alg».proof.Proof.Gen.Kernel
import proofs.«165453_j40484361732127_1_alg».proof.Proof.Gen.KernelIdeal
import proofs.«165453_j40484361732127_1_alg».proof.Proof.Gen.ReferenceIdeal
import proofs.«165453_j40484361732127_1_alg».proof.Proof.Gen.ReferenceIdeal.Run
import proofs.«165453_j40484361732127_1_alg».proof.Proof.Gen.ReferenceIdeal.Read
import proofs.«165453_j40484361732127_1_alg».proof.Proof.Gen.Pre_finite_inputs
import proofs.«165453_j40484361732127_1_alg».proof.Proof.Kernel.Args
import proofs.«165453_j40484361732127_1_alg».proof.Proof.KernelIdeal.Bridge
import proofs.«165453_j40484361732127_1_alg».proof.Proof.RefSpec

noncomputable section

namespace Cert.Proof

open Idealize.ShloMosaic Idealize.SL.Sem

/-- The word-level kernel program runs to the end and leaves its arguments as launched. -/
theorem frame_k : Cert.frame_Kernel := fun m ρ _ =>
  (θ_run (Cert.Kernel.defs (F := Bits)) _ _).mono
    (fun _ h c => ⟨(h c _ (Cert.Kernel.Asm.mem_uc Cert.Kernel.main_arg0 (by decide))).trans (Cert.Kernel.Asm.W3_arg0 m c),
      (h c _ (Cert.Kernel.Asm.mem_uc Cert.Kernel.main_arg1 (by decide))).trans (Cert.Kernel.Asm.W3_arg1 m c),
      (h c _ (Cert.Kernel.Asm.mem_uc Cert.Kernel.main_arg2 (by decide))).trans (Cert.Kernel.Asm.W3_arg2 m c),
      (h c _ (Cert.Kernel.Asm.mem_uc Cert.Kernel.main_arg3 (by decide))).trans (Cert.Kernel.Asm.W3_arg3 m c),
      (h c _ (Cert.Kernel.Asm.mem_uc Cert.Kernel.main_arg4 (by decide))).trans (Cert.Kernel.Asm.W3_arg4 m c),
      (h c _ (Cert.Kernel.Asm.mem_uc Cert.Kernel.main_arg5 (by decide))).trans (Cert.Kernel.Asm.W3_arg5 m c),
      (h c _ (Cert.Kernel.Asm.mem_uc Cert.Kernel.main_arg6 (by decide))).trans (Cert.Kernel.Asm.W3_arg6 m c)⟩)
    (Cert.Kernel.Asm.run_all (F := Bits) m ρ)

/-- So does the kernel program read at extended reals. -/
theorem frame_ki : Cert.frame_KernelIdeal := fun m ρ _ =>
  (θ_run (Cert.KernelIdeal.defs (F := Ideal)) _ _).mono
    (fun _ h c => ⟨(h c _ (Cert.KernelIdeal.Asm.mem_uc Cert.KernelIdeal.main_arg0 (by decide))).trans (Cert.KernelIdeal.Asm.W3_arg0 m c),
      (h c _ (Cert.KernelIdeal.Asm.mem_uc Cert.KernelIdeal.main_arg1 (by decide))).trans (Cert.KernelIdeal.Asm.W3_arg1 m c),
      (h c _ (Cert.KernelIdeal.Asm.mem_uc Cert.KernelIdeal.main_arg2 (by decide))).trans (Cert.KernelIdeal.Asm.W3_arg2 m c),
      (h c _ (Cert.KernelIdeal.Asm.mem_uc Cert.KernelIdeal.main_arg3 (by decide))).trans (Cert.KernelIdeal.Asm.W3_arg3 m c),
      (h c _ (Cert.KernelIdeal.Asm.mem_uc Cert.KernelIdeal.main_arg4 (by decide))).trans (Cert.KernelIdeal.Asm.W3_arg4 m c),
      (h c _ (Cert.KernelIdeal.Asm.mem_uc Cert.KernelIdeal.main_arg5 (by decide))).trans (Cert.KernelIdeal.Asm.W3_arg5 m c),
      (h c _ (Cert.KernelIdeal.Asm.mem_uc Cert.KernelIdeal.main_arg6 (by decide))).trans (Cert.KernelIdeal.Asm.W3_arg6 m c)⟩)
    (Cert.KernelIdeal.Asm.run_all (F := Ideal) m ρ)

/-- The reference is host lines only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing: the kernel program's text read at extended reals. -/
theorem preserves : Cert.preserves_Kernel_KernelIdeal := trivial

/-- From memories that agree on the arguments both programs end with the result array at the specification of those
    arguments: the kernel program by its run and the block-by-block sums, the reference by its run read stage by stage. -/
theorem algebraic : Cert.algebraic_KernelIdeal_ReferenceIdeal := by
  intro m ρ m' ρ' _ hagree
  refine ⟨fun c => Cert.SwiGLU.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run (Cert.KernelIdeal.defs (F := Ideal)) _ _).mono
      (fun _ h c => ⟨(h c _ (Cert.KernelIdeal.Asm.mem_uc Cert.KernelIdeal.main_v4 (by decide))).trans (Cert.KernelIdeal.Bridge.result_eq m c),
        (h c _ (Cert.KernelIdeal.Asm.mem_uc Cert.KernelIdeal.main_arg0 (by decide))).trans (Cert.KernelIdeal.Asm.W3_arg0 m c),
        (h c _ (Cert.KernelIdeal.Asm.mem_uc Cert.KernelIdeal.main_arg1 (by decide))).trans (Cert.KernelIdeal.Asm.W3_arg1 m c),
        (h c _ (Cert.KernelIdeal.Asm.mem_uc Cert.KernelIdeal.main_arg2 (by decide))).trans (Cert.KernelIdeal.Asm.W3_arg2 m c),
        (h c _ (Cert.KernelIdeal.Asm.mem_uc Cert.KernelIdeal.main_arg3 (by decide))).trans (Cert.KernelIdeal.Asm.W3_arg3 m c),
        (h c _ (Cert.KernelIdeal.Asm.mem_uc Cert.KernelIdeal.main_arg4 (by decide))).trans (Cert.KernelIdeal.Asm.W3_arg4 m c),
        (h c _ (Cert.KernelIdeal.Asm.mem_uc Cert.KernelIdeal.main_arg5 (by decide))).trans (Cert.KernelIdeal.Asm.W3_arg5 m c),
        (h c _ (Cert.KernelIdeal.Asm.mem_uc Cert.KernelIdeal.main_arg6 (by decide))).trans (Cert.KernelIdeal.Asm.W3_arg6 m c)⟩)
      (Cert.KernelIdeal.Asm.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, Cert.ReferenceIdeal.RefSpec.ref_eq]
    rw [(hagree c).1, (hagree c).2.1, (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
